-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S2x524288 : Shape := ⟨2, ![2, 524288]⟩
abbrev S524288 : Shape := ⟨1, ![524288]⟩
abbrev S2x262144 : Shape := ⟨2, ![2, 262144]⟩
abbrev S262144x107 : Shape := ⟨2, ![262144, 107]⟩
abbrev S256x256 : Shape := ⟨2, ![256, 256]⟩
abbrev S256 : Shape := ⟨1, ![256]⟩
abbrev S107x256 : Shape := ⟨2, ![107, 256]⟩
abbrev S256x1 : Shape := ⟨2, ![256, 1]⟩
abbrev S1 : Shape := ⟨1, ![1]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S524288 : S_.BroadcastsInDim S524288 (![] : Fin 0 → Fin S524288.rank)
  reducesTo_S524288_S_d0 : S524288.ReducesTo [0] S_
  bcast_S_S262144x107 : S_.BroadcastsInDim S262144x107 (![] : Fin 0 → Fin S262144x107.rank)
  reducesTo_S262144x107_S_d0_1 : S262144x107.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S107x256 : S_.BroadcastsInDim S107x256 (![] : Fin 0 → Fin S107x256.rank)
  reducesTo_S107x256_S_d0_1 : S107x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S256 .f32) (main_arg17 : FVec F S256x1 .f32) (main_arg18 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x1 .f32 := Host.absf main_arg17
  let main_cst_28 : FVec F S_ .f32 := constant S_ .f32 0x7F800000#32
  let main_v75 : FVec F S256x1 .f32 := broadcastInDim S256x1 ![] bcast_S_S256x1 main_cst_28
  let main_v76 : IVec S256x1 1 := cmpf .olt main_v74 main_v75
  let main_c_29 : IVec S_ 1 := constantI S_ 1 1#1
  let main_v77 : IVec S_ 1 := (fun x v => Host.reduce IntOp.andi x v reducesTo_S256x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S107x256 .f32) (main_arg14 : FVec F S256 .f32) (main_arg15 : FVec F S256 .f32) (main_arg16 : FVec F S256 .f32) (main_arg17 : FVec F S256x1 .f32) (main_arg18 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S107x256 .f32 := Host.absf main_arg13
  let main_cst_20 : FVec F S_ .f32 := constant S_ .f32 0x7F800000#32
  let main_v55 : FVec F S107x256 .f32 := broadcastInDim S107x256 ![] bcast_S_S107x256 main_cst_20
  let main_v56 : IVec S107x256 1 := cmpf .olt main_v54 main_v55
  let main_c_21 : IVec S_ 1 := constantI S_ 1 1#1
  let main_v57 : IVec S_ 1 := (fun x v => Host.reduce IntOp.andi x v reducesTo_S107x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_v63 main_v67

def fn_part2 {F : FTy → Type} [FloatOps F] (main_arg9 : FVec F S256 .f32) (main_arg10 : FVec F S256 .f32) (main_arg11 : FVec F S256 .f32) (main_arg12 : FVec F S256 .f32) (main_arg13 : FVec F S107x256 .f32) (main_arg14 : FVec F S256 .f32) (main_arg15 : FVec F S256 .f32) (main_arg16 : FVec F S256 .f32) (main_arg17 : FVec F S256x1 .f32) (main_arg18 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_v48 main_v49 main_v50

def fn_part1 {F : FTy → Type} [FloatOps F] (main_arg6 : FVec F S256 .f32) (main_arg7 : FVec F S256x256 .f32) (main_arg8 : FVec F S256 .f32) (main_arg9 : FVec F S256 .f32) (main_arg10 : FVec F S256 .f32) (main_arg11 : FVec F S256 .f32) (main_arg12 : FVec F S256 .f32) (main_arg13 : FVec F S107x256 .f32) (main_arg14 : FVec F S256 .f32) (main_arg15 : FVec F S256 .f32) (main_arg16 : FVec F S256 .f32) (main_arg17 : FVec F S256x1 .f32) (main_arg18 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S16384x256 .f32) (main_arg1 : IVec S2x524288 32) (main_arg2 : FVec F S524288 .f32) (main_arg3 : IVec S2x262144 32) (main_arg4 : FVec F S262144x107 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256 .f32) (main_arg12 : FVec F S256 .f32) (main_arg13 : FVec F S107x256 .f32) (main_arg14 : FVec F S256 .f32) (main_arg15 : FVec F S256 .f32) (main_arg16 : FVec F S256 .f32) (main_arg17 : FVec F S256x1 .f32) (main_arg18 : FVec F S1 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S524288 .f32 := Host.absf main_arg2
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S262144x107 .f32 := Host.absf main_arg4
  let main_cst_2 : FVec F S_ .f32 := constant S_ .f32 0x7F800000#32
  let main_v10 : FVec F S262144x107 .f32 := broadcastInDim S262144x107 ![] bcast_S_S262144x107 main_cst_2
  let main_v11 : IVec S262144x107 1 := cmpf .olt main_v9 main_v10
  let main_c_3 : IVec S_ 1 := constantI S_ 1 1#1
  let main_v12 : IVec S_ 1 := (fun x v => Host.reduce IntOp.andi x v reducesTo_S262144x107_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S16384x256 : Shape := ⟨2, ![16384, 256]⟩
abbrev S2x524288 : Shape := ⟨2, ![2, 524288]⟩
abbrev S524288 : Shape := ⟨1, ![524288]⟩
abbrev S2x262144 : Shape := ⟨2, ![2, 262144]⟩
abbrev S262144x107 : Shape := ⟨2, ![262144, 107]⟩
abbrev S256x256 : Shape := ⟨2, ![256, 256]⟩
abbrev S256 : Shape := ⟨1, ![256]⟩
abbrev S107x256 : Shape := ⟨2, ![107, 256]⟩
abbrev S256x1 : Shape := ⟨2, ![256, 1]⟩
abbrev S1 : Shape := ⟨1, ![1]⟩
abbrev S16384 : Shape := ⟨1, ![16384]⟩
abbrev S1x524288 : Shape := ⟨2, ![1, 524288]⟩
abbrev S540672 : Shape := ⟨1, ![540672]⟩
abbrev S_ : Shape := ⟨0, ![]⟩
abbrev S540672x1 : Shape := ⟨2, ![540672, 1]⟩
abbrev S4096x256 : Shape := ⟨2, ![4096, 256]⟩
abbrev S540672x256 : Shape := ⟨2, ![540672, 256]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩
abbrev S1x1 : Shape := ⟨2, ![1, 1]⟩
abbrev S262144x1 : Shape := ⟨2, ![262144, 1]⟩
abbrev S4096x107 : Shape := ⟨2, ![4096, 107]⟩
abbrev S4096x1 : Shape := ⟨2, ![4096, 1]⟩
abbrev S4096 : Shape := ⟨1, ![4096]⟩
abbrev S262144 : Shape := ⟨1, ![262144]⟩
abbrev S1x262144 : Shape := ⟨2, ![1, 262144]⟩
abbrev S278528 : Shape := ⟨1, ![278528]⟩
abbrev S278528x1 : Shape := ⟨2, ![278528, 1]⟩
abbrev S278528x256 : Shape := ⟨2, ![278528, 256]⟩

abbrev nBuf : Space → Nat
  | .hbm => 173
  | .vmem => 44
  | .smem => 0
  | _ => 0

abbrev hbmTy0_0 (i : Nat) : BufTy := match i % 128 with
  | 0 => ⟨S16384x256, .f32⟩
  | 1 => ⟨S2x524288, .i32⟩
  | 2 => ⟨S524288, .f32⟩
  | 3 => ⟨S2x262144, .i32⟩
  | 4 => ⟨S262144x107, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S256, .f32⟩
  | 12 => ⟨S256, .f32⟩
  | 13 => ⟨S107x256, .f32⟩
  | 14 => ⟨S256, .f32⟩
  | 15 => ⟨S256, .f32⟩
  | 16 => ⟨S256, .f32⟩
  | 17 => ⟨S256x1, .f32⟩
  | 18 => ⟨S1, .f32⟩
  | 19 => ⟨S16384, .i32⟩
  | 20 => ⟨S1x524288, .i32⟩
  | 21 => ⟨S524288, .i32⟩
  | 22 => ⟨S540672, .i32⟩
  | 23 => ⟨S1x524288, .i32⟩
  | 24 => ⟨S524288, .i32⟩
  | 25 => ⟨S540672, .i32⟩
  | 26 => ⟨S_, .f32⟩
  | 27 => ⟨S16384, .f32⟩
  | 28 => ⟨S540672, .f32⟩
  | 29 => ⟨S_, .f32⟩
  | 30 => ⟨S16384, .f32⟩
  | 31 => ⟨S540672x1, .i32⟩
  | 32 => ⟨S16384, .f32⟩
  | 33 => ⟨S_, .f32⟩
  | 34 => ⟨S16384, .f32⟩
  | 35 => ⟨S16384, .i1⟩
  | 36 => ⟨S_, .f32⟩
  | 37 => ⟨S16384, .f32⟩
  | 38 => ⟨S16384, .i1⟩
  | 39 => ⟨S_, .f32⟩
  | 40 => ⟨S_, .f32⟩
  | 41 => ⟨S16384, .f32⟩
  | 42 => ⟨S16384, .f32⟩
  | 43 => ⟨S16384, .f32⟩
  | 44 => ⟨S_, .f32⟩
  | 45 => ⟨S_, .f32⟩
  | 46 => ⟨S16384, .f32⟩
  | 47 => ⟨S16384, .f32⟩
  | 48 => ⟨S_, .i32⟩
  | 49 => ⟨S540672, .i32⟩
  | 50 => ⟨S540672, .i1⟩
  | 51 => ⟨S_, .i32⟩
  | 52 => ⟨S540672, .i32⟩
  | 53 => ⟨S540672, .i32⟩
  | 54 => ⟨S540672, .i32⟩
  | 55 => ⟨S540672x1, .i32⟩
  | 56 => ⟨S540672, .f32⟩
  | 57 => ⟨S540672, .f32⟩
  | 58 => ⟨S_, .i32⟩
  | 59 => ⟨S540672, .i32⟩
  | 60 => ⟨S540672, .i1⟩
  | 61 => ⟨S_, .i32⟩
  | 62 => ⟨S540672, .i32⟩
  | 63 => ⟨S540672, .i32⟩
  | 64 => ⟨S540672, .i32⟩
  | 65 => ⟨S540672x1, .i32⟩
  | 66 => ⟨S540672, .f32⟩
  | 67 => ⟨S540672, .f32⟩
  | 68 => ⟨S16384x256, .f32⟩
  | 69 => ⟨S540672x1, .f32⟩
  | 70 => ⟨S_, .i32⟩
  | 71 => ⟨S540672, .i32⟩
  | 72 => ⟨S540672, .i1⟩
  | 73 => ⟨S_, .i32⟩
  | 74 => ⟨S540672, .i32⟩
  | 75 => ⟨S540672, .i32⟩
  | 76 => ⟨S540672, .i32⟩
  | 77 => ⟨S540672x1, .i32⟩
  | 78 => ⟨S540672x256, .f32⟩
  | 79 => ⟨S540672x256, .f32⟩
  | 80 => ⟨S540672x256, .f32⟩
  | 81 => ⟨S_, .f32⟩
  | 82 => ⟨S16384x256, .f32⟩
  | 83 => ⟨S540672x1, .i32⟩
  | 84 => ⟨S16384x256, .f32⟩
  | 85 => ⟨S1x256, .f32⟩
  | 86 => ⟨S16384x256, .f32⟩
  | 87 => ⟨S16384x256, .f32⟩
  | 88 => ⟨S1x256, .f32⟩
  | 89 => ⟨S1x256, .f32⟩
  | 90 => ⟨S16384x256, .f32⟩
  | 91 => ⟨S1x256, .f32⟩
  | 92 => ⟨S1x256, .f32⟩
  | 93 => ⟨S1x256, .f32⟩
  | 94 => ⟨S1x256, .f32⟩
  | 95 => ⟨S1x1, .f32⟩
  | 96 => ⟨S262144x1, .f32⟩
  | 97 => ⟨S262144, .f32⟩
  | 98 => ⟨S16384, .i32⟩
  | 99 => ⟨S1x262144, .i32⟩
  | 100 => ⟨S262144, .i32⟩
  | 101 => ⟨S278528, .i32⟩
  | 102 => ⟨S1x262144, .i32⟩
  | 103 => ⟨S262144, .i32⟩
  | 104 => ⟨S278528, .i32⟩
  | 105 => ⟨S_, .f32⟩
  | 106 => ⟨S16384, .f32⟩
  | 107 => ⟨S278528, .f32⟩
  | 108 => ⟨S_, .f32⟩
  | 109 => ⟨S16384, .f32⟩
  | 110 => ⟨S278528x1, .i32⟩
  | 111 => ⟨S16384, .f32⟩
  | 112 => ⟨S_, .f32⟩
  | 113 => ⟨S16384, .f32⟩
  | 114 => ⟨S16384, .i1⟩
  | 115 => ⟨S_, .f32⟩
  | 116 => ⟨S16384, .f32⟩
  | 117 => ⟨S16384, .i1⟩
  | 118 => ⟨S_, .f32⟩
  | 119 => ⟨S_, .f32⟩
  | 120 => ⟨S16384, .f32⟩
  | 121 => ⟨S16384, .f32⟩
  | 122 => ⟨S16384, .f32⟩
  | 123 => ⟨S_, .f32⟩
  | 124 => ⟨S_, .f32⟩
  | 125 => ⟨S16384, .f32⟩
  | 126 => ⟨S16384, .f32⟩
  | 127 => ⟨S_, .i32⟩
  | _ => ⟨S16384x256, .f32⟩

abbrev hbmTy0_1 (i : Nat) : BufTy := match i % 128 with
  | 0 => ⟨S278528, .i32⟩
  | 1 => ⟨S278528, .i1⟩
  | 2 => ⟨S_, .i32⟩
  | 3 => ⟨S278528, .i32⟩
  | 4 => ⟨S278528, .i32⟩
  | 5 => ⟨S278528, .i32⟩
  | 6 => ⟨S278528x1, .i32⟩
  | 7 => ⟨S278528, .f32⟩
  | 8 => ⟨S278528, .f32⟩
  | 9 => ⟨S_, .i32⟩
  | 10 => ⟨S278528, .i32⟩
  | 11 => ⟨S278528, .i1⟩
  | 12 => ⟨S_, .i32⟩
  | 13 => ⟨S278528, .i32⟩
  | 14 => ⟨S278528, .i32⟩
  | 15 => ⟨S278528, .i32⟩
  | 16 => ⟨S278528x1, .i32⟩
  | 17 => ⟨S278528, .f32⟩
  | 18 => ⟨S278528, .f32⟩
  | 19 => ⟨S16384x256, .f32⟩
  | 20 => ⟨S278528x1, .f32⟩
  | 21 => ⟨S_, .i32⟩
  | 22 => ⟨S278528, .i32⟩
  | 23 => ⟨S278528, .i1⟩
  | 24 => ⟨S_, .i32⟩
  | 25 => ⟨S278528, .i32⟩
  | 26 => ⟨S278528, .i32⟩
  | 27 => ⟨S278528, .i32⟩
  | 28 => ⟨S278528x1, .i32⟩
  | 29 => ⟨S278528x256, .f32⟩
  | 30 => ⟨S278528x256, .f32⟩
  | 31 => ⟨S278528x256, .f32⟩
  | 32 => ⟨S_, .f32⟩
  | 33 => ⟨S16384x256, .f32⟩
  | 34 => ⟨S278528x1, .i32⟩
  | 35 => ⟨S16384x256, .f32⟩
  | 36 => ⟨S1x256, .f32⟩
  | 37 => ⟨S16384x256, .f32⟩
  | 38 => ⟨S16384x256, .f32⟩
  | 39 => ⟨S1x256, .f32⟩
  | 40 => ⟨S1x256, .f32⟩
  | 41 => ⟨S16384x256, .f32⟩
  | 42 => ⟨S1x256, .f32⟩
  | 43 => ⟨S1x256, .f32⟩
  | 44 => ⟨S16384x256, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .f32⟩
  | .local _ .vmem, ⟨4, _⟩ => ⟨S4096x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S1x256, .f32⟩
  | .local _ .vmem, ⟨10, _⟩ => ⟨S1x256, .f32⟩
  | .local _ .vmem, ⟨11, _⟩ => ⟨S2048x256, .f32⟩
  | .local _ .vmem, ⟨12, _⟩ => ⟨S2048x256, .f32⟩
  | .local _ .vmem, ⟨13, _⟩ => ⟨S4096x107, .f32⟩
  | .local _ .vmem, ⟨14, _⟩ => ⟨S4096x107, .f32⟩
  | .local _ .vmem, ⟨15, _⟩ => ⟨S107x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x1, .f32⟩
  | .local _ .vmem, ⟨21, _⟩ => ⟨S4096x1, .f32⟩
  | .local _ .vmem, ⟨22, _⟩ => ⟨S4096x1, .f32⟩
  | .local _ .vmem, ⟨23, _⟩ => ⟨S4096x256, .f32⟩
  | .local _ .vmem, ⟨24, _⟩ => ⟨S4096x256, .f32⟩
  | .local _ .vmem, ⟨25, _⟩ => ⟨S256x256, .f32⟩
  | .local _ .vmem, ⟨26, _⟩ => ⟨S4096x256, .f32⟩
  | .local _ .vmem, ⟨27, _⟩ => ⟨S4096x256, .f32⟩
  | .local _ .vmem, ⟨28, _⟩ => ⟨S2048x256, .f32⟩
  | .local _ .vmem, ⟨29, _⟩ => ⟨S2048x256, .f32⟩
  | .local _ .vmem, ⟨30, _⟩ => ⟨S2048x256, .f32⟩
  | .local _ .vmem, ⟨31, _⟩ => ⟨S2048x256, .f32⟩
  | .local _ .vmem, ⟨32, _⟩ => ⟨S1x256, .f32⟩
  | .local _ .vmem, ⟨33, _⟩ => ⟨S1x256, .f32⟩
  | .local _ .vmem, ⟨34, _⟩ => ⟨S2048x256, .f32⟩
  | .local _ .vmem, ⟨35, _⟩ => ⟨S2048x256, .f32⟩
  | .local _ .vmem, ⟨36, _⟩ => ⟨S2048x256, .f32⟩
  | .local _ .vmem, ⟨37, _⟩ => ⟨S2048x256, .f32⟩
  | .local _ .vmem, ⟨38, _⟩ => ⟨S2048x256, .f32⟩
  | .local _ .vmem, ⟨39, _⟩ => ⟨S2048x256, .f32⟩
  | .local _ .vmem, ⟨40, _⟩ => ⟨S1x256, .f32⟩
  | .local _ .vmem, ⟨41, _⟩ => ⟨S1x256, .f32⟩
  | .local _ .vmem, ⟨42, _⟩ => ⟨S2048x256, .f32⟩
  | .local _ .vmem, ⟨43, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_v18 : Ref sig .tc := ⟨.hbm, 47, rfl⟩
abbrev main_c : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_6 : Ref sig .tc := ⟨.hbm, 58, rfl⟩
abbrev main_v27 : Ref sig .tc := ⟨.hbm, 59, rfl⟩
abbrev main_v28 : Ref sig .tc := ⟨.hbm, 60, rfl⟩
abbrev main_c_7 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_8 : Ref sig .tc := ⟨.hbm, 70, rfl⟩
abbrev main_v37 : Ref sig .tc := ⟨.hbm, 71, rfl⟩
abbrev main_v38 : Ref sig .tc := ⟨.hbm, 72, rfl⟩
abbrev main_c_9 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_10 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_11 : Ref sig .tc := ⟨.hbm, 105, rfl⟩
abbrev main_v69 : Ref sig .tc := ⟨.hbm, 106, rfl⟩
abbrev main_v70 : Ref sig .tc := ⟨.hbm, 107, rfl⟩
abbrev main_cst_12 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_13 : Ref sig .tc := ⟨.hbm, 112, rfl⟩
abbrev main_v74 : Ref sig .tc := ⟨.hbm, 113, rfl⟩
abbrev main_v75 : Ref sig .tc := ⟨.hbm, 114, rfl⟩
abbrev main_cst_14 : Ref sig .tc := ⟨.hbm, 115, rfl⟩
abbrev main_v76 : Ref sig .tc := ⟨.hbm, 116, rfl⟩
abbrev main_v77 : Ref sig .tc := ⟨.hbm, 117, rfl⟩
abbrev main_cst_15 : Ref sig .tc := ⟨.hbm, 118, rfl⟩
abbrev main_call2_v0 : Ref sig .tc := ⟨.hbm, 119, rfl⟩
abbrev main_call2_v1 : Ref sig .tc := ⟨.hbm, 120, rfl⟩
abbrev main_v78 : Ref sig .tc := ⟨.hbm, 121, rfl⟩
abbrev main_v79 : Ref sig .tc := ⟨.hbm, 122, rfl⟩
abbrev main_cst_16 : Ref sig .tc := ⟨.hbm, 123, rfl⟩
abbrev main_call3_v0 : Ref sig .tc := ⟨.hbm, 124, rfl⟩
abbrev main_call3_v1 : Ref sig .tc := ⟨.hbm, 125, rfl⟩
abbrev main_v80 : Ref sig .tc := ⟨.hbm, 126, rfl⟩
abbrev main_c_17 : Ref sig .tc := ⟨.hbm, 127, rfl⟩
abbrev main_v81 : Ref sig .tc := ⟨.hbm, 128, rfl⟩
abbrev main_v82 : Ref sig .tc := ⟨.hbm, 129, rfl⟩
abbrev main_c_18 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_c_19 : Ref sig .tc := ⟨.hbm, 137, rfl⟩
abbrev main_v89 : Ref sig .tc := ⟨.hbm, 138, rfl⟩
abbrev main_v90 : Ref sig .tc := ⟨.hbm, 139, rfl⟩
abbrev main_c_20 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_c_21 : Ref sig .tc := ⟨.hbm, 149, rfl⟩
abbrev main_v99 : Ref sig .tc := ⟨.hbm, 150, rfl⟩
abbrev main_v100 : Ref sig .tc := ⟨.hbm, 151, rfl⟩
abbrev main_c_22 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_23 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem7_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem4_1 : DmaSem sig := 43

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x107 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S107x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4096x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2048x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2048x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S16384 : S_.BroadcastsInDim S16384 (![] : Fin 0 → Fin S16384.rank)
  bcast_S540672_S540672x1_0 : S540672.BroadcastsInDim S540672x1 (![0] : Fin 1 → Fin S540672x1.rank)
  bcast_S_S540672 : S_.BroadcastsInDim S540672 (![] : Fin 0 → Fin S540672.rank)
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S540672x1_S540672x256_0_1 : S540672x1.BroadcastsInDim S540672x256 (![0, 1] : Fin 2 → Fin S540672x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2048x256_S2048 : S2048x256.Reduces [1] S2048
  shapeCasts_S2048_S2048x1 : S2048.ShapeCasts S2048x1
  broadcasts_S2048x1_S2048x256 : S2048x1.Broadcasts S2048x256
  broadcasts_S1x256_S2048x256 : S1x256.Broadcasts S2048x256
  shapeCasts_S256x1_S1x256 : S256x1.ShapeCasts S1x256
  shapeCasts_S1_S1x1 : S1.ShapeCasts S1x1
  inb_S4096x107_S4096x107_0_0 : ∀ a, (![0, 0] : Fin 2 → Nat) a + S4096x107.size a ≤ S4096x107.size a
  h_S4096x107 : 0 < S4096x107.numel
  inb_S107x256_S107x256_0_0 : ∀ a, (![0, 0] : Fin 2 → Nat) a + S107x256.size a ≤ S107x256.size a
  h_S107x256 : 0 < S107x256.numel
  broadcasts_S1x256_S4096x256 : S1x256.Broadcasts S4096x256
  reduces_S4096x256_S4096 : S4096x256.Reduces [1] S4096
  shapeCasts_S4096_S4096x1 : S4096.ShapeCasts S4096x1
  broadcasts_S4096x1_S4096x256 : S4096x1.Broadcasts S4096x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S262144x1_S262144 : S262144x1.ShapeCasts S262144
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S278528_S278528x1_0 : S278528.BroadcastsInDim S278528x1 (![0] : Fin 1 → Fin S278528x1.rank)
  bcast_S_S278528 : S_.BroadcastsInDim S278528 (![] : Fin 0 → Fin S278528.rank)
  shapeCasts_S4096x256_S4096x256 : S4096x256.ShapeCasts S4096x256
  bcast_S278528x1_S278528x256_0_1 : S278528x1.BroadcastsInDim S278528x256 (![0, 1] : Fin 2 → Fin S278528x256.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S4096x256_S256x256_S4096x256_1_0_0_1_n_n_wf : DotDims.WF S4096x256 S256x256 S4096x256 [1] [0] [0] [1] [] []
  gather_S16384x256_S540672x1_S540672x256_1_0_n_n_0_1_1256_wf : GatherDims.WF S16384x256 S540672x1 S540672x256 [1] [0] [] [0] [] 1 ![1, 256]
  scatter_S16384x256_S540672x1_S540672x256_1_0_0_1_wf : ScatterDims.WF S16384x256 S540672x1 S540672x256 [1] [0] [0] 1
  dot_S4096x107_S107x256_S4096x256_1_0_0_1_n_n_wf : DotDims.WF S4096x107 S107x256 S4096x256 [1] [0] [0] [1] [] []
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  gather_S16384x256_S278528x1_S278528x256_1_0_n_n_0_1_1256_wf : GatherDims.WF S16384x256 S278528x1 S278528x256 [1] [0] [] [0] [] 1 ![1, 256]
  scatter_S16384x256_S278528x1_S278528x256_1_0_0_1_wf : ScatterDims.WF S16384x256 S278528x1 S278528x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S16384x256.size a
  hwx0_2 : ∀ i : grid0.Coords, EltTy.bits .f32 = 32 ∨ (Rect.block (s := S16384x256) S4096x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S16384x256.size a
  hwx1_1 : ∀ i : grid1.Coords, EltTy.bits .f32 = 32 ∨ (Rect.block (s := S16384x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S16384x256.size a
  hwx1_4 : ∀ i : grid1.Coords, EltTy.bits .f32 = 32 ∨ (Rect.block (s := S16384x256) S2048x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x107.size a ≤ S262144x107.size a
  hwx2_0 : ∀ i : grid2.Coords, EltTy.bits .f32 = 32 ∨ (Rect.block (s := S262144x107) S4096x107.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S107x256.size a ≤ S107x256.size a
  hwx2_1 : ∀ i : grid2.Coords, EltTy.bits .f32 = 32 ∨ (Rect.block (s := S107x256) S107x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4096x1.size a ≤ S262144x1.size a
  hwx2_7 : ∀ i : grid2.Coords, EltTy.bits .f32 = 32 ∨ (Rect.block (s := S262144x1) S4096x1.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S16384x256.size a
  hwx3_0 : ∀ i : grid3.Coords, EltTy.bits .f32 = 32 ∨ (Rect.block (s := S16384x256) S4096x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x256.size a ≤ S16384x256.size a
  hwx3_2 : ∀ i : grid3.Coords, EltTy.bits .f32 = 32 ∨ (Rect.block (s := S16384x256) S4096x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S16384x256.size a
  hwx4_0 : ∀ i : grid4.Coords, EltTy.bits .f32 = 32 ∨ (Rect.block (s := S16384x256) S2048x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x256.size a ≤ S16384x256.size a
  hwx4_1 : ∀ i : grid4.Coords, EltTy.bits .f32 = 32 ∨ (Rect.block (s := S16384x256) S2048x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x256.size a ≤ S16384x256.size a
  hwx4_4 : ∀ i : grid4.Coords, EltTy.bits .f32 = 32 ∨ (Rect.block (s := S16384x256) S2048x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S16384x256.size a
  hwx5_0 : ∀ i : grid5.Coords, EltTy.bits .f32 = 32 ∨ (Rect.block (s := S16384x256) S2048x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x256.size a ≤ S16384x256.size a
  hwx5_1 : ∀ i : grid5.Coords, EltTy.bits .f32 = 32 ∨ (Rect.block (s := S16384x256) S2048x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x256.size a ≤ S16384x256.size a
  hwx5_4 : ∀ i : grid5.Coords, EltTy.bits .f32 = 32 ∨ (Rect.block (s := S16384x256) S2048x256.size (cc5_transform_4 i) (hinb5_4 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S16384x256_S540672x1_S540672x256_1_0_n_n_0_1_1256 : GatherDims S16384x256 S540672x1 S540672x256 where
  offsetDims := [1]
  collapsedSliceDims := [0]
  operandBatchingDims := []
  startIndicesBatchingDims := []
  startIndexMap := [0]
  indexVectorDim := 1
  sliceSizes := ![1, 256]
  wf := gather_S16384x256_S540672x1_S540672x256_1_0_n_n_0_1_1256_wf
def scatter_S16384x256_S540672x1_S540672x256_1_0_0_1 : ScatterDims S16384x256 S540672x1 S540672x256 where
  updateWindowDims := [1]
  insertedWindowDims := [0]
  scatterDimsToOperandDims := [0]
  indexVectorDim := 1
  wf := scatter_S16384x256_S540672x1_S540672x256_1_0_0_1_wf
def dot_S4096x107_S107x256_S4096x256_1_0_0_1_n_n : DotDims S4096x107 S107x256 S4096x256 where
  lhsContracting := [1]
  rhsContracting := [0]
  lhsNonContracting := [0]
  rhsNonContracting := [1]
  lhsBatch := []
  rhsBatch := []
  wf := dot_S4096x107_S107x256_S4096x256_1_0_0_1_n_n_wf
def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def gather_S16384x256_S278528x1_S278528x256_1_0_n_n_0_1_1256 : GatherDims S16384x256 S278528x1 S278528x256 where
  offsetDims := [1]
  collapsedSliceDims := [0]
  operandBatchingDims := []
  startIndicesBatchingDims := []
  startIndexMap := [0]
  indexVectorDim := 1
  sliceSizes := ![1, 256]
  wf := gather_S16384x256_S278528x1_S278528x256_1_0_n_n_0_1_1256_wf
def scatter_S16384x256_S278528x1_S278528x256_1_0_0_1 : ScatterDims S16384x256 S278528x1 S278528x256 where
  updateWindowDims := [1]
  insertedWindowDims := [0]
  scatterDimsToOperandDims := [0]
  indexVectorDim := 1
  wf := scatter_S16384x256_S278528x1_S278528x256_1_0_0_1_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg4) S4096x107.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S107x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S4096x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v54) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v97) S4096x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v113) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S2048x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v114) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v115) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v116) S2048x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v116) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S2048x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v117) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v118) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v119) S2048x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S16384x256 : Shape := ⟨2, ![16384, 256]⟩
abbrev S2x524288 : Shape := ⟨2, ![2, 524288]⟩
abbrev S524288 : Shape := ⟨1, ![524288]⟩
abbrev S2x262144 : Shape := ⟨2, ![2, 262144]⟩
abbrev S262144x107 : Shape := ⟨2, ![262144, 107]⟩
abbrev S256x256 : Shape := ⟨2, ![256, 256]⟩
abbrev S256 : Shape := ⟨1, ![256]⟩
abbrev S107x256 : Shape := ⟨2, ![107, 256]⟩
abbrev S256x1 : Shape := ⟨2, ![256, 1]⟩
abbrev S1 : Shape := ⟨1, ![1]⟩
abbrev S16384 : Shape := ⟨1, ![16384]⟩
abbrev S1x524288 : Shape := ⟨2, ![1, 524288]⟩
abbrev S540672 : Shape := ⟨1, ![540672]⟩
abbrev S_ : Shape := ⟨0, ![]⟩
abbrev S540672x1 : Shape := ⟨2, ![540672, 1]⟩
abbrev S540672x256 : Shape := ⟨2, ![540672, 256]⟩
abbrev S1x256 : Shape := ⟨2, ![1, 256]⟩
abbrev S16384x1 : Shape := ⟨2, ![16384, 1]⟩
abbrev S262144x256 : Shape := ⟨2, ![262144, 256]⟩
abbrev S262144 : Shape := ⟨1, ![262144]⟩
abbrev S262144x1 : Shape := ⟨2, ![262144, 1]⟩
abbrev S1x1 : Shape := ⟨2, ![1, 1]⟩
abbrev S1x262144 : Shape := ⟨2, ![1, 262144]⟩
abbrev S278528 : Shape := ⟨1, ![278528]⟩
abbrev S278528x1 : Shape := ⟨2, ![278528, 1]⟩
abbrev S278528x256 : Shape := ⟨2, ![278528, 256]⟩

abbrev nBuf : Space → Nat
  | .hbm => 294
  | .vmem => 0
  | .smem => 0
  | _ => 0

abbrev hbmTy0_0 (i : Nat) : BufTy := match i % 128 with
  | 0 => ⟨S16384x256, .f32⟩
  | 1 => ⟨S2x524288, .i32⟩
  | 2 => ⟨S524288, .f32⟩
  | 3 => ⟨S2x262144, .i32⟩
  | 4 => ⟨S262144x107, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S256, .f32⟩
  | 12 => ⟨S256, .f32⟩
  | 13 => ⟨S107x256, .f32⟩
  | 14 => ⟨S256, .f32⟩
  | 15 => ⟨S256, .f32⟩
  | 16 => ⟨S256, .f32⟩
  | 17 => ⟨S256x1, .f32⟩
  | 18 => ⟨S1, .f32⟩
  | 19 => ⟨S16384, .i32⟩
  | 20 => ⟨S1x524288, .i32⟩
  | 21 => ⟨S524288, .i32⟩
  | 22 => ⟨S540672, .i32⟩
  | 23 => ⟨S1x524288, .i32⟩
  | 24 => ⟨S524288, .i32⟩
  | 25 => ⟨S540672, .i32⟩
  | 26 => ⟨S_, .f32⟩
  | 27 => ⟨S16384, .f32⟩
  | 28 => ⟨S540672, .f32⟩
  | 29 => ⟨S_, .f32⟩
  | 30 => ⟨S16384, .f32⟩
  | 31 => ⟨S540672x1, .i32⟩
  | 32 => ⟨S16384, .f32⟩
  | 33 => ⟨S_, .f32⟩
  | 34 => ⟨S16384, .f32⟩
  | 35 => ⟨S16384, .i1⟩
  | 36 => ⟨S_, .f32⟩
  | 37 => ⟨S16384, .f32⟩
  | 38 => ⟨S16384, .i1⟩
  | 39 => ⟨S_, .f32⟩
  | 40 => ⟨S_, .f32⟩
  | 41 => ⟨S16384, .f32⟩
  | 42 => ⟨S16384, .f32⟩
  | 43 => ⟨S16384, .f32⟩
  | 44 => ⟨S_, .f32⟩
  | 45 => ⟨S_, .f32⟩
  | 46 => ⟨S16384, .f32⟩
  | 47 => ⟨S16384, .f32⟩
  | 48 => ⟨S_, .i32⟩
  | 49 => ⟨S540672, .i32⟩
  | 50 => ⟨S540672, .i1⟩
  | 51 => ⟨S_, .i32⟩
  | 52 => ⟨S540672, .i32⟩
  | 53 => ⟨S540672, .i32⟩
  | 54 => ⟨S540672, .i32⟩
  | 55 => ⟨S540672x1, .i32⟩
  | 56 => ⟨S540672, .f32⟩
  | 57 => ⟨S540672, .f32⟩
  | 58 => ⟨S_, .i32⟩
  | 59 => ⟨S540672, .i32⟩
  | 60 => ⟨S540672, .i1⟩
  | 61 => ⟨S_, .i32⟩
  | 62 => ⟨S540672, .i32⟩
  | 63 => ⟨S540672, .i32⟩
  | 64 => ⟨S540672, .i32⟩
  | 65 => ⟨S540672x1, .i32⟩
  | 66 => ⟨S540672, .f32⟩
  | 67 => ⟨S540672, .f32⟩
  | 68 => ⟨S16384x256, .f32⟩
  | 69 => ⟨S540672x1, .f32⟩
  | 70 => ⟨S_, .i32⟩
  | 71 => ⟨S540672, .i32⟩
  | 72 => ⟨S540672, .i1⟩
  | 73 => ⟨S_, .i32⟩
  | 74 => ⟨S540672, .i32⟩
  | 75 => ⟨S540672, .i32⟩
  | 76 => ⟨S540672, .i32⟩
  | 77 => ⟨S540672x1, .i32⟩
  | 78 => ⟨S540672x256, .f32⟩
  | 79 => ⟨S540672x256, .f32⟩
  | 80 => ⟨S540672x256, .f32⟩
  | 81 => ⟨S_, .f32⟩
  | 82 => ⟨S16384x256, .f32⟩
  | 83 => ⟨S540672x1, .i32⟩
  | 84 => ⟨S16384x256, .f32⟩
  | 85 => ⟨S1x256, .f32⟩
  | 86 => ⟨S16384x256, .f32⟩
  | 87 => ⟨S16384x256, .f32⟩
  | 88 => ⟨S16384x256, .f32⟩
  | 89 => ⟨S_, .f32⟩
  | 90 => ⟨S16384, .f32⟩
  | 91 => ⟨S16384x1, .f32⟩
  | 92 => ⟨S_, .f32⟩
  | 93 => ⟨S16384x1, .f32⟩
  | 94 => ⟨S16384x1, .f32⟩
  | 95 => ⟨S16384x256, .f32⟩
  | 96 => ⟨S16384x256, .f32⟩
  | 97 => ⟨S16384x256, .f32⟩
  | 98 => ⟨S_, .f32⟩
  | 99 => ⟨S16384, .f32⟩
  | 100 => ⟨S16384x1, .f32⟩
  | 101 => ⟨S_, .f32⟩
  | 102 => ⟨S16384x1, .f32⟩
  | 103 => ⟨S16384x1, .f32⟩
  | 104 => ⟨S16384x256, .f32⟩
  | 105 => ⟨S16384x256, .f32⟩
  | 106 => ⟨S_, .f32⟩
  | 107 => ⟨S16384x1, .f32⟩
  | 108 => ⟨S16384x1, .f32⟩
  | 109 => ⟨S16384x1, .f32⟩
  | 110 => ⟨S16384x256, .f32⟩
  | 111 => ⟨S16384x256, .f32⟩
  | 112 => ⟨S1x256, .f32⟩
  | 113 => ⟨S16384x256, .f32⟩
  | 114 => ⟨S16384x256, .f32⟩
  | 115 => ⟨S1x256, .f32⟩
  | 116 => ⟨S16384x256, .f32⟩
  | 117 => ⟨S16384x256, .f32⟩
  | 118 => ⟨S_, .f32⟩
  | 119 => ⟨S16384x256, .f32⟩
  | 120 => ⟨S16384x256, .f32⟩
  | 121 => ⟨S262144x256, .f32⟩
  | 122 => ⟨S1x256, .f32⟩
  | 123 => ⟨S262144x256, .f32⟩
  | 124 => ⟨S262144x256, .f32⟩
  | 125 => ⟨S_, .f32⟩
  | 126 => ⟨S262144, .f32⟩
  | 127 => ⟨S262144x1, .f32⟩
  | _ => ⟨S16384x256, .f32⟩

abbrev hbmTy0_1 (i : Nat) : BufTy := match i % 128 with
  | 0 => ⟨S_, .f32⟩
  | 1 => ⟨S262144x1, .f32⟩
  | 2 => ⟨S262144x1, .f32⟩
  | 3 => ⟨S262144x256, .f32⟩
  | 4 => ⟨S262144x256, .f32⟩
  | 5 => ⟨S262144x256, .f32⟩
  | 6 => ⟨S_, .f32⟩
  | 7 => ⟨S262144, .f32⟩
  | 8 => ⟨S262144x1, .f32⟩
  | 9 => ⟨S_, .f32⟩
  | 10 => ⟨S262144x1, .f32⟩
  | 11 => ⟨S262144x1, .f32⟩
  | 12 => ⟨S262144x256, .f32⟩
  | 13 => ⟨S262144x256, .f32⟩
  | 14 => ⟨S_, .f32⟩
  | 15 => ⟨S262144x1, .f32⟩
  | 16 => ⟨S262144x1, .f32⟩
  | 17 => ⟨S262144x1, .f32⟩
  | 18 => ⟨S262144x256, .f32⟩
  | 19 => ⟨S262144x256, .f32⟩
  | 20 => ⟨S1x256, .f32⟩
  | 21 => ⟨S262144x256, .f32⟩
  | 22 => ⟨S262144x256, .f32⟩
  | 23 => ⟨S1x256, .f32⟩
  | 24 => ⟨S262144x256, .f32⟩
  | 25 => ⟨S262144x256, .f32⟩
  | 26 => ⟨S_, .f32⟩
  | 27 => ⟨S262144x256, .f32⟩
  | 28 => ⟨S262144x256, .f32⟩
  | 29 => ⟨S262144x1, .f32⟩
  | 30 => ⟨S1x1, .f32⟩
  | 31 => ⟨S262144x1, .f32⟩
  | 32 => ⟨S262144x1, .f32⟩
  | 33 => ⟨S262144, .f32⟩
  | 34 => ⟨S16384, .i32⟩
  | 35 => ⟨S1x262144, .i32⟩
  | 36 => ⟨S262144, .i32⟩
  | 37 => ⟨S278528, .i32⟩
  | 38 => ⟨S1x262144, .i32⟩
  | 39 => ⟨S262144, .i32⟩
  | 40 => ⟨S278528, .i32⟩
  | 41 => ⟨S_, .f32⟩
  | 42 => ⟨S16384, .f32⟩
  | 43 => ⟨S278528, .f32⟩
  | 44 => ⟨S_, .f32⟩
  | 45 => ⟨S16384, .f32⟩
  | 46 => ⟨S278528x1, .i32⟩
  | 47 => ⟨S16384, .f32⟩
  | 48 => ⟨S_, .f32⟩
  | 49 => ⟨S16384, .f32⟩
  | 50 => ⟨S16384, .i1⟩
  | 51 => ⟨S_, .f32⟩
  | 52 => ⟨S16384, .f32⟩
  | 53 => ⟨S16384, .i1⟩
  | 54 => ⟨S_, .f32⟩
  | 55 => ⟨S_, .f32⟩
  | 56 => ⟨S16384, .f32⟩
  | 57 => ⟨S16384, .f32⟩
  | 58 => ⟨S16384, .f32⟩
  | 59 => ⟨S_, .f32⟩
  | 60 => ⟨S_, .f32⟩
  | 61 => ⟨S16384, .f32⟩
  | 62 => ⟨S16384, .f32⟩
  | 63 => ⟨S_, .i32⟩
  | 64 => ⟨S278528, .i32⟩
  | 65 => ⟨S278528, .i1⟩
  | 66 => ⟨S_, .i32⟩
  | 67 => ⟨S278528, .i32⟩
  | 68 => ⟨S278528, .i32⟩
  | 69 => ⟨S278528, .i32⟩
  | 70 => ⟨S278528x1, .i32⟩
  | 71 => ⟨S278528, .f32⟩
  | 72 => ⟨S278528, .f32⟩
  | 73 => ⟨S_, .i32⟩
  | 74 => ⟨S278528, .i32⟩
  | 75 => ⟨S278528, .i1⟩
  | 76 => ⟨S_, .i32⟩
  | 77 => ⟨S278528, .i32⟩
  | 78 => ⟨S278528, .i32⟩
  | 79 => ⟨S278528, .i32⟩
  | 80 => ⟨S278528x1, .i32⟩
  | 81 => ⟨S278528, .f32⟩
  | 82 => ⟨S278528, .f32⟩
  | 83 => ⟨S16384x256, .f32⟩
  | 84 => ⟨S278528x1, .f32⟩
  | 85 => ⟨S_, .i32⟩
  | 86 => ⟨S278528, .i32⟩
  | 87 => ⟨S278528, .i1⟩
  | 88 => ⟨S_, .i32⟩
  | 89 => ⟨S278528, .i32⟩
  | 90 => ⟨S278528, .i32⟩
  | 91 => ⟨S278528, .i32⟩
  | 92 => ⟨S278528x1, .i32⟩
  | 93 => ⟨S278528x256, .f32⟩
  | 94 => ⟨S278528x256, .f32⟩
  | 95 => ⟨S278528x256, .f32⟩
  | 96 => ⟨S_, .f32⟩
  | 97 => ⟨S16384x256, .f32⟩
  | 98 => ⟨S278528x1, .i32⟩
  | 99 => ⟨S16384x256, .f32⟩
  | 100 => ⟨S1x256, .f32⟩
  | 101 => ⟨S16384x256, .f32⟩
  | 102 => ⟨S16384x256, .f32⟩
  | 103 => ⟨S16384x256, .f32⟩
  | 104 => ⟨S_, .f32⟩
  | 105 => ⟨S16384, .f32⟩
  | 106 => ⟨S16384x1, .f32⟩
  | 107 => ⟨S_, .f32⟩
  | 108 => ⟨S16384x1, .f32⟩
  | 109 => ⟨S16384x1, .f32⟩
  | 110 => ⟨S16384x256, .f32⟩
  | 111 => ⟨S16384x256, .f32⟩
  | 112 => ⟨S16384x256, .f32⟩
  | 113 => ⟨S_, .f32⟩
  | 114 => ⟨S16384, .f32⟩
  | 115 => ⟨S16384x1, .f32⟩
  | 116 => ⟨S_, .f32⟩
  | 117 => ⟨S16384x1, .f32⟩
  | 118 => ⟨S16384x1, .f32⟩
  | 119 => ⟨S16384x256, .f32⟩
  | 120 => ⟨S16384x256, .f32⟩
  | 121 => ⟨S_, .f32⟩
  | 122 => ⟨S16384x1, .f32⟩
  | 123 => ⟨S16384x1, .f32⟩
  | 124 => ⟨S16384x1, .f32⟩
  | 125 => ⟨S16384x256, .f32⟩
  | 126 => ⟨S16384x256, .f32⟩
  | 127 => ⟨S1x256, .f32⟩
  | _ => ⟨S16384x256, .f32⟩

abbrev hbmTy0_2 (i : Nat) : BufTy := match i % 128 with
  | 0 => ⟨S16384x256, .f32⟩
  | 1 => ⟨S16384x256, .f32⟩
  | 2 => ⟨S1x256, .f32⟩
  | 3 => ⟨S16384x256, .f32⟩
  | 4 => ⟨S16384x256, .f32⟩
  | 5 => ⟨S_, .f32⟩
  | 6 => ⟨S16384x256, .f32⟩
  | 7 => ⟨S16384x256, .f32⟩
  | 8 => ⟨S16384x256, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S16384x256, .f32⟩
  | 16 => ⟨S16384x256, .f32⟩
  | 17 => ⟨S16384x256, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S16384x256, .f32⟩
  | 25 => ⟨S16384x256, .f32⟩
  | 26 => ⟨S_, .f32⟩
  | 27 => ⟨S16384x1, .f32⟩
  | 28 => ⟨S16384x1, .f32⟩
  | 29 => ⟨S16384x1, .f32⟩
  | 30 => ⟨S16384x256, .f32⟩
  | 31 => ⟨S16384x256, .f32⟩
  | 32 => ⟨S1x256, .f32⟩
  | 33 => ⟨S16384x256, .f32⟩
  | 34 => ⟨S16384x256, .f32⟩
  | 35 => ⟨S1x256, .f32⟩
  | 36 => ⟨S16384x256, .f32⟩
  | 37 => ⟨S16384x256, .f32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_v18 : Ref sig .tc := ⟨.hbm, 47, rfl⟩
abbrev main_c : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_6 : Ref sig .tc := ⟨.hbm, 58, rfl⟩
abbrev main_v27 : Ref sig .tc := ⟨.hbm, 59, rfl⟩
abbrev main_v28 : Ref sig .tc := ⟨.hbm, 60, rfl⟩
abbrev main_c_7 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_8 : Ref sig .tc := ⟨.hbm, 70, rfl⟩
abbrev main_v37 : Ref sig .tc := ⟨.hbm, 71, rfl⟩
abbrev main_v38 : Ref sig .tc := ⟨.hbm, 72, rfl⟩
abbrev main_c_9 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_10 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_11 : Ref sig .tc := ⟨.hbm, 89, rfl⟩
abbrev main_v53 : Ref sig .tc := ⟨.hbm, 90, rfl⟩
abbrev main_v54 : Ref sig .tc := ⟨.hbm, 91, rfl⟩
abbrev main_cst_12 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_13 : Ref sig .tc := ⟨.hbm, 98, rfl⟩
abbrev main_v60 : Ref sig .tc := ⟨.hbm, 99, rfl⟩
abbrev main_v61 : Ref sig .tc := ⟨.hbm, 100, rfl⟩
abbrev main_cst_14 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_15 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_call2_cst : Ref sig .tc := ⟨.hbm, 118, rfl⟩
abbrev main_call2_v0 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_16 : Ref sig .tc := ⟨.hbm, 125, rfl⟩
abbrev main_v82 : Ref sig .tc := ⟨.hbm, 126, rfl⟩
abbrev main_v83 : Ref sig .tc := ⟨.hbm, 127, rfl⟩
abbrev main_cst_17 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_18 : Ref sig .tc := ⟨.hbm, 134, rfl⟩
abbrev main_v89 : Ref sig .tc := ⟨.hbm, 135, rfl⟩
abbrev main_v90 : Ref sig .tc := ⟨.hbm, 136, rfl⟩
abbrev main_cst_19 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_20 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_call3_cst : Ref sig .tc := ⟨.hbm, 154, rfl⟩
abbrev main_call3_v0 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_21 : Ref sig .tc := ⟨.hbm, 169, rfl⟩
abbrev main_v119 : Ref sig .tc := ⟨.hbm, 170, rfl⟩
abbrev main_v120 : Ref sig .tc := ⟨.hbm, 171, rfl⟩
abbrev main_cst_22 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_23 : Ref sig .tc := ⟨.hbm, 176, rfl⟩
abbrev main_v124 : Ref sig .tc := ⟨.hbm, 177, rfl⟩
abbrev main_v125 : Ref sig .tc := ⟨.hbm, 178, rfl⟩
abbrev main_cst_24 : Ref sig .tc := ⟨.hbm, 179, rfl⟩
abbrev main_v126 : Ref sig .tc := ⟨.hbm, 180, rfl⟩
abbrev main_v127 : Ref sig .tc := ⟨.hbm, 181, rfl⟩
abbrev main_cst_25 : Ref sig .tc := ⟨.hbm, 182, rfl⟩
abbrev main_call4_v0 : Ref sig .tc := ⟨.hbm, 183, rfl⟩
abbrev main_call4_v1 : Ref sig .tc := ⟨.hbm, 184, rfl⟩
abbrev main_v128 : Ref sig .tc := ⟨.hbm, 185, rfl⟩
abbrev main_v129 : Ref sig .tc := ⟨.hbm, 186, rfl⟩
abbrev main_cst_26 : Ref sig .tc := ⟨.hbm, 187, rfl⟩
abbrev main_call5_v0 : Ref sig .tc := ⟨.hbm, 188, rfl⟩
abbrev main_call5_v1 : Ref sig .tc := ⟨.hbm, 189, rfl⟩
abbrev main_v130 : Ref sig .tc := ⟨.hbm, 190, rfl⟩
abbrev main_c_27 : Ref sig .tc := ⟨.hbm, 191, rfl⟩
abbrev main_v131 : Ref sig .tc := ⟨.hbm, 192, rfl⟩
abbrev main_v132 : Ref sig .tc := ⟨.hbm, 193, rfl⟩
abbrev main_c_28 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_c_29 : Ref sig .tc := ⟨.hbm, 201, rfl⟩
abbrev main_v139 : Ref sig .tc := ⟨.hbm, 202, rfl⟩
abbrev main_v140 : Ref sig .tc := ⟨.hbm, 203, rfl⟩
abbrev main_c_30 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_c_31 : Ref sig .tc := ⟨.hbm, 213, rfl⟩
abbrev main_v149 : Ref sig .tc := ⟨.hbm, 214, rfl⟩
abbrev main_v150 : Ref sig .tc := ⟨.hbm, 215, rfl⟩
abbrev main_c_32 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_cst_33 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_cst_34 : Ref sig .tc := ⟨.hbm, 232, rfl⟩
abbrev main_v165 : Ref sig .tc := ⟨.hbm, 233, rfl⟩
abbrev main_v166 : Ref sig .tc := ⟨.hbm, 234, rfl⟩
abbrev main_cst_35 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_cst_36 : Ref sig .tc := ⟨.hbm, 241, rfl⟩
abbrev main_v172 : Ref sig .tc := ⟨.hbm, 242, rfl⟩
abbrev main_v173 : Ref sig .tc := ⟨.hbm, 243, rfl⟩
abbrev main_cst_37 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_cst_38 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_call6_cst : Ref sig .tc := ⟨.hbm, 261, rfl⟩
abbrev main_call6_v0 : Ref sig .tc := ⟨.hbm, 262, rfl⟩
abbrev main_v189 : Ref sig .tc := ⟨.hbm, 263, rfl⟩
abbrev main_v190 : Ref sig .tc := ⟨.hbm, 264, rfl⟩
abbrev main_cst_39 : Ref sig .tc := ⟨.hbm, 265, rfl⟩
abbrev main_v191 : Ref sig .tc := ⟨.hbm, 266, rfl⟩
abbrev main_v192 : Ref sig .tc := ⟨.hbm, 267, rfl⟩
abbrev main_cst_40 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_cst_41 : Ref sig .tc := ⟨.hbm, 274, rfl⟩
abbrev main_v198 : Ref sig .tc := ⟨.hbm, 275, rfl⟩
abbrev main_v199 : Ref sig .tc := ⟨.hbm, 276, rfl⟩
abbrev main_cst_42 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_cst_43 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S16384 : S_.BroadcastsInDim S16384 (![] : Fin 0 → Fin S16384.rank)
  bcast_S540672_S540672x1_0 : S540672.BroadcastsInDim S540672x1 (![0] : Fin 1 → Fin S540672x1.rank)
  bcast_S_S540672 : S_.BroadcastsInDim S540672 (![] : Fin 0 → Fin S540672.rank)
  bcast_S540672x1_S540672x256_0_1 : S540672x1.BroadcastsInDim S540672x256 (![0, 1] : Fin 2 → Fin S540672x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  bcast_S1x256_S262144x256_0_1 : S1x256.BroadcastsInDim S262144x256 (![0, 1] : Fin 2 → Fin S262144x256.rank)
  reducesTo_S262144x256_S262144_d1 : S262144x256.ReducesTo [1] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  bcast_S_S262144x256 : S_.BroadcastsInDim S262144x256 (![] : Fin 0 → Fin S262144x256.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S278528_S278528x1_0 : S278528.BroadcastsInDim S278528x1 (![0] : Fin 1 → Fin S278528x1.rank)
  bcast_S_S278528 : S_.BroadcastsInDim S278528 (![] : Fin 0 → Fin S278528.rank)
  bcast_S278528x1_S278528x256_0_1 : S278528x1.BroadcastsInDim S278528x256 (![0, 1] : Fin 2 → Fin S278528x256.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x256_S256x256_S16384x256_1_0_0_1_n_n_wf : DotDims.WF S16384x256 S256x256 S16384x256 [1] [0] [0] [1] [] []
  gather_S16384x256_S540672x1_S540672x256_1_0_n_n_0_1_1256_wf : GatherDims.WF S16384x256 S540672x1 S540672x256 [1] [0] [] [0] [] 1 ![1, 256]
  scatter_S16384x256_S540672x1_S540672x256_1_0_0_1_wf : ScatterDims.WF S16384x256 S540672x1 S540672x256 [1] [0] [0] 1
  dot_S262144x107_S107x256_S262144x256_1_0_0_1_n_n_wf : DotDims.WF S262144x107 S107x256 S262144x256 [1] [0] [0] [1] [] []
  dot_S262144x256_S256x1_S262144x1_1_0_0_1_n_n_wf : DotDims.WF S262144x256 S256x1 S262144x1 [1] [0] [0] [1] [] []
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  gather_S16384x256_S278528x1_S278528x256_1_0_n_n_0_1_1256_wf : GatherDims.WF S16384x256 S278528x1 S278528x256 [1] [0] [] [0] [] 1 ![1, 256]
  scatter_S16384x256_S278528x1_S278528x256_1_0_0_1_wf : ScatterDims.WF S16384x256 S278528x1 S278528x256 [1] [0] [0] 1

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def gather_S16384x256_S540672x1_S540672x256_1_0_n_n_0_1_1256 : GatherDims S16384x256 S540672x1 S540672x256 where
  offsetDims := [1]
  collapsedSliceDims := [0]
  operandBatchingDims := []
  startIndicesBatchingDims := []
  startIndexMap := [0]
  indexVectorDim := 1
  sliceSizes := ![1, 256]
  wf := gather_S16384x256_S540672x1_S540672x256_1_0_n_n_0_1_1256_wf
def scatter_S16384x256_S540672x1_S540672x256_1_0_0_1 : ScatterDims S16384x256 S540672x1 S540672x256 where
  updateWindowDims := [1]
  insertedWindowDims := [0]
  scatterDimsToOperandDims := [0]
  indexVectorDim := 1
  wf := scatter_S16384x256_S540672x1_S540672x256_1_0_0_1_wf
def dot_S262144x107_S107x256_S262144x256_1_0_0_1_n_n : DotDims S262144x107 S107x256 S262144x256 where
  lhsContracting := [1]
  rhsContracting := [0]
  lhsNonContracting := [0]
  rhsNonContracting := [1]
  lhsBatch := []
  rhsBatch := []
  wf := dot_S262144x107_S107x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf
def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def gather_S16384x256_S278528x1_S278528x256_1_0_n_n_0_1_1256 : GatherDims S16384x256 S278528x1 S278528x256 where
  offsetDims := [1]
  collapsedSliceDims := [0]
  operandBatchingDims := []
  startIndicesBatchingDims := []
  startIndexMap := [0]
  indexVectorDim := 1
  sliceSizes := ![1, 256]
  wf := gather_S16384x256_S278528x1_S278528x256_1_0_n_n_0_1_1256_wf
def scatter_S16384x256_S278528x1_S278528x256_1_0_0_1 : ScatterDims S16384x256 S278528x1 S278528x256 where
  updateWindowDims := [1]
  insertedWindowDims := [0]
  scatterDimsToOperandDims := [0]
  indexVectorDim := 1
  wf := scatter_S16384x256_S278528x1_S278528x256_1_0_0_1_wf

class Facts : Prop extends Facts₀ where

variable [Facts]
-- ==== Proof.KRun.lean ====
/-
  The idealized kernel's run with every buffer named.  The program is six kernel launches among stretches of
  host operations; its run leaves every unscoped buffer of a core at the last stage of a fold through the
  program's segments (a host stretch applies its operations, a launch replaces its arrays by what its write-backs
  leave).  Here the run is stated with that whole final valuation in its post, and then with the result buffer
  read off it beside the nineteen argument arrays, which no segment writes.
-/
import proofs.«145289_j35897336660385_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and in the final memory every unscoped buffer of every
    core holds the last stage of the fold through the program's segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h => h)

/-- The same run read at the result buffer and at the argument arrays: the result holds the fold's last stage at
    its buffer, every argument what it held at launch. -/
theorem run_value : θ_run defs (onTc (τ := τ) (main (F := F))) ⟨m, fun _ => 0, ρ⟩ (fun r => ∀ c : Dev nD,
      r.2.mem ((c.tc : Thread nD τ).loc main_v119) = W20 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨h c _ (mem_uc main_v119 (by decide)),
     (h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c),
     (h c _ (mem_uc main_arg7 (by decide))).trans (W20_main_arg7 m ρ c),
     (h c _ (mem_uc main_arg8 (by decide))).trans (W20_main_arg8 m ρ c),
     (h c _ (mem_uc main_arg9 (by decide))).trans (W20_main_arg9 m ρ c),
     (h c _ (mem_uc main_arg10 (by decide))).trans (W20_main_arg10 m ρ c),
     (h c _ (mem_uc main_arg11 (by decide))).trans (W20_main_arg11 m ρ c),
     (h c _ (mem_uc main_arg12 (by decide))).trans (W20_main_arg12 m ρ c),
     (h c _ (mem_uc main_arg13 (by decide))).trans (W20_main_arg13 m ρ c),
     (h c _ (mem_uc main_arg14 (by decide))).trans (W20_main_arg14 m ρ c),
     (h c _ (mem_uc main_arg15 (by decide))).trans (W20_main_arg15 m ρ c),
     (h c _ (mem_uc main_arg16 (by decide))).trans (W20_main_arg16 m ρ c),
     (h c _ (mem_uc main_arg17 (by decide))).trans (W20_main_arg17 m ρ c),
     (h c _ (mem_uc main_arg18 (by decide))).trans (W20_main_arg18 m ρ c)⟩) (run_all m ρ)

end Cert.KernelIdeal.KRun

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibPlainDot.lean ====
/-
  GENERAL LEMMAS: the product of an [R, K] matrix with a [K, N] matrix under the plain dimension record (axis 1 of the left
  operand contracted with axis 0 of the right, no batch axes), read at (p, q) on extended reals as the sum over k of
  l(p, k) * r(k, q) — for the matrix unit's product into a zero accumulator and for the host's dot_general. Any extents; a
  printed record with these six lists is this record. It imports LibMatmulRows.lean of the same directory.
-/
import Idealize.ShloMosaic.PureOps.Ideal
import Idealize.ShloMosaic.PureOps.Ideal.Laws
import Idealize.ShloMosaic.Lib.ValueIdx
import proofs.«145289_j35897336660385_1_alg».proof.Proof.LibMatmulRows

noncomputable section

namespace Cert.LibPlainDot

open Idealize.ShloMosaic Idealize.ShloMosaic.ValueIdx
open scoped BigOperators

variable {R K N : ℕ}

theorem lhs0 (i : (⟨2, ![R, N]⟩ : Shape).Idx) (s : (DotDims.plain R K N).contr.Idx) :
    ((DotDims.plain R K N).lhsIdx i s 0).val = (i 0).val := by
  unfold DotDims.lhsIdx
  rw [dif_neg (show ¬(0 : Fin 2) ∈ (DotDims.plain R K N).lhsBatch from List.not_mem_nil),
    dif_pos (show (0 : Fin 2) ∈ (DotDims.plain R K N).lhsNonContracting from List.mem_singleton.mpr rfl)]
  rfl

theorem lhs1 (i : (⟨2, ![R, N]⟩ : Shape).Idx) (s : (DotDims.plain R K N).contr.Idx) :
    ((DotDims.plain R K N).lhsIdx i s 1).val = (s ⟨0, Nat.one_pos⟩).val :=
  (DotDims.plain R K N).lhsIdx_val_of_single rfl i s

theorem rhs0 (i : (⟨2, ![R, N]⟩ : Shape).Idx) (s : (DotDims.plain R K N).contr.Idx) :
    ((DotDims.plain R K N).rhsIdx i s 0).val = (s ⟨0, Nat.one_pos⟩).val :=
  (DotDims.plain R K N).rhsIdx_val_of_single rfl i s

theorem rhs1 (i : (⟨2, ![R, N]⟩ : Shape).Idx) (s : (DotDims.plain R K N).contr.Idx) :
    ((DotDims.plain R K N).rhsIdx i s 1).val = (i 1).val := by
  unfold DotDims.rhsIdx
  rw [dif_neg (show ¬(1 : Fin 2) ∈ (DotDims.plain R K N).rhsBatch from List.not_mem_nil),
    dif_pos (show (1 : Fin 2) ∈ (DotDims.plain R K N).rhsNonContracting from List.mem_singleton.mpr rfl)]
  rfl

/-- The matrix unit's product into a zero accumulator, read at (p, q). -/
theorem matmul_plain {φ₁ φ₂ : FTy} (l : FVec Ideal ⟨2, ![R, K]⟩ φ₁) (r : FVec Ideal ⟨2, ![K, N]⟩ φ₂) (p : Fin R) (q : Fin N) :
    matmul (DotDims.plain R K N) none l r (constant (F := Ideal) ⟨2, ![R, N]⟩ .f32 0x00000000#32) (ix2 p q)
      = ∑ k : Fin K, l (ix2 p k) * r (ix2 k q) :=
  Cert.LibMatmulRows.matmul_rows (DotDims.plain R K N) rfl rfl lhs0 lhs1 rhs0 rhs1 l r p q

/-- The host's dot_general, read at (p, q). -/
theorem hostdot_plain (l : FVec Ideal ⟨2, ![R, K]⟩ .f32) (r : FVec Ideal ⟨2, ![K, N]⟩ .f32) (p : Fin R) (q : Fin N) :
    Host.dotGeneral (DotDims.plain R K N) none l r (ix2 p q) = ∑ k : Fin K, l (ix2 p k) * r (ix2 k q) :=
  Cert.LibMatmulRows.hostdot_rows (DotDims.plain R K N) rfl rfl lhs0 lhs1 rhs0 rhs1 l r p q

end Cert.LibPlainDot

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibHostSums.lean ====
/-
  GENERAL lemmas: host sums read at an index, on the extended reals, at any extents.

  * a host sum over the lane axis of a matrix, read at row `n`: the initial value plus the sum of the row's entries;
  * a sum over the index set of a column `[n, 1]` is the sum over its rows.
-/
import proofs.«145289_j35897336660385_1_alg».proof.Proof.LibLayout
import Idealize.ShloMosaic.Lib.ValueIdx
import Idealize.ShloMosaic.PureOps.Ideal.Laws

noncomputable section

open scoped BigOperators
open Idealize.ShloMosaic Idealize.ShloMosaic.ValueIdx

namespace Cert.LibHostSums

/-- A host sum over the lane axis, at row `n`. -/
theorem hostLaneSum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel)
    (n : Fin a) :
    Host.reduceAdd (F := Ideal) y init h' hu (ix1 n) = init (Shape.Idx.first hu) + ∑ k : Fin b, y (ix2 n k) := by
  simp only [Host.reduceAdd, Ideal.hostReduceAdd_def]
  rw [Ideal.hostReduceAdd_single h' h]
  exact congrArg (_ + ·) (Finset.sum_congr rfl fun k _ => congrArg y (Cert.LibLayout.lift_row h n k))

/-- A sum over the index set of a column is the sum over its rows. -/
theorem sum_column {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibHostSums

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibLayerNorm.lean ====
/-
  GENERAL LEMMAS: layer normalisation over the lanes of a matrix, on extended reals with the exact operations, any
  number of rows R and any width n, the divisor and the epsilon given as f32 words.

  Entry q of a normalised row x with scale g and shift b is
      (x q - mean) * rsqrt (var + eps) * g + b,   mean = (sum_k x k) / N,   var = (sum_k (x k - mean)^2) / N.
  Two spellings of the whole-matrix operation are read at an entry (p, q) and both are this expression of row p:
  the vector unit's (a lane reduction, a cast of the sums to a column, a division by a splat, the column laid along
  the lanes, scale and shift kept as one-row blocks laid along the rows) and the host's (a reduce-add from zero,
  broadcast_in_dim for every layout step, scale and shift kept as vectors broadcast to one row and then along the
  rows).  Row p of the result depends on row p of the operand only; nothing here needs finiteness.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«145289_j35897336660385_1_alg».proof.Proof.LibLayout
import proofs.«145289_j35897336660385_1_alg».proof.Proof.LibHostSums
import proofs.«145289_j35897336660385_1_alg».proof.Proof.LibBiasRows

noncomputable section

namespace Cert.LibLayerNorm

open Idealize.ShloMosaic Idealize.ShloMosaic.ValueIdx
open scoped BigOperators

/-- Entry q of the normalised row x: (x q - mean) * rsqrt (var + eps) * g + b. -/
def lnEntry {n : ℕ} (wn we : BitVec 32) (x : Fin n → EReal) (g b : EReal) (q : Fin n) : EReal :=
  (x q - Ideal.div (∑ k, x k) (Ideal.ofBits .f32 wn))
    * Ideal.rsqrt (Ideal.div (∑ k, (x k - Ideal.div (∑ j, x j) (Ideal.ofBits .f32 wn))
        * (x k - Ideal.div (∑ j, x j) (Ideal.ofBits .f32 wn))) (Ideal.ofBits .f32 wn) + Ideal.ofBits .f32 we)
    * g + b

/-- The entry depends on the row only through its values. -/
theorem lnEntry_congr {n : ℕ} (wn we : BitVec 32) {x y : Fin n → EReal} (h : ∀ k, x k = y k) (g b : EReal) (q : Fin n) :
    lnEntry wn we x g b q = lnEntry wn we y g b q := by
  rw [show x = y from funext h]

theorem rsqrt_apply {s : Shape} (v : FVec Ideal s .f32) (i : s.Idx) : rsqrt v i = Ideal.rsqrt (v i) := rfl

theorem hostRsqrt_apply {s : Shape} (v : FVec Ideal s .f32) (i : s.Idx) : Host.rsqrt v i = Ideal.rsqrt (v i) := rfl

theorem hostDivf_apply {s : Shape} (a b : FVec Ideal s .f32) (i : s.Idx) : Host.divf a b i = Ideal.div (a i) (b i) := rfl

/-- A lane sum read at a row is the sum of the row's entries, the axis list in any spelling. -/
theorem laneSum_at {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add (no_index [1]) ⟨1, ![a]⟩ v 0x00000000#32 h hφ hacc (ix1 r) = ∑ k : Fin b, v (ix2 r k) :=
  Cert.LibLayout.laneSum_apply v h hφ hacc r

/-! ## The vector unit's spelling -/

/-- Layer normalisation of the rows of x as the vector unit spells it; g and b are one-row blocks. -/
def lnKer {R n : ℕ} (wn we : BitVec 32)
    (hred : Shape.Reduces ⟨2, ![R, n]⟩ [1] ⟨1, ![R]⟩)
    (hcol : (⟨1, ![R]⟩ : Shape).ShapeCasts ⟨2, ![R, 1]⟩)
    (hlane : (⟨2, ![R, 1]⟩ : Shape).Broadcasts ⟨2, ![R, n]⟩)
    (hrow : (⟨2, ![1, n]⟩ : Shape).Broadcasts ⟨2, ![R, n]⟩)
    (hself : (⟨2, ![1, n]⟩ : Shape).ShapeCasts ⟨2, ![1, n]⟩)
    (hφ : FKind.Formats .f32) (hacc : (0x00000000#32 : BitVec 32) = FKind.add.neutral .f32 hφ)
    (x : FVec Ideal ⟨2, ![R, n]⟩ .f32) (g b : FVec Ideal ⟨2, ![1, n]⟩ .f32) : FVec Ideal ⟨2, ![R, n]⟩ .f32 :=
  addf (mulf (mulf
      (subf x (broadcastTo ⟨2, ![R, n]⟩
        (divf (shapeCast ⟨2, ![R, 1]⟩ (multiReduction .add [1] ⟨1, ![R]⟩ x 0x00000000#32 hred hφ hacc) hcol)
          (broadcast ⟨2, ![R, 1]⟩ (Scalar.ofBits .f32 wn))) hlane))
      (broadcastTo ⟨2, ![R, n]⟩
        (rsqrt (addf
          (divf (shapeCast ⟨2, ![R, 1]⟩ (multiReduction .add [1] ⟨1, ![R]⟩
              (mulf
                (subf x (broadcastTo ⟨2, ![R, n]⟩
                  (divf (shapeCast ⟨2, ![R, 1]⟩ (multiReduction .add [1] ⟨1, ![R]⟩ x 0x00000000#32 hred hφ hacc) hcol)
                    (broadcast ⟨2, ![R, 1]⟩ (Scalar.ofBits .f32 wn))) hlane))
                (subf x (broadcastTo ⟨2, ![R, n]⟩
                  (divf (shapeCast ⟨2, ![R, 1]⟩ (multiReduction .add [1] ⟨1, ![R]⟩ x 0x00000000#32 hred hφ hacc) hcol)
                    (broadcast ⟨2, ![R, 1]⟩ (Scalar.ofBits .f32 wn))) hlane)))
              0x00000000#32 hred hφ hacc) hcol)
            (broadcast ⟨2, ![R, 1]⟩ (Scalar.ofBits .f32 wn)))
          (broadcast ⟨2, ![R, 1]⟩ (Scalar.ofBits .f32 we)))) hlane))
      (broadcastTo ⟨2, ![R, n]⟩ (shapeCast ⟨2, ![1, n]⟩ g hself) hrow))
    (broadcastTo ⟨2, ![R, n]⟩ (shapeCast ⟨2, ![1, n]⟩ b hself) hrow)

/-- The vector unit's spelling read at (p, q): the normalised entry of row p. -/
theorem lnKer_apply {R n : ℕ} (wn we : BitVec 32)
    (hred : Shape.Reduces ⟨2, ![R, n]⟩ [1] ⟨1, ![R]⟩)
    (hcol : (⟨1, ![R]⟩ : Shape).ShapeCasts ⟨2, ![R, 1]⟩)
    (hlane : (⟨2, ![R, 1]⟩ : Shape).Broadcasts ⟨2, ![R, n]⟩)
    (hrow : (⟨2, ![1, n]⟩ : Shape).Broadcasts ⟨2, ![R, n]⟩)
    (hself : (⟨2, ![1, n]⟩ : Shape).ShapeCasts ⟨2, ![1, n]⟩)
    (hφ : FKind.Formats .f32) (hacc : (0x00000000#32 : BitVec 32) = FKind.add.neutral .f32 hφ)
    (x : FVec Ideal ⟨2, ![R, n]⟩ .f32) (g b : FVec Ideal ⟨2, ![1, n]⟩ .f32) (p : Fin R) (q : Fin n) :
    lnKer wn we hred hcol hlane hrow hself hφ hacc x g b (ix2 p q)
      = lnEntry wn we (fun k => x (ix2 p k)) (g (ix2 (0 : Fin 1) q)) (b (ix2 (0 : Fin 1) q)) q := by
  unfold lnKer lnEntry
  simp only [addf_apply, mulf_apply, subf_apply, divf_apply, broadcast_apply, rsqrt_apply,
    Cert.LibLayout.broadcastTo_a1_ab_apply, Cert.LibLayout.shapeCast_a_a1_apply, laneSum_at,
    broadcastTo_1b_ab_apply, shapeCast_self]
  rfl

/-! ## The host's spelling -/

/-- Layer normalisation of the rows of y as the host spells it; g and b are vectors. -/
def lnHost {R n : ℕ} (wn we : BitVec 32)
    (hred : Shape.ReducesTo ⟨2, ![R, n]⟩ [1] ⟨1, ![R]⟩) (h0 : 0 < (⟨0, ![]⟩ : Shape).numel)
    (hcol : (⟨1, ![R]⟩ : Shape).BroadcastsInDim ⟨2, ![R, 1]⟩ (![0] : Fin 1 → Fin 2))
    (hsc : (⟨0, ![]⟩ : Shape).BroadcastsInDim ⟨2, ![R, 1]⟩ (![] : Fin 0 → Fin 2))
    (hlane : (⟨2, ![R, 1]⟩ : Shape).BroadcastsInDim ⟨2, ![R, n]⟩ (![0, 1] : Fin 2 → Fin 2))
    (hrow1 : (⟨1, ![n]⟩ : Shape).BroadcastsInDim ⟨2, ![1, n]⟩ (![1] : Fin 1 → Fin 2))
    (hrow2 : (⟨2, ![1, n]⟩ : Shape).BroadcastsInDim ⟨2, ![R, n]⟩ (![0, 1] : Fin 2 → Fin 2))
    (y : FVec Ideal ⟨2, ![R, n]⟩ .f32) (g b : FVec Ideal ⟨1, ![n]⟩ .f32) : FVec Ideal ⟨2, ![R, n]⟩ .f32 :=
  addf (mulf (mulf
      (subf y (broadcastInDim ⟨2, ![R, n]⟩ ![0, 1] hlane
        (Host.divf (broadcastInDim ⟨2, ![R, 1]⟩ ![0] hcol
            (Host.reduceAdd y (constant (F := Ideal) ⟨0, ![]⟩ .f32 0x00000000#32) hred h0))
          (broadcastInDim ⟨2, ![R, 1]⟩ ![] hsc (constant (F := Ideal) ⟨0, ![]⟩ .f32 wn)))))
      (broadcastInDim ⟨2, ![R, n]⟩ ![0, 1] hlane
        (Host.rsqrt (addf
          (Host.divf (broadcastInDim ⟨2, ![R, 1]⟩ ![0] hcol
              (Host.reduceAdd
                (mulf
                  (subf y (broadcastInDim ⟨2, ![R, n]⟩ ![0, 1] hlane
                    (Host.divf (broadcastInDim ⟨2, ![R, 1]⟩ ![0] hcol
                        (Host.reduceAdd y (constant (F := Ideal) ⟨0, ![]⟩ .f32 0x00000000#32) hred h0))
                      (broadcastInDim ⟨2, ![R, 1]⟩ ![] hsc (constant (F := Ideal) ⟨0, ![]⟩ .f32 wn)))))
                  (subf y (broadcastInDim ⟨2, ![R, n]⟩ ![0, 1] hlane
                    (Host.divf (broadcastInDim ⟨2, ![R, 1]⟩ ![0] hcol
                        (Host.reduceAdd y (constant (F := Ideal) ⟨0, ![]⟩ .f32 0x00000000#32) hred h0))
                      (broadcastInDim ⟨2, ![R, 1]⟩ ![] hsc (constant (F := Ideal) ⟨0, ![]⟩ .f32 wn))))))
                (constant (F := Ideal) ⟨0, ![]⟩ .f32 0x00000000#32) hred h0))
            (broadcastInDim ⟨2, ![R, 1]⟩ ![] hsc (constant (F := Ideal) ⟨0, ![]⟩ .f32 wn)))
          (broadcastInDim ⟨2, ![R, 1]⟩ ![] hsc (constant (F := Ideal) ⟨0, ![]⟩ .f32 we))))))
      (broadcastInDim ⟨2, ![R, n]⟩ ![0, 1] hrow2 (broadcastInDim ⟨2, ![1, n]⟩ ![1] hrow1 g)))
    (broadcastInDim ⟨2, ![R, n]⟩ ![0, 1] hrow2 (broadcastInDim ⟨2, ![1, n]⟩ ![1] hrow1 b))

/-- A vector laid out as a column reads the vector at the row. -/
theorem hostCol_apply {α : Type} {R : ℕ} (v : (⟨1, ![R]⟩ : Shape).Idx → α)
    (h : (⟨1, ![R]⟩ : Shape).BroadcastsInDim ⟨2, ![R, 1]⟩ (![0] : Fin 1 → Fin 2)) (p : Fin R) (u : Fin 1) :
    broadcastInDim ⟨2, ![R, 1]⟩ (no_index ![0]) h v (ix2 p u) = v (ix1 p) :=
  broadcastInDim_apply _ h v (ix2 p u) (ix1 p) fun a => by
    match a with
    | ⟨0, _⟩ =>
      show p.val = if R = 1 then 0 else p.val
      split
      · have := p.isLt; omega
      · rfl

/-- A scalar laid out over any shape reads the scalar. -/
theorem hostScalar_apply {α : Type} {t : Shape} (v : (⟨0, ![]⟩ : Shape).Idx → α)
    (h : (⟨0, ![]⟩ : Shape).BroadcastsInDim t (![] : Fin 0 → Fin t.rank)) (i : t.Idx) (z : (⟨0, ![]⟩ : Shape).Idx) :
    broadcastInDim t (no_index ![]) h v i = v z :=
  (broadcastInDim_apply _ h v i z fun a => a.elim0)

/-- A column laid along the lanes reads the column at the row. -/
theorem hostLanes_apply {α : Type} {R n : ℕ} (v : (⟨2, ![R, 1]⟩ : Shape).Idx → α)
    (h : (⟨2, ![R, 1]⟩ : Shape).BroadcastsInDim ⟨2, ![R, n]⟩ (![0, 1] : Fin 2 → Fin 2)) (p : Fin R) (q : Fin n) :
    broadcastInDim ⟨2, ![R, n]⟩ (no_index ![0, 1]) h v (ix2 p q) = v (ix2 p (0 : Fin 1)) :=
  broadcastInDim_apply _ h v (ix2 p q) (ix2 p (0 : Fin 1)) fun a => by
    match a with
    | ⟨0, _⟩ =>
      show p.val = if R = 1 then 0 else p.val
      split
      · have := p.isLt; omega
      · rfl
    | ⟨1, _⟩ => show (0 : ℕ) = if (1 : ℕ) = 1 then 0 else q.val; rw [if_pos rfl]

/-- A vector broadcast to one row and then along the rows reads the vector at the column. -/
theorem hostRows_apply {α : Type} {R n : ℕ} (hn : n ≠ 1) (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (p : Fin R) (q : Fin n) :
    broadcastInDim ⟨2, ![R, n]⟩ (no_index ![0, 1]) h2 (broadcastInDim ⟨2, ![1, n]⟩ (no_index ![1]) h1 v) (ix2 p q) = v (ix1 q) :=
  Cert.LibBiasRows.bias_host hn v h1 h2 p q

/-- The host's spelling read at (p, q): the normalised entry of row p. -/
theorem lnHost_apply {R n : ℕ} (hn : n ≠ 1) (wn we : BitVec 32)
    (hred : Shape.ReducesTo ⟨2, ![R, n]⟩ [1] ⟨1, ![R]⟩) (hred' : Shape.Reduces ⟨2, ![R, n]⟩ [1] ⟨1, ![R]⟩)
    (h0 : 0 < (⟨0, ![]⟩ : Shape).numel)
    (hcol : (⟨1, ![R]⟩ : Shape).BroadcastsInDim ⟨2, ![R, 1]⟩ (![0] : Fin 1 → Fin 2))
    (hsc : (⟨0, ![]⟩ : Shape).BroadcastsInDim ⟨2, ![R, 1]⟩ (![] : Fin 0 → Fin 2))
    (hlane : (⟨2, ![R, 1]⟩ : Shape).BroadcastsInDim ⟨2, ![R, n]⟩ (![0, 1] : Fin 2 → Fin 2))
    (hrow1 : (⟨1, ![n]⟩ : Shape).BroadcastsInDim ⟨2, ![1, n]⟩ (![1] : Fin 1 → Fin 2))
    (hrow2 : (⟨2, ![1, n]⟩ : Shape).BroadcastsInDim ⟨2, ![R, n]⟩ (![0, 1] : Fin 2 → Fin 2))
    (y : FVec Ideal ⟨2, ![R, n]⟩ .f32) (g b : FVec Ideal ⟨1, ![n]⟩ .f32) (p : Fin R) (q : Fin n) :
    lnHost wn we hred h0 hcol hsc hlane hrow1 hrow2 y g b (ix2 p q)
      = lnEntry wn we (fun k => y (ix2 p k)) (g (ix1 q)) (b (ix1 q)) q := by
  unfold lnHost lnEntry
  simp only [addf_apply, mulf_apply, subf_apply, hostDivf_apply, hostRsqrt_apply, hostLanes_apply, hostCol_apply,
    hostScalar_apply _ hsc _ (Shape.Idx.first h0), hostRows_apply hn,
    Cert.LibHostSums.hostLaneSum_apply _ _ hred hred' h0, constant_apply, Ideal.ofBits_zero_f32, zero_add]

end Cert.LibLayerNorm

end
-- ==== Proof.Spec.lean ====
/-
  The three dense stages of the network as functions of whole arrays, entry by entry, on extended reals.
  No program is mentioned here.

  * `prodAt`: a matrix product, entry (p, q) the sum over k of x(p, k) * w(k, q).
  * `normAt`: the sum of two matrices normalised along the lanes with scale and shift kept as one-row
    blocks, with or without a rectifier after it; entry (p, q) depends on row p of the two matrices only.
  * `edgeAt`: the edge weight: a product with a bias, normalised and rectified as above, then contracted with
    a one-row weight block and shifted by a one-by-one block; entry (e, 0) depends on row e of the attributes only.
-/
import Idealize.ShloMosaic.PureOps.Ideal
import Idealize.ShloMosaic.Lib.ValueIdx
import proofs.«145289_j35897336660385_1_alg».proof.Proof.LibLayerNorm

noncomputable section

namespace Cert.Spec

open Idealize.ShloMosaic Idealize.ShloMosaic.ValueIdx Cert.LibLayerNorm
open scoped BigOperators

/-- The divisor 256.0 and the epsilon of the normalisation, as f32 words. -/
abbrev wN : BitVec 32 := 0x43800000#32
abbrev wE : BitVec 32 := 0x3727C5AC#32

/-- Row and column of a rank-2 index. -/
abbrev rowOf {a b : ℕ} (i : (⟨2, ![a, b]⟩ : Shape).Idx) : Fin a := i 0
abbrev colOf {a b : ℕ} (i : (⟨2, ![a, b]⟩ : Shape).Idx) : Fin b := i 1

/-- The matrix product. -/
def prodAt {R K N : ℕ} (x : (⟨2, ![R, K]⟩ : Shape).Idx → EReal) (w : (⟨2, ![K, N]⟩ : Shape).Idx → EReal) :
    (⟨2, ![R, N]⟩ : Shape).Idx → EReal :=
  fun i => ∑ k : Fin K, x (ix2 (rowOf i) k) * w (ix2 k (colOf i))

/-- The sum of two matrices, normalised along the lanes, scaled and shifted; no rectifier. -/
def normAt {R n : ℕ} (x r : (⟨2, ![R, n]⟩ : Shape).Idx → EReal) (g b : (⟨2, ![1, n]⟩ : Shape).Idx → EReal) :
    (⟨2, ![R, n]⟩ : Shape).Idx → EReal :=
  fun i => lnEntry wN wE (fun k => x (ix2 (rowOf i) k) + r (ix2 (rowOf i) k))
    (g (ix2 (0 : Fin 1) (colOf i))) (b (ix2 (0 : Fin 1) (colOf i))) (colOf i)

/-- The same followed by the rectifier (a maximum with the f32 zero word). -/
def normReluAt {R n : ℕ} (x r : (⟨2, ![R, n]⟩ : Shape).Idx → EReal) (g b : (⟨2, ![1, n]⟩ : Shape).Idx → EReal) :
    (⟨2, ![R, n]⟩ : Shape).Idx → EReal :=
  fun i => max (normAt x r g b i) (Ideal.ofBits .f32 0x00000000#32)

/-- The hidden layer of the edge network at (e, k): product plus bias, normalised, rectified. -/
def hiddenAt {E K n : ℕ} (a : (⟨2, ![E, K]⟩ : Shape).Idx → EReal) (w1 : (⟨2, ![K, n]⟩ : Shape).Idx → EReal)
    (b1 g beta : (⟨2, ![1, n]⟩ : Shape).Idx → EReal) (e : Fin E) (k : Fin n) : EReal :=
  max (lnEntry wN wE (fun k' => (∑ j : Fin K, a (ix2 e j) * w1 (ix2 j k')) + b1 (ix2 (0 : Fin 1) k'))
    (g (ix2 (0 : Fin 1) k)) (beta (ix2 (0 : Fin 1) k)) k) (Ideal.ofBits .f32 0x00000000#32)

/-- The edge weight, a column. -/
def edgeAt {E K n : ℕ} (a : (⟨2, ![E, K]⟩ : Shape).Idx → EReal) (w1 : (⟨2, ![K, n]⟩ : Shape).Idx → EReal)
    (b1 g beta w2 : (⟨2, ![1, n]⟩ : Shape).Idx → EReal) (b2 : (⟨2, ![1, 1]⟩ : Shape).Idx → EReal) :
    (⟨2, ![E, 1]⟩ : Shape).Idx → EReal :=
  fun i => (∑ k : Fin n, hiddenAt a w1 b1 g beta (rowOf i) k * w2 (ix2 (0 : Fin 1) k)) + b2 (ix2 (0 : Fin 1) (0 : Fin 1))

end Cert.Spec

end
-- ==== Proof.Payloads.lean ====
/-
  The arithmetic of the six kernel bodies read at an entry, at the exact instance.
  Bodies 0 and 3 are a product into a zero accumulator (narrowing the operands to bf16 is no change here);
  bodies 1, 4 and 5 add two blocks and normalise the sum along the lanes with one-row scale and shift blocks,
  bodies 1 and 4 with a rectifier after it; body 2 is a product with a one-row bias, the same normalisation and
  rectifier, a lane contraction with a one-row weight block and a one-by-one shift.  Each printed payload is the
  generic spelling of LibLayerNorm by unfolding, and is then read at (p, q) through that module's lemma.
-/
import proofs.«145289_j35897336660385_1_alg».proof.Proof.Gen.KernelIdeal.Skeleton
import proofs.«145289_j35897336660385_1_alg».proof.Proof.LibPlainDot
import proofs.«145289_j35897336660385_1_alg».proof.Proof.LibLayerNorm
import proofs.«145289_j35897336660385_1_alg».proof.Proof.Spec

set_option maxRecDepth 65536

noncomputable section

namespace Cert.KernelIdeal.Payloads

open Cert.KernelIdeal Cert.KernelIdeal.Gen Idealize.ShloMosaic Idealize.ShloMosaic.ValueIdx Cert.LibLayerNorm Cert.Spec
open scoped BigOperators

/-! ## Bodies 0 and 3: the product -/

theorem pay0_apply (x : Vec Ideal S4096x256 .f32) (w : Vec Ideal S256x256 .f32) (p : Fin 4096) (q : Fin 256) :
    k0_pay1 (F := Ideal) x w (ix2 p q) = ∑ k : Fin 256, x (ix2 p k) * w (ix2 k q) :=
  Cert.LibPlainDot.matmul_plain (R := 4096) (K := 256) (N := 256)
    (truncf .bf16 x bitsLt_bf16_f32) (truncf .bf16 w bitsLt_bf16_f32) p q

theorem pay3_apply (x : Vec Ideal S4096x256 .f32) (w : Vec Ideal S256x256 .f32) (p : Fin 4096) (q : Fin 256) :
    k3_pay1 (F := Ideal) x w (ix2 p q) = ∑ k : Fin 256, x (ix2 p k) * w (ix2 k q) :=
  (Cert.LibPlainDot.matmul_plain (R := 4096) (K := 256) (N := 256)
    (truncf .bf16 (shapeCast S4096x256 x shapeCasts_S4096x256_S4096x256) bitsLt_bf16_f32) (truncf .bf16 w bitsLt_bf16_f32) p q).trans
    (by simp only [truncf_apply, shapeCast_self])

/-! ## Bodies 1, 4, 5: the normalised sum of two blocks -/

theorem pay1_eq (x0 x1 : Vec Ideal S2048x256 .f32) (g b : Vec Ideal S1x256 .f32) :
    k1_pay1 (F := Ideal) x0 x1 g b
      = maximumf (lnKer wN wE reduces_S2048x256_S2048 shapeCasts_S2048_S2048x1 broadcasts_S2048x1_S2048x256 broadcasts_S1x256_S2048x256 shapeCasts_S1x256_S1x256 (by decide) (by decide) (addf (shapeCast S2048x256 x0 shapeCasts_S2048x256_S2048x256) x1) g b)
          (broadcast S2048x256 (Scalar.ofBits .f32 0x00000000#32)) := rfl

theorem pay1_apply (x0 x1 : Vec Ideal S2048x256 .f32) (g b : Vec Ideal S1x256 .f32) (p : Fin 2048) (q : Fin 256) :
    k1_pay1 (F := Ideal) x0 x1 g b (ix2 p q)
      = max (lnEntry wN wE (fun k => x0 (ix2 p k) + x1 (ix2 p k)) (g (ix2 (0 : Fin 1) q)) (b (ix2 (0 : Fin 1) q)) q)
          (Ideal.ofBits .f32 0x00000000#32) := by
  rw [pay1_eq, maximumf_apply, lnKer_apply]
  simp only [addf_apply, shapeCast_self]
  rfl

theorem pay4_eq (x0 x1 : Vec Ideal S2048x256 .f32) (g b : Vec Ideal S1x256 .f32) :
    k4_pay1 (F := Ideal) x0 x1 g b
      = maximumf (lnKer wN wE reduces_S2048x256_S2048 shapeCasts_S2048_S2048x1 broadcasts_S2048x1_S2048x256 broadcasts_S1x256_S2048x256 shapeCasts_S1x256_S1x256 (by decide) (by decide) (addf (shapeCast S2048x256 x0 shapeCasts_S2048x256_S2048x256) (shapeCast S2048x256 x1 shapeCasts_S2048x256_S2048x256)) g b)
          (broadcast S2048x256 (Scalar.ofBits .f32 0x00000000#32)) := rfl

theorem pay4_apply (x0 x1 : Vec Ideal S2048x256 .f32) (g b : Vec Ideal S1x256 .f32) (p : Fin 2048) (q : Fin 256) :
    k4_pay1 (F := Ideal) x0 x1 g b (ix2 p q)
      = max (lnEntry wN wE (fun k => x0 (ix2 p k) + x1 (ix2 p k)) (g (ix2 (0 : Fin 1) q)) (b (ix2 (0 : Fin 1) q)) q)
          (Ideal.ofBits .f32 0x00000000#32) := by
  rw [pay4_eq, maximumf_apply, lnKer_apply]
  simp only [addf_apply, shapeCast_self]
  rfl

theorem pay5_eq (x0 x1 : Vec Ideal S2048x256 .f32) (g b : Vec Ideal S1x256 .f32) :
    k5_pay1 (F := Ideal) x0 x1 g b
      = (lnKer wN wE reduces_S2048x256_S2048 shapeCasts_S2048_S2048x1 broadcasts_S2048x1_S2048x256 broadcasts_S1x256_S2048x256 shapeCasts_S1x256_S1x256 (by decide) (by decide) (addf (shapeCast S2048x256 x0 shapeCasts_S2048x256_S2048x256) x1) g b) := rfl

theorem pay5_apply (x0 x1 : Vec Ideal S2048x256 .f32) (g b : Vec Ideal S1x256 .f32) (p : Fin 2048) (q : Fin 256) :
    k5_pay1 (F := Ideal) x0 x1 g b (ix2 p q)
      = lnEntry wN wE (fun k => x0 (ix2 p k) + x1 (ix2 p k)) (g (ix2 (0 : Fin 1) q)) (b (ix2 (0 : Fin 1) q)) q := by
  rw [pay5_eq, lnKer_apply]
  simp only [addf_apply, shapeCast_self]

/-! ## Body 2: the edge weight -/

theorem mm2_apply {φ₁ φ₂ : FTy} (l : FVec Ideal S4096x107 φ₁) (r : FVec Ideal S107x256 φ₂) (p : Fin 4096) (q : Fin 256) :
    matmul dot_S4096x107_S107x256_S4096x256_1_0_0_1_n_n none l r (constant (F := Ideal) S4096x256 .f32 0x00000000#32) (ix2 p q)
      = ∑ j : Fin 107, l (ix2 p j) * r (ix2 j q) :=
  Cert.LibPlainDot.matmul_plain (R := 4096) (K := 107) (N := 256) l r p q

theorem pay22_eq (a : Vec Ideal S4096x107 .f32) (w1 : Vec Ideal S107x256 .f32) (b1 g b : Vec Ideal S1x256 .f32) :
    k2_pay2 (F := Ideal) a w1 b1 g b
      = maximumf (lnKer wN wE reduces_S4096x256_S4096 shapeCasts_S4096_S4096x1 broadcasts_S4096x1_S4096x256 broadcasts_S1x256_S4096x256 shapeCasts_S1x256_S1x256 (by decide) (by decide) (addf (matmul dot_S4096x107_S107x256_S4096x256_1_0_0_1_n_n none (truncf .bf16 a bitsLt_bf16_f32) (truncf .bf16 w1 bitsLt_bf16_f32) (constant S4096x256 .f32 0x00000000#32)) (broadcastTo S4096x256 (shapeCast S1x256 b1 shapeCasts_S1x256_S1x256) broadcasts_S1x256_S4096x256)) g b)
          (broadcast S4096x256 (Scalar.ofBits .f32 0x00000000#32)) := rfl

theorem pay22_apply (a : Vec Ideal S4096x107 .f32) (w1 : Vec Ideal S107x256 .f32) (b1 g b : Vec Ideal S1x256 .f32)
    (e : Fin 4096) (k : Fin 256) :
    k2_pay2 (F := Ideal) a w1 b1 g b (ix2 e k) = hiddenAt a w1 b1 g b e k := by
  rw [pay22_eq, maximumf_apply, lnKer_apply]
  unfold hiddenAt
  simp only [addf_apply, mm2_apply, truncf_apply, broadcastTo_1b_ab_apply, shapeCast_self]
  rfl

theorem pay23_apply (w2 : Vec Ideal S1x256 .f32) (e : Fin 4096) (k : Fin 256) :
    k2_pay3 (F := Ideal) w2 (ix2 e k) = w2 (ix2 (0 : Fin 1) k) := by
  unfold k2_pay3
  simp only [broadcastTo_1b_ab_apply, shapeCast_self]

theorem pay21_apply (h w : FVec Ideal S4096x256 .f32) (b2 : Vec Ideal S1x1 .f32) (e : Fin 4096) (u : Fin 1) :
    k2_pay1 (F := Ideal) h w b2 (ix2 e u) = (∑ k : Fin 256, h (ix2 e k) * w (ix2 e k)) + b2 (ix2 (0 : Fin 1) (0 : Fin 1)) := by
  have hu : u = 0 := Subsingleton.elim _ _
  subst hu
  unfold k2_pay1
  simp only [addf_apply, Cert.LibLayout.shapeCast_a_a1_apply, broadcastTo_1b_ab_apply, shapeCast_self]
  refine congrArg (fun t => t + b2 (ix2 (0 : Fin 1) (0 : Fin 1))) ?_
  exact (Cert.LibLayout.laneSum_apply (mulf h w) reduces_S4096x256_S4096 _ _ e).trans rfl

/-- The whole body of the edge kernel at row e of its block. -/
theorem pay2_apply (a : Vec Ideal S4096x107 .f32) (w1 : Vec Ideal S107x256 .f32) (b1 g b w2 : Vec Ideal S1x256 .f32)
    (b2 : Vec Ideal S1x1 .f32) (e : Fin 4096) (u : Fin 1) :
    k2_pay1 (F := Ideal) (k2_pay2 a w1 b1 g b) (k2_pay3 w2) b2 (ix2 e u)
      = (∑ k : Fin 256, hiddenAt a w1 b1 g b e k * w2 (ix2 (0 : Fin 1) k)) + b2 (ix2 (0 : Fin 1) (0 : Fin 1)) := by
  rw [pay21_apply]
  simp only [pay22_apply, pay23_apply]

end Cert.KernelIdeal.Payloads

end
-- ==== Proof.Regions.lean ====
/-
  What each of the six kernel launches leaves in its output array, as one function of the arrays it reads, for any
  contents V of a core's buffers at the launch.  A grid point writes back one block of rows; the block is the body's
  arithmetic of the input blocks at that point, an input block of rows sits at the same rows of its array as the output
  block does in its own, and a window that is one block for the whole grid is its whole array; so what a point writes
  back is its block of rows of one whole-array function, and the blocks of the grid tile the output array.
-/
import proofs.«145289_j35897336660385_1_alg».proof.Proof.Gen.KernelIdeal.Frame
import proofs.«145289_j35897336660385_1_alg».proof.Proof.Payloads
import Idealize.ShloMosaic.Lib.Pipeline.Value
import Idealize.ShloMosaic.Lib.ValueIdx

set_option maxRecDepth 16384

noncomputable section

namespace Cert.KernelIdeal.Regions

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## Region 0: the product of main_arg0 with main_arg5, four blocks of 4096 rows -/

theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) < 4 :=
  (by decide +kernel : ∀ t : Fin grid0.N, _)

theorem idx_onto0 : ∀ q0 : Fin 4, ∃ t : Fin cfg0.N, win0_2.index t (0 : Fin 2) = q0.val :=
  (by decide +kernel : ∀ q0 : Fin 4, ∃ t : Fin grid0.N, _)

theorem iblk0_0 (c : Dev nD) (t : Fin cfg0.N) (y : S4096x256.Idx) :
    iblk0 V c 0 t y = V c main_arg0 (((cfg0.win 0).blk t).view.emb y) := rfl
theorem iblk0_1 (c : Dev nD) (t : Fin cfg0.N) (y : S256x256.Idx) :
    iblk0 V c 1 t y = V c main_arg5 (((cfg0.win 1).blk t).view.emb y) := rfl

theorem flushed0 (c : Dev nD) (t : Fin cfg0.N) :
    (dat0 V c).flushed 2 t = ((cfg0.win 2).blk t).view.read (Elt Ideal) (prodAt (V c main_arg0) (V c main_arg5)) := by
  show (cfg0.win 2).cut (grid0.coords t) ((dat0 V c).after 2 t) = _
  rw [after0_2]
  unfold out0_2
  rw [View.canon_unit_zero hz]
  simp only [View.ld_unit_zero (S := S4096x256) hz, View.ld_unit_zero (S := S256x256) hz]
  obtain ⟨e0, e1, e2, e3, e4, e5⟩ := idx_facts0 t
  funext y
  obtain ⟨p, q, rfl⟩ : ∃ (p : Fin 4096) (q : Fin 256), y = ix2 p q := ⟨y 0, y 1, eq_ix2 y⟩
  refine (Payloads.pay0_apply _ _ p q).trans ?_
  show _ = prodAt (V c main_arg0) (V c main_arg5) (((cfg0.win 2).blk t).view.emb (ix2 p q))
  unfold prodAt
  have h0 : ∀ j : Fin 256, ((cfg0.win 0).blk t).view.emb (ix2 p j)
      = ix2 (rowOf (((cfg0.win 2).blk t).view.emb (ix2 p q))) j := fun j => by
    funext a; apply Fin.ext
    match a with
    | ⟨0, _⟩ => show win0_0.index t (0 : Fin 2) * 4096 + 1 * p.val = win0_2.index t (0 : Fin 2) * 4096 + 1 * p.val; omega
    | ⟨1, _⟩ => show win0_0.index t (1 : Fin 2) * 256 + 1 * j.val = j.val; omega
  have h1 : ∀ j : Fin 256, ((cfg0.win 1).blk t).view.emb (ix2 j q)
      = ix2 j (colOf (((cfg0.win 2).blk t).view.emb (ix2 p q))) := fun j => by
    funext a; apply Fin.ext
    match a with
    | ⟨0, _⟩ => show win0_1.index t (0 : Fin 2) * 256 + 1 * j.val = j.val; omega
    | ⟨1, _⟩ => show win0_1.index t (1 : Fin 2) * 256 + 1 * q.val = win0_2.index t (1 : Fin 2) * 256 + 1 * q.val; omega
  simp only [iblk0_0, iblk0_1, h0, h1]

theorem mem_blk0 (t : Fin cfg0.N) (i : S16384x256.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v35).slice (win0_2.rect t)).set ↔ _
  rw [View.set_slice_whole, Rect.mem_set_unit]
  exact Iff.rfl

theorem cover0 (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  obtain ⟨t, ht⟩ := idx_onto0 ⟨(i 0).val / 4096, by omega⟩
  have ht' : win0_2.index t (0 : Fin 2) = (i 0).val / 4096 := ht
  have hf := idx_facts0 t
  refine ⟨t, flush0_2 t, ?_⟩
  rw [mem_blk0]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 256 ≤ (i 1).val ∧ (i 1).val < win0_2.index t (1 : Fin 2) * 256 + 256; omega

/-- What region 0 leaves in its output array: the product of the two arrays as the region finds them. -/
theorem value0 (c : Dev nD) : (dat0 V c).arrAt 2 cfg0.N = prodAt (V c main_arg0) (V c main_arg5) :=
  (dat0 V c).arrAt_eq_of_cover 2 _ (fun t _ => flushed0 V c t) cover0

/-! ## Region 1: main_v51 plus main_arg0, normalised along the lanes and rectified, eight blocks of 2048 rows -/

theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) < 8 :=
  (by decide +kernel : ∀ t : Fin grid1.N, _)

theorem idx_onto1 : ∀ q0 : Fin 8, ∃ t : Fin cfg1.N, win1_4.index t (0 : Fin 2) = q0.val :=
  (by decide +kernel : ∀ q0 : Fin 8, ∃ t : Fin grid1.N, _)

theorem iblk1_0 (c : Dev nD) (t : Fin cfg1.N) (y : S2048x256.Idx) :
    iblk1 V c 0 t y = V c main_v51 (((cfg1.win 0).blk t).view.emb y) := rfl
theorem iblk1_1 (c : Dev nD) (t : Fin cfg1.N) (y : S2048x256.Idx) :
    iblk1 V c 1 t y = V c main_arg0 (((cfg1.win 1).blk t).view.emb y) := rfl
theorem iblk1_2 (c : Dev nD) (t : Fin cfg1.N) (y : S1x256.Idx) :
    iblk1 V c 2 t y = V c main_v52 (((cfg1.win 2).blk t).view.emb y) := rfl
theorem iblk1_3 (c : Dev nD) (t : Fin cfg1.N) (y : S1x256.Idx) :
    iblk1 V c 3 t y = V c main_v53 (((cfg1.win 3).blk t).view.emb y) := rfl

theorem flushed1 (c : Dev nD) (t : Fin cfg1.N) :
    (dat1 V c).flushed 4 t = ((cfg1.win 4).blk t).view.read (Elt Ideal) (normReluAt (V c main_v51) (V c main_arg0) (V c main_v52) (V c main_v53)) := by
  show (cfg1.win 4).cut (grid1.coords t) ((dat1 V c).after 4 t) = _
  rw [after1_4]
  unfold out1_4
  rw [View.canon_unit_zero hz]
  simp only [View.ld_unit_zero (S := S2048x256) hz, View.ld_unit_zero (S := S1x256) hz]
  obtain ⟨e0, e1, e2, e3, e4, e5, e6, e7, e8, e9⟩ := idx_facts1 t
  funext y
  obtain ⟨p, q, rfl⟩ : ∃ (p : Fin 2048) (q : Fin 256), y = ix2 p q := ⟨y 0, y 1, eq_ix2 y⟩
  refine (Payloads.pay1_apply _ _ _ _ p q).trans ?_
  show _ = normReluAt (V c main_v51) (V c main_arg0) (V c main_v52) (V c main_v53) (((cfg1.win 4).blk t).view.emb (ix2 p q))
  unfold normReluAt normAt
  have hc : colOf (((cfg1.win 4).blk t).view.emb (ix2 p q)) = q :=
    Fin.ext (by show win1_4.index t (1 : Fin 2) * 256 + 1 * q.val = q.val; omega)
  rw [hc]
  have h0 : ∀ j : Fin 256, ((cfg1.win 0).blk t).view.emb (ix2 p j)
      = ix2 (rowOf (((cfg1.win 4).blk t).view.emb (ix2 p q))) j := fun j => by
    funext a; apply Fin.ext
    match a with
    | ⟨0, _⟩ => show win1_0.index t (0 : Fin 2) * 2048 + 1 * p.val = win1_4.index t (0 : Fin 2) * 2048 + 1 * p.val; omega
    | ⟨1, _⟩ => show win1_0.index t (1 : Fin 2) * 256 + 1 * j.val = j.val; omega
  have h1 : ∀ j : Fin 256, ((cfg1.win 1).blk t).view.emb (ix2 p j)
      = ix2 (rowOf (((cfg1.win 4).blk t).view.emb (ix2 p q))) j := fun j => by
    funext a; apply Fin.ext
    match a with
    | ⟨0, _⟩ => show win1_1.index t (0 : Fin 2) * 2048 + 1 * p.val = win1_4.index t (0 : Fin 2) * 2048 + 1 * p.val; omega
    | ⟨1, _⟩ => show win1_1.index t (1 : Fin 2) * 256 + 1 * j.val = j.val; omega
  have h2 : ∀ y : S1x256.Idx, ((cfg1.win 2).blk t).view.emb y = y := fun y => by
    funext a; apply Fin.ext
    match a with
    | ⟨0, _⟩ => show win1_2.index t (0 : Fin 2) * 1 + 1 * (y 0).val = (y 0).val; omega
    | ⟨1, _⟩ => show win1_2.index t (1 : Fin 2) * 256 + 1 * (y 1).val = (y 1).val; omega
  have h3 : ∀ y : S1x256.Idx, ((cfg1.win 3).blk t).view.emb y = y := fun y => by
    funext a; apply Fin.ext
    match a with
    | ⟨0, _⟩ => show win1_3.index t (0 : Fin 2) * 1 + 1 * (y 0).val = (y 0).val; omega
    | ⟨1, _⟩ => show win1_3.index t (1 : Fin 2) * 256 + 1 * (y 1).val = (y 1).val; omega
  simp only [iblk1_0, iblk1_1, iblk1_2, iblk1_3, h0, h1, h2, h3]

theorem mem_blk1 (t : Fin cfg1.N) (i : S16384x256.Idx) :
    i ∈ ((cfg1.win 4).blk t).view.set ↔ ∀ a : Fin 2, win1_4.index t a * S2048x256.size a ≤ (i a).val
      ∧ (i a).val < win1_4.index t a * S2048x256.size a + S2048x256.size a := by
  show i ∈ ((View.whole main_v54).slice (win1_4.rect t)).set ↔ _
  rw [View.set_slice_whole, Rect.mem_set_unit]
  exact Iff.rfl

theorem cover1 (i : S16384x256.Idx) :
    ∃ t : Fin cfg1.N, (cfg1.win 4).flush t = true ∧ i ∈ ((cfg1.win 4).blk t).view.set := by
  have hi0 : (i 0).val < 16384 := (i 0).isLt
  have hi1 : (i 1).val < 256 := (i 1).isLt
  obtain ⟨t, ht⟩ := idx_onto1 ⟨(i 0).val / 2048, by omega⟩
  have ht' : win1_4.index t (0 : Fin 2) = (i 0).val / 2048 := ht
  have hf := idx_facts1 t
  refine ⟨t, flush1_4 t, ?_⟩
  rw [mem_blk1]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 256 ≤ (i 1).val ∧ (i 1).val < win1_4.index t (1 : Fin 2) * 256 + 256; omega

/-- What region 1 leaves in its output array. -/
theorem value1 (c : Dev nD) : (dat1 V c).arrAt 4 cfg1.N = normReluAt (V c main_v51) (V c main_arg0) (V c main_v52) (V c main_v53) :=
  (dat1 V c).arrAt_eq_of_cover 4 _ (fun t _ => flushed1 V c t) cover1

/-! ## Region 2: the edge weights, sixty-four blocks of 4096 edges -/

theorem idx_facts2 : ∀ t : Fin cfg2.N, win2_0.index t (0 : Fin 2) = win2_7.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (1 : Fin 2) = 0
    ∧ win2_7.index t (0 : Fin 2) < 64 :=
  (by decide +kernel : ∀ t : Fin grid2.N, _)

theorem idx_onto2 : ∀ q0 : Fin 64, ∃ t : Fin cfg2.N, win2_7.index t (0 : Fin 2) = q0.val :=
  (by decide +kernel : ∀ q0 : Fin 64, ∃ t : Fin grid2.N, _)

theorem iblk2_0 (c : Dev nD) (t : Fin cfg2.N) (y : S4096x107.Idx) :
    iblk2 V c 0 t y = V c main_arg4 (((cfg2.win 0).blk t).view.emb y) := rfl
theorem iblk2_1 (c : Dev nD) (t : Fin cfg2.N) (y : S107x256.Idx) :
    iblk2 V c 1 t y = V c main_arg13 (((cfg2.win 1).blk t).view.emb y) := rfl
theorem iblk2_2 (c : Dev nD) (t : Fin cfg2.N) (y : S1x256.Idx) :
    iblk2 V c 2 t y = V c main_v55 (((cfg2.win 2).blk t).view.emb y) := rfl
theorem iblk2_3 (c : Dev nD) (t : Fin cfg2.N) (y : S1x256.Idx) :
    iblk2 V c 3 t y = V c main_v56 (((cfg2.win 3).blk t).view.emb y) := rfl
theorem iblk2_4 (c : Dev nD) (t : Fin cfg2.N) (y : S1x256.Idx) :
    iblk2 V c 4 t y = V c main_v57 (((cfg2.win 4).blk t).view.emb y) := rfl
theorem iblk2_5 (c : Dev nD) (t : Fin cfg2.N) (y : S1x256.Idx) :
    iblk2 V c 5 t y = V c main_v58 (((cfg2.win 5).blk t).view.emb y) := rfl
theorem iblk2_6 (c : Dev nD) (t : Fin cfg2.N) (y : S1x1.Idx) :
    iblk2 V c 6 t y = V c main_v59 (((cfg2.win 6).blk t).view.emb y) := rfl

set_option maxHeartbeats 4000000 in
theorem flushed2 (c : Dev nD) (t : Fin cfg2.N) :
    (dat2 V c).flushed 7 t = ((cfg2.win 7).blk t).view.read (Elt Ideal) (edgeAt (V c main_arg4) (V c main_arg13) (V c main_v55) (V c main_v56) (V c main_v57) (V c main_v58) (V c main_v59)) := by
  show (cfg2.win 7).cut (grid2.coords t) ((dat2 V c).after 7 t) = _
  rw [after2_7]
  unfold out2_7
  rw [View.canon_unit_zero hz]
  simp only [View.ld_unit_zero (S := S4096x107) hz, View.ld_unit_zero (S := S107x256) hz, View.ld_unit_zero (S := S1x256) hz, View.ld_unit_zero (S := S1x1) hz, View.ld_unit_zero (S := S4096x1) hz]
  obtain ⟨e0, e1, e2, e3, e4, e5, e6, e7, e8, e9, e10, e11, e12, e13, e14, e15⟩ := idx_facts2 t
  funext y
  obtain ⟨p, q, rfl⟩ : ∃ (p : Fin 4096) (q : Fin 1), y = ix2 p q := ⟨y 0, y 1, eq_ix2 y⟩
  refine (Payloads.pay2_apply _ _ _ _ _ _ _ p q).trans ?_
  show _ = edgeAt (V c main_arg4) (V c main_arg13) (V c main_v55) (V c main_v56) (V c main_v57) (V c main_v58) (V c main_v59) (((cfg2.win 7).blk t).view.emb (ix2 p q))
  unfold edgeAt hiddenAt
  have h0 : ∀ j : Fin 107, ((cfg2.win 0).blk t).view.emb (ix2 p j)
      = ix2 (rowOf (((cfg2.win 7).blk t).view.emb (ix2 p q))) j := fun j => by
    funext a; apply Fin.ext
    match a with
    | ⟨0, _⟩ => show win2_0.index t (0 : Fin 2) * 4096 + 1 * p.val = win2_7.index t (0 : Fin 2) * 4096 + 1 * p.val; omega
    | ⟨1, _⟩ => show win2_0.index t (1 : Fin 2) * 107 + 1 * j.val = j.val; omega
  have h1 : ∀ y : S107x256.Idx, ((cfg2.win 1).blk t).view.emb y = y := fun y => by
    funext a; apply Fin.ext
    match a with
    | ⟨0, _⟩ => show win2_1.index t (0 : Fin 2) * 107 + 1 * (y 0).val = (y 0).val; omega
    | ⟨1, _⟩ => show win2_1.index t (1 : Fin 2) * 256 + 1 * (y 1).val = (y 1).val; omega
  have h2 : ∀ y : S1x256.Idx, ((cfg2.win 2).blk t).view.emb y = y := fun y => by
    funext a; apply Fin.ext
    match a with
    | ⟨0, _⟩ => show win2_2.index t (0 : Fin 2) * 1 + 1 * (y 0).val = (y 0).val; omega
    | ⟨1, _⟩ => show win2_2.index t (1 : Fin 2) * 256 + 1 * (y 1).val = (y 1).val; omega
  have h3 : ∀ y : S1x256.Idx, ((cfg2.win 3).blk t).view.emb y = y := fun y => by
    funext a; apply Fin.ext
    match a with
    | ⟨0, _⟩ => show win2_3.index t (0 : Fin 2) * 1 + 1 * (y 0).val = (y 0).val; omega
    | ⟨1, _⟩ => show win2_3.index t (1 : Fin 2) * 256 + 1 * (y 1).val = (y 1).val; omega
  have h4 : ∀ y : S1x256.Idx, ((cfg2.win 4).blk t).view.emb y = y := fun y => by
    funext a; apply Fin.ext
    match a with
    | ⟨0, _⟩ => show win2_4.index t (0 : Fin 2) * 1 + 1 * (y 0).val = (y 0).val; omega
    | ⟨1, _⟩ => show win2_4.index t (1 : Fin 2) * 256 + 1 * (y 1).val = (y 1).val; omega
  have h5 : ∀ y : S1x256.Idx, ((cfg2.win 5).blk t).view.emb y = y := fun y => by
    funext a; apply Fin.ext
    match a with
    | ⟨0, _⟩ => show win2_5.index t (0 : Fin 2) * 1 + 1 * (y 0).val = (y 0).val; omega
    | ⟨1, _⟩ => show win2_5.index t (1 : Fin 2) * 256 + 1 * (y 1).val = (y 1).val; omega
  have h6 : ∀ y : S1x1.Idx, ((cfg2.win 6).blk t).view.emb y = y := fun y => by
    funext a; apply Fin.ext
    match a with
    | ⟨0, _⟩ => show win2_6.index t (0 : Fin 2) * 1 + 1 * (y 0).val = (y 0).val; omega
    | ⟨1, _⟩ => show win2_6.index t (1 : Fin 2) * 1 + 1 * (y 1).val = (y 1).val; omega
  simp only [iblk2_0, iblk2_1, iblk2_2, iblk2_3, iblk2_4, iblk2_5, iblk2_6, h0, h1, h2, h3, h4, h5, h6]

theorem mem_blk2 (t : Fin cfg2.N) (i : S262144x1.Idx) :
    i ∈ ((cfg2.win 7).blk t).view.set ↔ ∀ a : Fin 2, win2_7.index t a * S4096x1.size a ≤ (i a).val
      ∧ (i a).val < win2_7.index t a * S4096x1.size a + S4096x1.size a := by
  show i ∈ ((View.whole main_v60).slice (win2_7.rect t)).set ↔ _
  rw [View.set_slice_whole, Rect.mem_set_unit]
  exact Iff.rfl

theorem cover2 (i : S262144x1.Idx) :
    ∃ t : Fin cfg2.N, (cfg2.win 7).flush t = true ∧ i ∈ ((cfg2.win 7).blk t).view.set := by
  have hi0 : (i 0).val < 262144 := (i 0).isLt
  have hi1 : (i 1).val < 1 := (i 1).isLt
  obtain ⟨t, ht⟩ := idx_onto2 ⟨(i 0).val / 4096, by omega⟩
  have ht' : win2_7.index t (0 : Fin 2) = (i 0).val / 4096 := ht
  have hf := idx_facts2 t
  refine ⟨t, flush2_7 t, ?_⟩
  rw [mem_blk2]
  intro a
  match a with
  | ⟨0, _⟩ => show win2_7.index t (0 : Fin 2) * 4096 ≤ (i 0).val ∧ (i 0).val < win2_7.index t (0 : Fin 2) * 4096 + 4096; omega
  | ⟨1, _⟩ => show win2_7.index t (1 : Fin 2) * 1 ≤ (i 1).val ∧ (i 1).val < win2_7.index t (1 : Fin 2) * 1 + 1; omega

/-- What region 2 leaves in its output array: the column of edge weights. -/
theorem value2 (c : Dev nD) : (dat2 V c).arrAt 7 cfg2.N = edgeAt (V c main_arg4) (V c main_arg13) (V c main_v55) (V c main_v56) (V c main_v57) (V c main_v58) (V c main_v59) :=
  (dat2 V c).arrAt_eq_of_cover 7 _ (fun t _ => flushed2 V c t) cover2

/-! ## Region 3: the product of main_v54 with main_arg7, four blocks of 4096 rows -/

theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) < 4 :=
  (by decide +kernel : ∀ t : Fin grid3.N, _)

theorem idx_onto3 : ∀ q0 : Fin 4, ∃ t : Fin cfg3.N, win3_2.index t (0 : Fin 2) = q0.val :=
  (by decide +kernel : ∀ q0 : Fin 4, ∃ t : Fin grid3.N, _)

theorem iblk3_0 (c : Dev nD) (t : Fin cfg3.N) (y : S4096x256.Idx) :
    iblk3 V c 0 t y = V c main_v54 (((cfg3.win 0).blk t).view.emb y) := rfl
theorem iblk3_1 (c : Dev nD) (t : Fin cfg3.N) (y : S256x256.Idx) :
    iblk3 V c 1 t y = V c main_arg7 (((cfg3.win 1).blk t).view.emb y) := rfl

theorem flushed3 (c : Dev nD) (t : Fin cfg3.N) :
    (dat3 V c).flushed 2 t = ((cfg3.win 2).blk t).view.read (Elt Ideal) (prodAt (V c main_v54) (V c main_arg7)) := by
  show (cfg3.win 2).cut (grid3.coords t) ((dat3 V c).after 2 t) = _
  rw [after3_2]
  unfold out3_2
  rw [View.canon_unit_zero hz]
  simp only [View.ld_unit_zero (S := S4096x256) hz, View.ld_unit_zero (S := S256x256) hz]
  obtain ⟨e0, e1, e2, e3, e4, e5⟩ := idx_facts3 t
  funext y
  obtain ⟨p, q, rfl⟩ : ∃ (p : Fin 4096) (q : Fin 256), y = ix2 p q := ⟨y 0, y 1, eq_ix2 y⟩
  refine (Payloads.pay3_apply _ _ p q).trans ?_
  show _ = prodAt (V c main_v54) (V c main_arg7) (((cfg3.win 2).blk t).view.emb (ix2 p q))
  unfold prodAt
  have h0 : ∀ j : Fin 256, ((cfg3.win 0).blk t).view.emb (ix2 p j)
      = ix2 (rowOf (((cfg3.win 2).blk t).view.emb (ix2 p q))) j := fun j => by
    funext a; apply Fin.ext
    match a with
    | ⟨0, _⟩ => show win3_0.index t (0 : Fin 2) * 4096 + 1 * p.val = win3_2.index t (0 : Fin 2) * 4096 + 1 * p.val; omega
    | ⟨1, _⟩ => show win3_0.index t (1 : Fin 2) * 256 + 1 * j.val = j.val; omega
  have h1 : ∀ j : Fin 256, ((cfg3.win 1).blk t).view.emb (ix2 j q)
      = ix2 j (colOf (((cfg3.win 2).blk t).view.emb (ix2 p q))) := fun j => by
    funext a; apply Fin.ext
    match a with
    | ⟨0, _⟩ => show win3_1.index t (0 : Fin 2) * 256 + 1 * j.val = j.val; omega
    | ⟨1, _⟩ => show win3_1.index t (1 : Fin 2) * 256 + 1 * q.val = win3_2.index t (1 : Fin 2) * 256 + 1 * q.val; omega
  simp only [iblk3_0, iblk3_1, h0, h1]

theorem mem_blk3 (t : Fin cfg3.N) (i : S16384x256.Idx) :
    i ∈ ((cfg3.win 2).blk t).view.set ↔ ∀ a : Fin 2, win3_2.index t a * S4096x256.size a ≤ (i a).val
      ∧ (i a).val < win3_2.index t a * S4096x256.size a + S4096x256.size a := by
  show i ∈ ((View.whole main_v97).slice (win3_2.rect t)).set ↔ _
  rw [View.set_slice_whole, Rect.mem_set_unit]
  exact Iff.rfl

theorem cover3 (i : S16384x256.Idx) :
    ∃ t : Fin cfg3.N, (cfg3.win 2).flush t = true ∧ i ∈ ((cfg3.win 2).blk t).view.set := by
  have hi0 : (i 0).val < 16384 := (i 0).isLt
  have hi1 : (i 1).val < 256 := (i 1).isLt
  obtain ⟨t, ht⟩ := idx_onto3 ⟨(i 0).val / 4096, by omega⟩
  have ht' : win3_2.index t (0 : Fin 2) = (i 0).val / 4096 := ht
  have hf := idx_facts3 t
  refine ⟨t, flush3_2 t, ?_⟩
  rw [mem_blk3]
  intro a
  match a with
  | ⟨0, _⟩ => show win3_2.index t (0 : Fin 2) * 4096 ≤ (i 0).val ∧ (i 0).val < win3_2.index t (0 : Fin 2) * 4096 + 4096; omega
  | ⟨1, _⟩ => show win3_2.index t (1 : Fin 2) * 256 ≤ (i 1).val ∧ (i 1).val < win3_2.index t (1 : Fin 2) * 256 + 256; omega

/-- What region 3 leaves in its output array: the product of the two arrays as the region finds them. -/
theorem value3 (c : Dev nD) : (dat3 V c).arrAt 2 cfg3.N = prodAt (V c main_v54) (V c main_arg7) :=
  (dat3 V c).arrAt_eq_of_cover 2 _ (fun t _ => flushed3 V c t) cover3

/-! ## Region 4: main_v113 plus main_v54, normalised along the lanes and rectified, eight blocks of 2048 rows -/

theorem idx_facts4 : ∀ t : Fin cfg4.N, win4_0.index t (0 : Fin 2) = win4_4.index t (0 : Fin 2)
    ∧ win4_0.index t (1 : Fin 2) = 0
    ∧ win4_1.index t (0 : Fin 2) = win4_4.index t (0 : Fin 2)
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (1 : Fin 2) = 0
    ∧ win4_4.index t (0 : Fin 2) < 8 :=
  (by decide +kernel : ∀ t : Fin grid4.N, _)

theorem idx_onto4 : ∀ q0 : Fin 8, ∃ t : Fin cfg4.N, win4_4.index t (0 : Fin 2) = q0.val :=
  (by decide +kernel : ∀ q0 : Fin 8, ∃ t : Fin grid4.N, _)

theorem iblk4_0 (c : Dev nD) (t : Fin cfg4.N) (y : S2048x256.Idx) :
    iblk4 V c 0 t y = V c main_v113 (((cfg4.win 0).blk t).view.emb y) := rfl
theorem iblk4_1 (c : Dev nD) (t : Fin cfg4.N) (y : S2048x256.Idx) :
    iblk4 V c 1 t y = V c main_v54 (((cfg4.win 1).blk t).view.emb y) := rfl
theorem iblk4_2 (c : Dev nD) (t : Fin cfg4.N) (y : S1x256.Idx) :
    iblk4 V c 2 t y = V c main_v114 (((cfg4.win 2).blk t).view.emb y) := rfl
theorem iblk4_3 (c : Dev nD) (t : Fin cfg4.N) (y : S1x256.Idx) :
    iblk4 V c 3 t y = V c main_v115 (((cfg4.win 3).blk t).view.emb y) := rfl

theorem flushed4 (c : Dev nD) (t : Fin cfg4.N) :
    (dat4 V c).flushed 4 t = ((cfg4.win 4).blk t).view.read (Elt Ideal) (normReluAt (V c main_v113) (V c main_v54) (V c main_v114) (V c main_v115)) := by
  show (cfg4.win 4).cut (grid4.coords t) ((dat4 V c).after 4 t) = _
  rw [after4_4]
  unfold out4_4
  rw [View.canon_unit_zero hz]
  simp only [View.ld_unit_zero (S := S2048x256) hz, View.ld_unit_zero (S := S1x256) hz]
  obtain ⟨e0, e1, e2, e3, e4, e5, e6, e7, e8, e9⟩ := idx_facts4 t
  funext y
  obtain ⟨p, q, rfl⟩ : ∃ (p : Fin 2048) (q : Fin 256), y = ix2 p q := ⟨y 0, y 1, eq_ix2 y⟩
  refine (Payloads.pay4_apply _ _ _ _ p q).trans ?_
  show _ = normReluAt (V c main_v113) (V c main_v54) (V c main_v114) (V c main_v115) (((cfg4.win 4).blk t).view.emb (ix2 p q))
  unfold normReluAt normAt
  have hc : colOf (((cfg4.win 4).blk t).view.emb (ix2 p q)) = q :=
    Fin.ext (by show win4_4.index t (1 : Fin 2) * 256 + 1 * q.val = q.val; omega)
  rw [hc]
  have h0 : ∀ j : Fin 256, ((cfg4.win 0).blk t).view.emb (ix2 p j)
      = ix2 (rowOf (((cfg4.win 4).blk t).view.emb (ix2 p q))) j := fun j => by
    funext a; apply Fin.ext
    match a with
    | ⟨0, _⟩ => show win4_0.index t (0 : Fin 2) * 2048 + 1 * p.val = win4_4.index t (0 : Fin 2) * 2048 + 1 * p.val; omega
    | ⟨1, _⟩ => show win4_0.index t (1 : Fin 2) * 256 + 1 * j.val = j.val; omega
  have h1 : ∀ j : Fin 256, ((cfg4.win 1).blk t).view.emb (ix2 p j)
      = ix2 (rowOf (((cfg4.win 4).blk t).view.emb (ix2 p q))) j := fun j => by
    funext a; apply Fin.ext
    match a with
    | ⟨0, _⟩ => show win4_1.index t (0 : Fin 2) * 2048 + 1 * p.val = win4_4.index t (0 : Fin 2) * 2048 + 1 * p.val; omega
    | ⟨1, _⟩ => show win4_1.index t (1 : Fin 2) * 256 + 1 * j.val = j.val; omega
  have h2 : ∀ y : S1x256.Idx, ((cfg4.win 2).blk t).view.emb y = y := fun y => by
    funext a; apply Fin.ext
    match a with
    | ⟨0, _⟩ => show win4_2.index t (0 : Fin 2) * 1 + 1 * (y 0).val = (y 0).val; omega
    | ⟨1, _⟩ => show win4_2.index t (1 : Fin 2) * 256 + 1 * (y 1).val = (y 1).val; omega
  have h3 : ∀ y : S1x256.Idx, ((cfg4.win 3).blk t).view.emb y = y := fun y => by
    funext a; apply Fin.ext
    match a with
    | ⟨0, _⟩ => show win4_3.index t (0 : Fin 2) * 1 + 1 * (y 0).val = (y 0).val; omega
    | ⟨1, _⟩ => show win4_3.index t (1 : Fin 2) * 256 + 1 * (y 1).val = (y 1).val; omega
  simp only [iblk4_0, iblk4_1, iblk4_2, iblk4_3, h0, h1, h2, h3]

theorem mem_blk4 (t : Fin cfg4.N) (i : S16384x256.Idx) :
    i ∈ ((cfg4.win 4).blk t).view.set ↔ ∀ a : Fin 2, win4_4.index t a * S2048x256.size a ≤ (i a).val
      ∧ (i a).val < win4_4.index t a * S2048x256.size a + S2048x256.size a := by
  show i ∈ ((View.whole main_v116).slice (win4_4.rect t)).set ↔ _
  rw [View.set_slice_whole, Rect.mem_set_unit]
  exact Iff.rfl

theorem cover4 (i : S16384x256.Idx) :
    ∃ t : Fin cfg4.N, (cfg4.win 4).flush t = true ∧ i ∈ ((cfg4.win 4).blk t).view.set := by
  have hi0 : (i 0).val < 16384 := (i 0).isLt
  have hi1 : (i 1).val < 256 := (i 1).isLt
  obtain ⟨t, ht⟩ := idx_onto4 ⟨(i 0).val / 2048, by omega⟩
  have ht' : win4_4.index t (0 : Fin 2) = (i 0).val / 2048 := ht
  have hf := idx_facts4 t
  refine ⟨t, flush4_4 t, ?_⟩
  rw [mem_blk4]
  intro a
  match a with
  | ⟨0, _⟩ => show win4_4.index t (0 : Fin 2) * 2048 ≤ (i 0).val ∧ (i 0).val < win4_4.index t (0 : Fin 2) * 2048 + 2048; omega
  | ⟨1, _⟩ => show win4_4.index t (1 : Fin 2) * 256 ≤ (i 1).val ∧ (i 1).val < win4_4.index t (1 : Fin 2) * 256 + 256; omega

/-- What region 4 leaves in its output array. -/
theorem value4 (c : Dev nD) : (dat4 V c).arrAt 4 cfg4.N = normReluAt (V c main_v113) (V c main_v54) (V c main_v114) (V c main_v115) :=
  (dat4 V c).arrAt_eq_of_cover 4 _ (fun t _ => flushed4 V c t) cover4

/-! ## Region 5: main_v116 plus main_arg0, normalised along the lanes, eight blocks of 2048 rows -/

theorem idx_facts5 : ∀ t : Fin cfg5.N, win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (1 : Fin 2) = 0
    ∧ win5_4.index t (0 : Fin 2) < 8 :=
  (by decide +kernel : ∀ t : Fin grid5.N, _)

theorem idx_onto5 : ∀ q0 : Fin 8, ∃ t : Fin cfg5.N, win5_4.index t (0 : Fin 2) = q0.val :=
  (by decide +kernel : ∀ q0 : Fin 8, ∃ t : Fin grid5.N, _)

theorem iblk5_0 (c : Dev nD) (t : Fin cfg5.N) (y : S2048x256.Idx) :
    iblk5 V c 0 t y = V c main_v116 (((cfg5.win 0).blk t).view.emb y) := rfl
theorem iblk5_1 (c : Dev nD) (t : Fin cfg5.N) (y : S2048x256.Idx) :
    iblk5 V c 1 t y = V c main_arg0 (((cfg5.win 1).blk t).view.emb y) := rfl
theorem iblk5_2 (c : Dev nD) (t : Fin cfg5.N) (y : S1x256.Idx) :
    iblk5 V c 2 t y = V c main_v117 (((cfg5.win 2).blk t).view.emb y) := rfl
theorem iblk5_3 (c : Dev nD) (t : Fin cfg5.N) (y : S1x256.Idx) :
    iblk5 V c 3 t y = V c main_v118 (((cfg5.win 3).blk t).view.emb y) := rfl

theorem flushed5 (c : Dev nD) (t : Fin cfg5.N) :
    (dat5 V c).flushed 4 t = ((cfg5.win 4).blk t).view.read (Elt Ideal) (normAt (V c main_v116) (V c main_arg0) (V c main_v117) (V c main_v118)) := by
  show (cfg5.win 4).cut (grid5.coords t) ((dat5 V c).after 4 t) = _
  rw [after5_4]
  unfold out5_4
  rw [View.canon_unit_zero hz]
  simp only [View.ld_unit_zero (S := S2048x256) hz, View.ld_unit_zero (S := S1x256) hz]
  obtain ⟨e0, e1, e2, e3, e4, e5, e6, e7, e8, e9⟩ := idx_facts5 t
  funext y
  obtain ⟨p, q, rfl⟩ : ∃ (p : Fin 2048) (q : Fin 256), y = ix2 p q := ⟨y 0, y 1, eq_ix2 y⟩
  refine (Payloads.pay5_apply _ _ _ _ p q).trans ?_
  show _ = normAt (V c main_v116) (V c main_arg0) (V c main_v117) (V c main_v118) (((cfg5.win 4).blk t).view.emb (ix2 p q))
  unfold normAt
  have hc : colOf (((cfg5.win 4).blk t).view.emb (ix2 p q)) = q :=
    Fin.ext (by show win5_4.index t (1 : Fin 2) * 256 + 1 * q.val = q.val; omega)
  rw [hc]
  have h0 : ∀ j : Fin 256, ((cfg5.win 0).blk t).view.emb (ix2 p j)
      = ix2 (rowOf (((cfg5.win 4).blk t).view.emb (ix2 p q))) j := fun j => by
    funext a; apply Fin.ext
    match a with
    | ⟨0, _⟩ => show win5_0.index t (0 : Fin 2) * 2048 + 1 * p.val = win5_4.index t (0 : Fin 2) * 2048 + 1 * p.val; omega
    | ⟨1, _⟩ => show win5_0.index t (1 : Fin 2) * 256 + 1 * j.val = j.val; omega
  have h1 : ∀ j : Fin 256, ((cfg5.win 1).blk t).view.emb (ix2 p j)
      = ix2 (rowOf (((cfg5.win 4).blk t).view.emb (ix2 p q))) j := fun j => by
    funext a; apply Fin.ext
    match a with
    | ⟨0, _⟩ => show win5_1.index t (0 : Fin 2) * 2048 + 1 * p.val = win5_4.index t (0 : Fin 2) * 2048 + 1 * p.val; omega
    | ⟨1, _⟩ => show win5_1.index t (1 : Fin 2) * 256 + 1 * j.val = j.val; omega
  have h2 : ∀ y : S1x256.Idx, ((cfg5.win 2).blk t).view.emb y = y := fun y => by
    funext a; apply Fin.ext
    match a with
    | ⟨0, _⟩ => show win5_2.index t (0 : Fin 2) * 1 + 1 * (y 0).val = (y 0).val; omega
    | ⟨1, _⟩ => show win5_2.index t (1 : Fin 2) * 256 + 1 * (y 1).val = (y 1).val; omega
  have h3 : ∀ y : S1x256.Idx, ((cfg5.win 3).blk t).view.emb y = y := fun y => by
    funext a; apply Fin.ext
    match a with
    | ⟨0, _⟩ => show win5_3.index t (0 : Fin 2) * 1 + 1 * (y 0).val = (y 0).val; omega
    | ⟨1, _⟩ => show win5_3.index t (1 : Fin 2) * 256 + 1 * (y 1).val = (y 1).val; omega
  simp only [iblk5_0, iblk5_1, iblk5_2, iblk5_3, h0, h1, h2, h3]

theorem mem_blk5 (t : Fin cfg5.N) (i : S16384x256.Idx) :
    i ∈ ((cfg5.win 4).blk t).view.set ↔ ∀ a : Fin 2, win5_4.index t a * S2048x256.size a ≤ (i a).val
      ∧ (i a).val < win5_4.index t a * S2048x256.size a + S2048x256.size a := by
  show i ∈ ((View.whole main_v119).slice (win5_4.rect t)).set ↔ _
  rw [View.set_slice_whole, Rect.mem_set_unit]
  exact Iff.rfl

theorem cover5 (i : S16384x256.Idx) :
    ∃ t : Fin cfg5.N, (cfg5.win 4).flush t = true ∧ i ∈ ((cfg5.win 4).blk t).view.set := by
  have hi0 : (i 0).val < 16384 := (i 0).isLt
  have hi1 : (i 1).val < 256 := (i 1).isLt
  obtain ⟨t, ht⟩ := idx_onto5 ⟨(i 0).val / 2048, by omega⟩
  have ht' : win5_4.index t (0 : Fin 2) = (i 0).val / 2048 := ht
  have hf := idx_facts5 t
  refine ⟨t, flush5_4 t, ?_⟩
  rw [mem_blk5]
  intro a
  match a with
  | ⟨0, _⟩ => show win5_4.index t (0 : Fin 2) * 2048 ≤ (i 0).val ∧ (i 0).val < win5_4.index t (0 : Fin 2) * 2048 + 2048; omega
  | ⟨1, _⟩ => show win5_4.index t (1 : Fin 2) * 256 ≤ (i 1).val ∧ (i 1).val < win5_4.index t (1 : Fin 2) * 256 + 256; omega

/-- What region 5 leaves in its output array. -/
theorem value5 (c : Dev nD) : (dat5 V c).arrAt 4 cfg5.N = normAt (V c main_v116) (V c main_arg0) (V c main_v117) (V c main_v118) :=
  (dat5 V c).arrAt_eq_of_cover 4 _ (fun t _ => flushed5 V c t) cover5

end Cert.KernelIdeal.Regions

end
-- ==== Proof.HostStages.lean ====
/-
  The reference's dense stages are the specification's functions.  Its product stages are host contractions over the
  plain dimension record; its normalisation stages are the host's spelling of layer normalisation applied to a sum of
  two arrays, with the scale and shift vectors read where the specification reads their one-row casts; its edge
  weight is a contraction with a bias, that normalisation, a rectifier, a contraction with a one-column weight matrix
  (read where the specification reads the matrix cast to one row) and a one-entry shift.
-/
import proofs.«145289_j35897336660385_1_alg».proof.Proof.RefReadP
import proofs.«145289_j35897336660385_1_alg».proof.Proof.LibPlainDot
import proofs.«145289_j35897336660385_1_alg».proof.Proof.LibLayerNorm
import proofs.«145289_j35897336660385_1_alg».proof.Proof.Spec
import Idealize.ShloMosaic.Lib.ValueLayout

set_option maxRecDepth 65536

noncomputable section

namespace Cert.ReferenceIdeal.HostStages

open Cert.ReferenceIdeal Cert.ReferenceIdeal.Gen Cert.ReferenceIdeal.ReadP Idealize.ShloMosaic Idealize.ShloMosaic.ValueIdx Cert.LibLayerNorm Cert.Spec
open scoped BigOperators

/-! ## General forms, any number of rows -/

/-- The host's contraction over the plain record is the product. -/
theorem prod_host {R K N : ℕ} (x : FVec Ideal ⟨2, ![R, K]⟩ .f32) (w : FVec Ideal ⟨2, ![K, N]⟩ .f32) :
    Host.dotGeneral (DotDims.plain R K N) none x w = prodAt x w := by
  funext i
  obtain ⟨p, q, rfl⟩ : ∃ (p : Fin R) (q : Fin N), i = ix2 p q := ⟨i 0, i 1, eq_ix2 i⟩
  exact Cert.LibPlainDot.hostdot_plain x w p q

/-- The host's normalisation of a sum of two arrays is the specification's. -/
theorem norm_host {R : ℕ}
    (hred : Shape.ReducesTo ⟨2, ![R, 256]⟩ [1] ⟨1, ![R]⟩) (hred' : Shape.Reduces ⟨2, ![R, 256]⟩ [1] ⟨1, ![R]⟩)
    (h0 : 0 < (⟨0, ![]⟩ : Shape).numel)
    (hcol : (⟨1, ![R]⟩ : Shape).BroadcastsInDim ⟨2, ![R, 1]⟩ (![0] : Fin 1 → Fin 2))
    (hsc : (⟨0, ![]⟩ : Shape).BroadcastsInDim ⟨2, ![R, 1]⟩ (![] : Fin 0 → Fin 2))
    (hlane : (⟨2, ![R, 1]⟩ : Shape).BroadcastsInDim ⟨2, ![R, 256]⟩ (![0, 1] : Fin 2 → Fin 2))
    (hrow1 : (⟨1, ![256]⟩ : Shape).BroadcastsInDim ⟨2, ![1, 256]⟩ (![1] : Fin 1 → Fin 2))
    (hrow2 : (⟨2, ![1, 256]⟩ : Shape).BroadcastsInDim ⟨2, ![R, 256]⟩ (![0, 1] : Fin 2 → Fin 2))
    (hc : (⟨1, ![256]⟩ : Shape).ShapeCasts ⟨2, ![1, 256]⟩)
    (y r : FVec Ideal ⟨2, ![R, 256]⟩ .f32) (g b : FVec Ideal ⟨1, ![256]⟩ .f32) :
    lnHost wN wE hred h0 hcol hsc hlane hrow1 hrow2 (addf y r) g b
      = normAt y r (shapeCast ⟨2, ![1, 256]⟩ g hc) (shapeCast ⟨2, ![1, 256]⟩ b hc) := by
  funext i
  obtain ⟨p, q, rfl⟩ : ∃ (p : Fin R) (q : Fin 256), i = ix2 p q := ⟨i 0, i 1, eq_ix2 i⟩
  rw [lnHost_apply (by decide) wN wE hred hred' h0 hcol hsc hlane hrow1 hrow2]
  unfold normAt
  simp only [addf_apply, shapeCast_a_1a_apply]
  rfl

/-- The same with the rectifier: a maximum with an array that is the f32 zero everywhere. -/
theorem normRelu_host {R : ℕ}
    (hred : Shape.ReducesTo ⟨2, ![R, 256]⟩ [1] ⟨1, ![R]⟩) (hred' : Shape.Reduces ⟨2, ![R, 256]⟩ [1] ⟨1, ![R]⟩)
    (h0 : 0 < (⟨0, ![]⟩ : Shape).numel)
    (hcol : (⟨1, ![R]⟩ : Shape).BroadcastsInDim ⟨2, ![R, 1]⟩ (![0] : Fin 1 → Fin 2))
    (hsc : (⟨0, ![]⟩ : Shape).BroadcastsInDim ⟨2, ![R, 1]⟩ (![] : Fin 0 → Fin 2))
    (hlane : (⟨2, ![R, 1]⟩ : Shape).BroadcastsInDim ⟨2, ![R, 256]⟩ (![0, 1] : Fin 2 → Fin 2))
    (hrow1 : (⟨1, ![256]⟩ : Shape).BroadcastsInDim ⟨2, ![1, 256]⟩ (![1] : Fin 1 → Fin 2))
    (hrow2 : (⟨2, ![1, 256]⟩ : Shape).BroadcastsInDim ⟨2, ![R, 256]⟩ (![0, 1] : Fin 2 → Fin 2))
    (hc : (⟨1, ![256]⟩ : Shape).ShapeCasts ⟨2, ![1, 256]⟩)
    (y r : FVec Ideal ⟨2, ![R, 256]⟩ .f32) (g b : FVec Ideal ⟨1, ![256]⟩ .f32)
    (z : FVec Ideal ⟨2, ![R, 256]⟩ .f32) (hz : ∀ i, z i = Ideal.ofBits .f32 0x00000000#32) :
    maximumf (lnHost wN wE hred h0 hcol hsc hlane hrow1 hrow2 (addf y r) g b) z
      = normReluAt y r (shapeCast ⟨2, ![1, 256]⟩ g hc) (shapeCast ⟨2, ![1, 256]⟩ b hc) := by
  funext i
  rw [maximumf_apply, norm_host hred hred' h0 hcol hsc hlane hrow1 hrow2 hc, hz]
  rfl

/-- A scalar zero broadcast over any shape is the f32 zero everywhere. -/
theorem zeros_apply {t : Shape} (h : (⟨0, ![]⟩ : Shape).BroadcastsInDim t (![] : Fin 0 → Fin t.rank)) (h0 : 0 < (⟨0, ![]⟩ : Shape).numel)
    (i : t.Idx) :
    broadcastInDim t ![] h (constant (F := Ideal) ⟨0, ![]⟩ .f32 0x00000000#32) i = Ideal.ofBits .f32 0x00000000#32 :=
  (hostScalar_apply _ h i (Shape.Idx.first h0)).trans (constant_apply _ _)

/-- A one-column matrix cast to one row reads the column at the lane. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (k : Fin a) :
    shapeCast ⟨2, ![1, a]⟩ x h (ix2 u k) = x (ix2 k (0 : Fin 1)) :=
  shapeCast_apply x h _ _ (by
    have hu : u.val = 0 := by omega
    rw [Shape.rowMajor_val_two, Shape.rowMajor_val_two]
    show k.val * 1 + 0 = u.val * a + k.val
    rw [hu]; omega)

/-- A one-entry vector broadcast to a one-by-one block and then along the rows of a column reads the entry. -/
theorem hostOne_apply {α : Type} {R : ℕ} (v : (⟨1, ![1]⟩ : Shape).Idx → α)
    (h1 : (⟨1, ![1]⟩ : Shape).BroadcastsInDim ⟨2, ![1, 1]⟩ (![1] : Fin 1 → Fin 2))
    (h2 : (⟨2, ![1, 1]⟩ : Shape).BroadcastsInDim ⟨2, ![R, 1]⟩ (![0, 1] : Fin 2 → Fin 2)) (p : Fin R) (u : Fin 1) :
    broadcastInDim ⟨2, ![R, 1]⟩ (no_index ![0, 1]) h2 (broadcastInDim ⟨2, ![1, 1]⟩ (no_index ![1]) h1 v) (ix2 p u)
      = v (ix1 (0 : Fin 1)) := by
  refine (broadcastInDim_apply _ h2 _ (ix2 p u) (ix2 (0 : Fin 1) (0 : Fin 1)) fun a => ?_).trans
    (broadcastInDim_apply _ h1 v (ix2 (0 : Fin 1) (0 : Fin 1)) (ix1 (0 : Fin 1)) fun a => ?_)
  · match a with
    | ⟨0, _⟩ => show (0 : ℕ) = if (1 : ℕ) = 1 then 0 else p.val; rw [if_pos rfl]
    | ⟨1, _⟩ => show (0 : ℕ) = if (1 : ℕ) = 1 then 0 else u.val; rw [if_pos rfl]
  · match a with
    | ⟨0, _⟩ => show (0 : ℕ) = if (1 : ℕ) = 1 then 0 else (0 : ℕ); rw [if_pos rfl]

/-- The host's edge weight is the specification's. -/
theorem edge_host {E : ℕ}
    (hred : Shape.ReducesTo ⟨2, ![E, 256]⟩ [1] ⟨1, ![E]⟩) (hred' : Shape.Reduces ⟨2, ![E, 256]⟩ [1] ⟨1, ![E]⟩)
    (h0 : 0 < (⟨0, ![]⟩ : Shape).numel)
    (hcol : (⟨1, ![E]⟩ : Shape).BroadcastsInDim ⟨2, ![E, 1]⟩ (![0] : Fin 1 → Fin 2))
    (hsc : (⟨0, ![]⟩ : Shape).BroadcastsInDim ⟨2, ![E, 1]⟩ (![] : Fin 0 → Fin 2))
    (hlane : (⟨2, ![E, 1]⟩ : Shape).BroadcastsInDim ⟨2, ![E, 256]⟩ (![0, 1] : Fin 2 → Fin 2))
    (hrow1 : (⟨1, ![256]⟩ : Shape).BroadcastsInDim ⟨2, ![1, 256]⟩ (![1] : Fin 1 → Fin 2))
    (hrow2 : (⟨2, ![1, 256]⟩ : Shape).BroadcastsInDim ⟨2, ![E, 256]⟩ (![0, 1] : Fin 2 → Fin 2))
    (hone1 : (⟨1, ![1]⟩ : Shape).BroadcastsInDim ⟨2, ![1, 1]⟩ (![1] : Fin 1 → Fin 2))
    (hone2 : (⟨2, ![1, 1]⟩ : Shape).BroadcastsInDim ⟨2, ![E, 1]⟩ (![0, 1] : Fin 2 → Fin 2))
    (hc : (⟨1, ![256]⟩ : Shape).ShapeCasts ⟨2, ![1, 256]⟩)
    (hcw : (⟨2, ![256, 1]⟩ : Shape).ShapeCasts ⟨2, ![1, 256]⟩)
    (hc1 : (⟨1, ![1]⟩ : Shape).ShapeCasts ⟨2, ![1, 1]⟩)
    (a : FVec Ideal ⟨2, ![E, 107]⟩ .f32) (w1 : FVec Ideal ⟨2, ![107, 256]⟩ .f32) (b1 g beta : FVec Ideal ⟨1, ![256]⟩ .f32)
    (w2 : FVec Ideal ⟨2, ![256, 1]⟩ .f32) (b2 : FVec Ideal ⟨1, ![1]⟩ .f32)
    (z : FVec Ideal ⟨2, ![E, 256]⟩ .f32) (hz : ∀ i, z i = Ideal.ofBits .f32 0x00000000#32) :
    addf (Host.dotGeneral (DotDims.plain E 256 1) none
        (maximumf (lnHost wN wE hred h0 hcol hsc hlane hrow1 hrow2
          (addf (Host.dotGeneral (DotDims.plain E 107 256) none a w1)
            (broadcastInDim ⟨2, ![E, 256]⟩ ![0, 1] hrow2 (broadcastInDim ⟨2, ![1, 256]⟩ ![1] hrow1 b1))) g beta) z) w2)
      (broadcastInDim ⟨2, ![E, 1]⟩ ![0, 1] hone2 (broadcastInDim ⟨2, ![1, 1]⟩ ![1] hone1 b2))
      = edgeAt a w1 (shapeCast ⟨2, ![1, 256]⟩ b1 hc) (shapeCast ⟨2, ![1, 256]⟩ g hc) (shapeCast ⟨2, ![1, 256]⟩ beta hc)
          (shapeCast ⟨2, ![1, 256]⟩ w2 hcw) (shapeCast ⟨2, ![1, 1]⟩ b2 hc1) := by
  funext i
  obtain ⟨e, u, rfl⟩ : ∃ (e : Fin E) (u : Fin 1), i = ix2 e u := ⟨i 0, i 1, eq_ix2 i⟩
  have hu : u = 0 := Subsingleton.elim _ _
  subst hu
  unfold edgeAt hiddenAt
  simp only [addf_apply, maximumf_apply, Cert.LibPlainDot.hostdot_plain, hz, hostOne_apply, hostRows_apply (by decide : (256 : ℕ) ≠ 1),
    lnHost_apply (by decide : (256 : ℕ) ≠ 1) wN wE hred hred' h0 hcol hsc hlane hrow1 hrow2,
    shapeCast_a_1a_apply, shapeCast_a1_1a_apply]
  rfl

/-! ## The reference's stages -/

/-- The first product: x · W_bold. -/
theorem stage_v35 (x0 : (⟨S16384x256, .f32⟩ : BufTy).Contents (Elt Ideal)) (x5 : (⟨S256x256, .f32⟩ : BufTy).Contents (Elt Ideal)) :
    val_main_v35 (F := Ideal) x0 x5 = prodAt x0 x5 :=
  prod_host (R := 16384) (K := 256) (N := 256) x0 x5

/-- The first normalised layer: relu (LN (aggregate + x)). -/
theorem stage_v77 (x0 : (⟨S16384x256, .f32⟩ : BufTy).Contents (Elt Ideal)) (x1 : (⟨S2x524288, .i32⟩ : BufTy).Contents (Elt Ideal)) (x2 : (⟨S524288, .f32⟩ : BufTy).Contents (Elt Ideal)) (x5 : (⟨S256x256, .f32⟩ : BufTy).Contents (Elt Ideal)) (x6 x9 x10 : (⟨S256, .f32⟩ : BufTy).Contents (Elt Ideal)) (hc : (⟨1, ![256]⟩ : Shape).ShapeCasts ⟨2, ![1, 256]⟩) :
    val_main_v77 (F := Ideal) x0 x1 x2 x5 x6 x9 x10
      = normReluAt (val_main_v51 (F := Ideal) x0 x1 x2 x5 x6) x0 (shapeCast ⟨2, ![1, 256]⟩ x9 hc) (shapeCast ⟨2, ![1, 256]⟩ x10 hc) :=
  normRelu_host (R := 16384) reducesTo_S16384x256_S16384_d1 (by decide) h_S_ bcast_S16384_S16384x1_0 bcast_S_S16384x1 bcast_S16384x1_S16384x256_0_1
    bcast_S256_S1x256_1 bcast_S1x256_S16384x256_0_1 hc (val_main_v51 (F := Ideal) x0 x1 x2 x5 x6) x0 x9 x10
    (val_main_call2_v0 (F := Ideal)) (fun i => zeros_apply bcast_S_S16384x256 h_S_ i)

/-- The edge weights. -/
theorem stage_v110 (x4 : (⟨S262144x107, .f32⟩ : BufTy).Contents (Elt Ideal)) (x13 : (⟨S107x256, .f32⟩ : BufTy).Contents (Elt Ideal)) (x14 x15 x16 : (⟨S256, .f32⟩ : BufTy).Contents (Elt Ideal)) (x17 : (⟨S256x1, .f32⟩ : BufTy).Contents (Elt Ideal)) (x18 : (⟨S1, .f32⟩ : BufTy).Contents (Elt Ideal))
    (hc : (⟨1, ![256]⟩ : Shape).ShapeCasts ⟨2, ![1, 256]⟩) (hcw : (⟨2, ![256, 1]⟩ : Shape).ShapeCasts ⟨2, ![1, 256]⟩)
    (hc1 : (⟨1, ![1]⟩ : Shape).ShapeCasts ⟨2, ![1, 1]⟩) :
    val_main_v110 (F := Ideal) x4 x13 x14 x15 x16 x17 x18
      = edgeAt x4 x13 (shapeCast ⟨2, ![1, 256]⟩ x14 hc) (shapeCast ⟨2, ![1, 256]⟩ x15 hc) (shapeCast ⟨2, ![1, 256]⟩ x16 hc)
          (shapeCast ⟨2, ![1, 256]⟩ x17 hcw) (shapeCast ⟨2, ![1, 1]⟩ x18 hc1) :=
  edge_host (E := 262144) reducesTo_S262144x256_S262144_d1 (by decide) h_S_ bcast_S262144_S262144x1_0 bcast_S_S262144x1 bcast_S262144x1_S262144x256_0_1
    bcast_S256_S1x256_1 bcast_S1x256_S262144x256_0_1 bcast_S1_S1x1_1 bcast_S1x1_S262144x1_0_1 hc hcw hc1 x4 x13 x14 x15 x16 x17 x18
    (val_main_call3_v0 (F := Ideal)) (fun i => zeros_apply bcast_S_S262144x256 h_S_ i)

/-- The second product: s · W_temp. -/
theorem stage_v147 (x0 : (⟨S16384x256, .f32⟩ : BufTy).Contents (Elt Ideal)) (x1 : (⟨S2x524288, .i32⟩ : BufTy).Contents (Elt Ideal)) (x2 : (⟨S524288, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x9 x10 : (⟨S256, .f32⟩ : BufTy).Contents (Elt Ideal)) :
    val_main_v147 (F := Ideal) x0 x1 x2 x5 x6 x7 x9 x10 = prodAt (val_main_v77 (F := Ideal) x0 x1 x2 x5 x6 x9 x10) x7 :=
  prod_host (R := 16384) (K := 256) (N := 256) (val_main_v77 (F := Ideal) x0 x1 x2 x5 x6 x9 x10) x7

/-- The second normalised layer: relu (LN (aggregate + s)). -/
theorem stage_v189 (x0 : (⟨S16384x256, .f32⟩ : BufTy).Contents (Elt Ideal)) (x1 : (⟨S2x524288, .i32⟩ : BufTy).Contents (Elt Ideal)) (x2 : (⟨S524288, .f32⟩ : BufTy).Contents (Elt Ideal)) (x3 : (⟨S2x262144, .i32⟩ : BufTy).Contents (Elt Ideal)) (x4 : (⟨S262144x107, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 x9 x10 x11 x12 : (⟨S256, .f32⟩ : BufTy).Contents (Elt Ideal)) (x13 : (⟨S107x256, .f32⟩ : BufTy).Contents (Elt Ideal)) (x14 x15 x16 : (⟨S256, .f32⟩ : BufTy).Contents (Elt Ideal)) (x17 : (⟨S256x1, .f32⟩ : BufTy).Contents (Elt Ideal)) (x18 : (⟨S1, .f32⟩ : BufTy).Contents (Elt Ideal)) (hc : (⟨1, ![256]⟩ : Shape).ShapeCasts ⟨2, ![1, 256]⟩) :
    val_main_v189 (F := Ideal) x0 x1 x2 x3 x4 x5 x6 x7 x8 x9 x10 x11 x12 x13 x14 x15 x16 x17 x18
      = normReluAt (val_main_v163 (F := Ideal) x0 x1 x2 x3 x4 x5 x6 x7 x8 x9 x10 x13 x14 x15 x16 x17 x18) (val_main_v77 (F := Ideal) x0 x1 x2 x5 x6 x9 x10)
          (shapeCast ⟨2, ![1, 256]⟩ x11 hc) (shapeCast ⟨2, ![1, 256]⟩ x12 hc) :=
  normRelu_host (R := 16384) reducesTo_S16384x256_S16384_d1 (by decide) h_S_ bcast_S16384_S16384x1_0 bcast_S_S16384x1 bcast_S16384x1_S16384x256_0_1
    bcast_S256_S1x256_1 bcast_S1x256_S16384x256_0_1 hc (val_main_v163 (F := Ideal) x0 x1 x2 x3 x4 x5 x6 x7 x8 x9 x10 x13 x14 x15 x16 x17 x18) (val_main_v77 (F := Ideal) x0 x1 x2 x5 x6 x9 x10) x11 x12
    (val_main_call6_v0 (F := Ideal)) (fun i => zeros_apply bcast_S_S16384x256 h_S_ i)

/-- The last normalisation: LN (s + x). -/
theorem stage_v214 (x0 : (⟨S16384x256, .f32⟩ : BufTy).Contents (Elt Ideal)) (x1 : (⟨S2x524288, .i32⟩ : BufTy).Contents (Elt Ideal)) (x2 : (⟨S524288, .f32⟩ : BufTy).Contents (Elt Ideal)) (x3 : (⟨S2x262144, .i32⟩ : BufTy).Contents (Elt Ideal)) (x4 : (⟨S262144x107, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 x9 x10 x11 x12 : (⟨S256, .f32⟩ : BufTy).Contents (Elt Ideal)) (x13 : (⟨S107x256, .f32⟩ : BufTy).Contents (Elt Ideal)) (x14 x15 x16 : (⟨S256, .f32⟩ : BufTy).Contents (Elt Ideal)) (x17 : (⟨S256x1, .f32⟩ : BufTy).Contents (Elt Ideal)) (x18 : (⟨S1, .f32⟩ : BufTy).Contents (Elt Ideal)) (hc : (⟨1, ![256]⟩ : Shape).ShapeCasts ⟨2, ![1, 256]⟩) :
    val_main_v214 (F := Ideal) x0 x1 x2 x3 x4 x5 x6 x7 x8 x9 x10 x11 x12 x13 x14 x15 x16 x17 x18
      = normAt (val_main_v189 (F := Ideal) x0 x1 x2 x3 x4 x5 x6 x7 x8 x9 x10 x11 x12 x13 x14 x15 x16 x17 x18) x0 (shapeCast ⟨2, ![1, 256]⟩ x9 hc) (shapeCast ⟨2, ![1, 256]⟩ x10 hc) :=
  norm_host (R := 16384) reducesTo_S16384x256_S16384_d1 (by decide) h_S_ bcast_S16384_S16384x1_0 bcast_S_S16384x1 bcast_S16384x1_S16384x256_0_1
    bcast_S256_S1x256_1 bcast_S1x256_S16384x256_0_1 hc (val_main_v189 (F := Ideal) x0 x1 x2 x3 x4 x5 x6 x7 x8 x9 x10 x11 x12 x13 x14 x15 x16 x17 x18) x0 x9 x10

end Cert.ReferenceIdeal.HostStages

end
-- ==== Proof.LibTypedRefs.lean ====
/-
  GENERAL lemma on typed buffer references (the references a module-local function's operations are stated over): contents
  stored through a typed reference and read back through the same reference are the contents. Storing transports the
  contents along the reference's type equation and reading transports them back.
-/
import Idealize.ShloMosaic.Lib.StableHlo

namespace Cert.LibTypedRefs

open Idealize.ShloMosaic Idealize.ShloMosaic.StableHlo

/-- Contents stored through a typed reference and read back through it are the contents. -/
theorem ofBuf_toBuf {sg : RefSig} {Val : EltTy → Type} {T : BufTy} (x : TRef sg T) (v : T.Contents Val) :
    x.ofBuf (x.toBuf v) = v := by
  obtain ⟨r, rfl, _, _⟩ := x
  rfl

end Cert.LibTypedRefs
-- ==== Proof.LibConcatFold.lean ====
/-
  GENERAL lemma: a concatenation of two arrays, which the programs spell with a list of (shape, array) pairs, as a
  plain function of the two arrays: the operands are then ordinary arguments, and unfolding the definition gives the
  list spelling back.
-/
import Idealize.ShloMosaic.PureOps.ShapeOps

namespace Cert.LibConcatFold

open Idealize.ShloMosaic

/-- The concatenation of x (shape s1) and y (shape s2) along axis a of t. -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The list spelling of a two-operand concatenation is the plain function. -/
theorem cat2_fold {α : Type} (t : Shape) (a : Fin t.rank) (s1 s2 : Shape) (x : s1.Idx → α) (y : s2.Idx → α)
    (h : Shape.Concatenates (List.map (fun p : (s : Shape) × (s.Idx → α) => p.1) [⟨s1, x⟩, ⟨s2, y⟩]) t a) :
    concatenate t (no_index a) [⟨s1, x⟩, ⟨s2, y⟩] h
      = cat2 t a s1 s2 (show Shape.Concatenates [s1, s2] t a from h) x y := rfl

end Cert.LibConcatFold
-- ==== Proof.KEval.lean ====
/-
  The host operations of the idealized kernel's outlined functions are stated over typed buffer references.
  Here: moving contents through such a reference is the identity at each of the program's literal buffers, and the
  evaluation of a stretch of the program's host operations at a buffer.
-/
import proofs.«145289_j35897336660385_1_alg».proof.Proof.Gen.KernelIdeal.Launch
import Idealize.ShloMosaic.Lib.StableHlo.Run
import Idealize.ShloMosaic.PureOps.Ideal
import proofs.«145289_j35897336660385_1_alg».proof.Proof.LibTypedRefs
import proofs.«145289_j35897336660385_1_alg».proof.Proof.LibConcatFold

set_option maxRecDepth 65536

noncomputable section

namespace Cert.KernelIdeal.KEval

open Cert.KernelIdeal Cert.KernelIdeal.Gen
open Idealize.ShloMosaic Idealize.ShloMosaic.TcCoe Idealize.ShloMosaic.StableHlo

/-! Contents moved through a typed reference of a literal buffer are the contents: the transport is along an
    equation between the buffer's type and itself. -/

theorem toBuf_cst_3 (h1 h2 h3) (v : (⟨S_, .f32⟩ : BufTy).Contents (Elt Ideal)) :
    (TRef.of (sig := sig) (T := ⟨S_, .f32⟩) main_cst_3 h1 h2 h3).toBuf v = v := rfl
theorem ofBuf_cst_3 (h1 h2 h3) (v : (⟨S_, .f32⟩ : BufTy).Contents (Elt Ideal)) :
    (TRef.of (sig := sig) (T := ⟨S_, .f32⟩) main_cst_3 h1 h2 h3).ofBuf v = v := rfl
theorem toBuf_call0_v0 (h1 h2 h3) (v : (⟨S_, .f32⟩ : BufTy).Contents (Elt Ideal)) :
    (TRef.of (sig := sig) (T := ⟨S_, .f32⟩) main_call0_v0 h1 h2 h3).toBuf v = v := rfl
theorem ofBuf_call0_v0 (h1 h2 h3) (v : (⟨S_, .f32⟩ : BufTy).Contents (Elt Ideal)) :
    (TRef.of (sig := sig) (T := ⟨S_, .f32⟩) main_call0_v0 h1 h2 h3).ofBuf v = v := rfl
theorem toBuf_call0_v1 (h1 h2 h3) (v : (⟨S16384, .f32⟩ : BufTy).Contents (Elt Ideal)) :
    (TRef.of (sig := sig) (T := ⟨S16384, .f32⟩) main_call0_v1 h1 h2 h3).toBuf v = v := rfl
theorem ofBuf_call0_v1 (h1 h2 h3) (v : (⟨S16384, .f32⟩ : BufTy).Contents (Elt Ideal)) :
    (TRef.of (sig := sig) (T := ⟨S16384, .f32⟩) main_call0_v1 h1 h2 h3).ofBuf v = v := rfl
theorem toBuf_v15 (h1 h2 h3) (v : (⟨S16384, .i1⟩ : BufTy).Contents (Elt Ideal)) :
    (TRef.of (sig := sig) (T := ⟨S16384, .i1⟩) main_v15 h1 h2 h3).toBuf v = v := rfl
theorem ofBuf_v15 (h1 h2 h3) (v : (⟨S16384, .i1⟩ : BufTy).Contents (Elt Ideal)) :
    (TRef.of (sig := sig) (T := ⟨S16384, .i1⟩) main_v15 h1 h2 h3).ofBuf v = v := rfl
theorem toBuf_v11 (h1 h2 h3) (v : (⟨S16384, .f32⟩ : BufTy).Contents (Elt Ideal)) :
    (TRef.of (sig := sig) (T := ⟨S16384, .f32⟩) main_v11 h1 h2 h3).toBuf v = v := rfl
theorem ofBuf_v11 (h1 h2 h3) (v : (⟨S16384, .f32⟩ : BufTy).Contents (Elt Ideal)) :
    (TRef.of (sig := sig) (T := ⟨S16384, .f32⟩) main_v11 h1 h2 h3).ofBuf v = v := rfl
theorem toBuf_v16 (h1 h2 h3) (v : (⟨S16384, .f32⟩ : BufTy).Contents (Elt Ideal)) :
    (TRef.of (sig := sig) (T := ⟨S16384, .f32⟩) main_v16 h1 h2 h3).toBuf v = v := rfl
theorem ofBuf_v16 (h1 h2 h3) (v : (⟨S16384, .f32⟩ : BufTy).Contents (Elt Ideal)) :
    (TRef.of (sig := sig) (T := ⟨S16384, .f32⟩) main_v16 h1 h2 h3).ofBuf v = v := rfl
theorem toBuf_cst_4 (h1 h2 h3) (v : (⟨S_, .f32⟩ : BufTy).Contents (Elt Ideal)) :
    (TRef.of (sig := sig) (T := ⟨S_, .f32⟩) main_cst_4 h1 h2 h3).toBuf v = v := rfl
theorem ofBuf_cst_4 (h1 h2 h3) (v : (⟨S_, .f32⟩ : BufTy).Contents (Elt Ideal)) :
    (TRef.of (sig := sig) (T := ⟨S_, .f32⟩) main_cst_4 h1 h2 h3).ofBuf v = v := rfl
theorem toBuf_call1_v0 (h1 h2 h3) (v : (⟨S_, .f32⟩ : BufTy).Contents (Elt Ideal)) :
    (TRef.of (sig := sig) (T := ⟨S_, .f32⟩) main_call1_v0 h1 h2 h3).toBuf v = v := rfl
theorem ofBuf_call1_v0 (h1 h2 h3) (v : (⟨S_, .f32⟩ : BufTy).Contents (Elt Ideal)) :
    (TRef.of (sig := sig) (T := ⟨S_, .f32⟩) main_call1_v0 h1 h2 h3).ofBuf v = v := rfl
theorem toBuf_call1_v1 (h1 h2 h3) (v : (⟨S16384, .f32⟩ : BufTy).Contents (Elt Ideal)) :
    (TRef.of (sig := sig) (T := ⟨S16384, .f32⟩) main_call1_v1 h1 h2 h3).toBuf v = v := rfl
theorem ofBuf_call1_v1 (h1 h2 h3) (v : (⟨S16384, .f32⟩ : BufTy).Contents (Elt Ideal)) :
    (TRef.of (sig := sig) (T := ⟨S16384, .f32⟩) main_call1_v1 h1 h2 h3).ofBuf v = v := rfl
theorem toBuf_v13 (h1 h2 h3) (v : (⟨S16384, .i1⟩ : BufTy).Contents (Elt Ideal)) :
    (TRef.of (sig := sig) (T := ⟨S16384, .i1⟩) main_v13 h1 h2 h3).toBuf v = v := rfl
theorem ofBuf_v13 (h1 h2 h3) (v : (⟨S16384, .i1⟩ : BufTy).Contents (Elt Ideal)) :
    (TRef.of (sig := sig) (T := ⟨S16384, .i1⟩) main_v13 h1 h2 h3).ofBuf v = v := rfl
theorem toBuf_v17 (h1 h2 h3) (v : (⟨S16384, .f32⟩ : BufTy).Contents (Elt Ideal)) :
    (TRef.of (sig := sig) (T := ⟨S16384, .f32⟩) main_v17 h1 h2 h3).toBuf v = v := rfl
theorem ofBuf_v17 (h1 h2 h3) (v : (⟨S16384, .f32⟩ : BufTy).Contents (Elt Ideal)) :
    (TRef.of (sig := sig) (T := ⟨S16384, .f32⟩) main_v17 h1 h2 h3).ofBuf v = v := rfl
theorem toBuf_v18 (h1 h2 h3) (v : (⟨S16384, .f32⟩ : BufTy).Contents (Elt Ideal)) :
    (TRef.of (sig := sig) (T := ⟨S16384, .f32⟩) main_v18 h1 h2 h3).toBuf v = v := rfl
theorem ofBuf_v18 (h1 h2 h3) (v : (⟨S16384, .f32⟩ : BufTy).Contents (Elt Ideal)) :
    (TRef.of (sig := sig) (T := ⟨S16384, .f32⟩) main_v18 h1 h2 h3).ofBuf v = v := rfl
theorem toBuf_cst_15 (h1 h2 h3) (v : (⟨S_, .f32⟩ : BufTy).Contents (Elt Ideal)) :
    (TRef.of (sig := sig) (T := ⟨S_, .f32⟩) main_cst_15 h1 h2 h3).toBuf v = v := rfl
theorem ofBuf_cst_15 (h1 h2 h3) (v : (⟨S_, .f32⟩ : BufTy).Contents (Elt Ideal)) :
    (TRef.of (sig := sig) (T := ⟨S_, .f32⟩) main_cst_15 h1 h2 h3).ofBuf v = v := rfl
theorem toBuf_call2_v0 (h1 h2 h3) (v : (⟨S_, .f32⟩ : BufTy).Contents (Elt Ideal)) :
    (TRef.of (sig := sig) (T := ⟨S_, .f32⟩) main_call2_v0 h1 h2 h3).toBuf v = v := rfl
theorem ofBuf_call2_v0 (h1 h2 h3) (v : (⟨S_, .f32⟩ : BufTy).Contents (Elt Ideal)) :
    (TRef.of (sig := sig) (T := ⟨S_, .f32⟩) main_call2_v0 h1 h2 h3).ofBuf v = v := rfl
theorem toBuf_call2_v1 (h1 h2 h3) (v : (⟨S16384, .f32⟩ : BufTy).Contents (Elt Ideal)) :
    (TRef.of (sig := sig) (T := ⟨S16384, .f32⟩) main_call2_v1 h1 h2 h3).toBuf v = v := rfl
theorem ofBuf_call2_v1 (h1 h2 h3) (v : (⟨S16384, .f32⟩ : BufTy).Contents (Elt Ideal)) :
    (TRef.of (sig := sig) (T := ⟨S16384, .f32⟩) main_call2_v1 h1 h2 h3).ofBuf v = v := rfl
theorem toBuf_v77 (h1 h2 h3) (v : (⟨S16384, .i1⟩ : BufTy).Contents (Elt Ideal)) :
    (TRef.of (sig := sig) (T := ⟨S16384, .i1⟩) main_v77 h1 h2 h3).toBuf v = v := rfl
theorem ofBuf_v77 (h1 h2 h3) (v : (⟨S16384, .i1⟩ : BufTy).Contents (Elt Ideal)) :
    (TRef.of (sig := sig) (T := ⟨S16384, .i1⟩) main_v77 h1 h2 h3).ofBuf v = v := rfl
theorem toBuf_v73 (h1 h2 h3) (v : (⟨S16384, .f32⟩ : BufTy).Contents (Elt Ideal)) :
    (TRef.of (sig := sig) (T := ⟨S16384, .f32⟩) main_v73 h1 h2 h3).toBuf v = v := rfl
theorem ofBuf_v73 (h1 h2 h3) (v : (⟨S16384, .f32⟩ : BufTy).Contents (Elt Ideal)) :
    (TRef.of (sig := sig) (T := ⟨S16384, .f32⟩) main_v73 h1 h2 h3).ofBuf v = v := rfl
theorem toBuf_v78 (h1 h2 h3) (v : (⟨S16384, .f32⟩ : BufTy).Contents (Elt Ideal)) :
    (TRef.of (sig := sig) (T := ⟨S16384, .f32⟩) main_v78 h1 h2 h3).toBuf v = v := rfl
theorem ofBuf_v78 (h1 h2 h3) (v : (⟨S16384, .f32⟩ : BufTy).Contents (Elt Ideal)) :
    (TRef.of (sig := sig) (T := ⟨S16384, .f32⟩) main_v78 h1 h2 h3).ofBuf v = v := rfl
theorem toBuf_cst_16 (h1 h2 h3) (v : (⟨S_, .f32⟩ : BufTy).Contents (Elt Ideal)) :
    (TRef.of (sig := sig) (T := ⟨S_, .f32⟩) main_cst_16 h1 h2 h3).toBuf v = v := rfl
theorem ofBuf_cst_16 (h1 h2 h3) (v : (⟨S_, .f32⟩ : BufTy).Contents (Elt Ideal)) :
    (TRef.of (sig := sig) (T := ⟨S_, .f32⟩) main_cst_16 h1 h2 h3).ofBuf v = v := rfl
theorem toBuf_call3_v0 (h1 h2 h3) (v : (⟨S_, .f32⟩ : BufTy).Contents (Elt Ideal)) :
    (TRef.of (sig := sig) (T := ⟨S_, .f32⟩) main_call3_v0 h1 h2 h3).toBuf v = v := rfl
theorem ofBuf_call3_v0 (h1 h2 h3) (v : (⟨S_, .f32⟩ : BufTy).Contents (Elt Ideal)) :
    (TRef.of (sig := sig) (T := ⟨S_, .f32⟩) main_call3_v0 h1 h2 h3).ofBuf v = v := rfl
theorem toBuf_call3_v1 (h1 h2 h3) (v : (⟨S16384, .f32⟩ : BufTy).Contents (Elt Ideal)) :
    (TRef.of (sig := sig) (T := ⟨S16384, .f32⟩) main_call3_v1 h1 h2 h3).toBuf v = v := rfl
theorem ofBuf_call3_v1 (h1 h2 h3) (v : (⟨S16384, .f32⟩ : BufTy).Contents (Elt Ideal)) :
    (TRef.of (sig := sig) (T := ⟨S16384, .f32⟩) main_call3_v1 h1 h2 h3).ofBuf v = v := rfl
theorem toBuf_v75 (h1 h2 h3) (v : (⟨S16384, .i1⟩ : BufTy).Contents (Elt Ideal)) :
    (TRef.of (sig := sig) (T := ⟨S16384, .i1⟩) main_v75 h1 h2 h3).toBuf v = v := rfl
theorem ofBuf_v75 (h1 h2 h3) (v : (⟨S16384, .i1⟩ : BufTy).Contents (Elt Ideal)) :
    (TRef.of (sig := sig) (T := ⟨S16384, .i1⟩) main_v75 h1 h2 h3).ofBuf v = v := rfl
theorem toBuf_v79 (h1 h2 h3) (v : (⟨S16384, .f32⟩ : BufTy).Contents (Elt Ideal)) :
    (TRef.of (sig := sig) (T := ⟨S16384, .f32⟩) main_v79 h1 h2 h3).toBuf v = v := rfl
theorem ofBuf_v79 (h1 h2 h3) (v : (⟨S16384, .f32⟩ : BufTy).Contents (Elt Ideal)) :
    (TRef.of (sig := sig) (T := ⟨S16384, .f32⟩) main_v79 h1 h2 h3).ofBuf v = v := rfl
theorem toBuf_v80 (h1 h2 h3) (v : (⟨S16384, .f32⟩ : BufTy).Contents (Elt Ideal)) :
    (TRef.of (sig := sig) (T := ⟨S16384, .f32⟩) main_v80 h1 h2 h3).toBuf v = v := rfl
theorem ofBuf_v80 (h1 h2 h3) (v : (⟨S16384, .f32⟩ : BufTy).Contents (Elt Ideal)) :
    (TRef.of (sig := sig) (T := ⟨S16384, .f32⟩) main_v80 h1 h2 h3).ofBuf v = v := rfl

/-- A fold of host operations evaluated at a literal buffer: each operation's result at its own buffer
    is its function of its operands' contents, at any other buffer what was there; typed references move contents
    unchanged; a two-operand concatenation is a function of its two operands. -/
macro "k_eval" : tactic =>
  `(tactic| simp (disch := decide) only [after_cons, after_nil,
      nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne',
      Cert.LibConcatFold.cat2_fold, Cert.LibTypedRefs.ofBuf_toBuf,
      toBuf_cst_3, ofBuf_cst_3, toBuf_call0_v0, ofBuf_call0_v0, toBuf_call0_v1, ofBuf_call0_v1, toBuf_v15, ofBuf_v15, toBuf_v11, ofBuf_v11, toBuf_v16, ofBuf_v16, toBuf_cst_4, ofBuf_cst_4, toBuf_call1_v0, ofBuf_call1_v0, toBuf_call1_v1, ofBuf_call1_v1, toBuf_v13, ofBuf_v13, toBuf_v17, ofBuf_v17, toBuf_v18, ofBuf_v18, toBuf_cst_15, ofBuf_cst_15, toBuf_call2_v0, ofBuf_call2_v0, toBuf_call2_v1, ofBuf_call2_v1, toBuf_v77, ofBuf_v77, toBuf_v73, ofBuf_v73, toBuf_v78, ofBuf_v78, toBuf_cst_16, ofBuf_cst_16, toBuf_call3_v0, ofBuf_call3_v0, toBuf_call3_v1, ofBuf_call3_v1, toBuf_v75, ofBuf_v75, toBuf_v79, ofBuf_v79, toBuf_v80, ofBuf_v80])

end Cert.KernelIdeal.KEval

end
-- ==== Proof.Walk.lean ====
/-
  The idealized kernel's buffers followed through its twenty segments.  For every buffer that a later segment reads,
  and at every segment boundary from which it is still read, the contents are named: an argument array keeps its
  launch contents (no host operation writes one and a launch only reads it), a host stretch's result is the
  stretch's operations applied to what was named before it, and a launch's output array is the specification's
  function of the arrays it reads (Regions), which is the reference's stage of the same name (HostStages).  The host
  operations of the two programs are the same operations, so each host result is the reference's stage by unfolding
  the stage's definition, never by opening an operation.  The last lemma names the result buffer: the reference's
  last stage of the nineteen argument arrays.
-/
import proofs.«145289_j35897336660385_1_alg».proof.Proof.Gen.KernelIdeal.Frame
import proofs.«145289_j35897336660385_1_alg».proof.Proof.Regions
import proofs.«145289_j35897336660385_1_alg».proof.Proof.HostStages
import proofs.«145289_j35897336660385_1_alg».proof.Proof.KEval
import Idealize.ShloMosaic.Lib.StableHlo.Run

set_option maxRecDepth 65536
set_option maxHeartbeats 4000000

noncomputable section

namespace Cert.KernelIdeal.Walk

open Cert.KernelIdeal Cert.KernelIdeal.Gen Cert.Spec
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

/-- An argument array's launch contents on core c. -/
abbrev arg (b : Ref sig .tc) : Buf (Elt Ideal) ((c : Thread nD τ).loc b) := m ((c : Thread nD τ).loc b)

/-! ### After hostOps0, hostOps0_1, hostOps0_2, hostOps0_3, hostOps0_4 (contents W5) -/

theorem at5_v3 : W5 m ρ c (Proc.devRef .tc main_v3) = (Cert.ReferenceIdeal.ReadP.val_main_v3 (F := Ideal) (arg m c main_arg1)) := by
  dsimp only [W5, W4, W3, W2, W1, hostOps0, hostOps0_1, hostOps0_2, hostOps0_3, hostOps0_4]
  k_eval
  rfl

theorem at5_v6 : W5 m ρ c (Proc.devRef .tc main_v6) = (Cert.ReferenceIdeal.ReadP.val_main_v6 (F := Ideal) (arg m c main_arg1)) := by
  dsimp only [W5, W4, W3, W2, W1, hostOps0, hostOps0_1, hostOps0_2, hostOps0_3, hostOps0_4]
  k_eval
  rfl

theorem at5_v34 : W5 m ρ c (Proc.devRef .tc main_v34) = (Cert.ReferenceIdeal.ReadP.val_main_v34 (F := Ideal) (arg m c main_arg1) (arg m c main_arg2)) := by
  dsimp only [W5, W4, W3, W2, W1, hostOps0, hostOps0_1, hostOps0_2, hostOps0_3, hostOps0_4]
  k_eval
  rfl

theorem at5_arg0 : W5 m ρ c (Proc.devRef .tc main_arg0) = (arg m c main_arg0) := by
  dsimp only [W5, W4, W3, W2, W1, hostOps0, hostOps0_1, hostOps0_2, hostOps0_3, hostOps0_4]
  k_eval <;> rfl

theorem at5_arg3 : W5 m ρ c (Proc.devRef .tc main_arg3) = (arg m c main_arg3) := by
  dsimp only [W5, W4, W3, W2, W1, hostOps0, hostOps0_1, hostOps0_2, hostOps0_3, hostOps0_4]
  k_eval <;> rfl

theorem at5_arg4 : W5 m ρ c (Proc.devRef .tc main_arg4) = (arg m c main_arg4) := by
  dsimp only [W5, W4, W3, W2, W1, hostOps0, hostOps0_1, hostOps0_2, hostOps0_3, hostOps0_4]
  k_eval <;> rfl

theorem at5_arg5 : W5 m ρ c (Proc.devRef .tc main_arg5) = (arg m c main_arg5) := by
  dsimp only [W5, W4, W3, W2, W1, hostOps0, hostOps0_1, hostOps0_2, hostOps0_3, hostOps0_4]
  k_eval <;> rfl

theorem at5_arg6 : W5 m ρ c (Proc.devRef .tc main_arg6) = (arg m c main_arg6) := by
  dsimp only [W5, W4, W3, W2, W1, hostOps0, hostOps0_1, hostOps0_2, hostOps0_3, hostOps0_4]
  k_eval <;> rfl

theorem at5_arg7 : W5 m ρ c (Proc.devRef .tc main_arg7) = (arg m c main_arg7) := by
  dsimp only [W5, W4, W3, W2, W1, hostOps0, hostOps0_1, hostOps0_2, hostOps0_3, hostOps0_4]
  k_eval <;> rfl

theorem at5_arg8 : W5 m ρ c (Proc.devRef .tc main_arg8) = (arg m c main_arg8) := by
  dsimp only [W5, W4, W3, W2, W1, hostOps0, hostOps0_1, hostOps0_2, hostOps0_3, hostOps0_4]
  k_eval <;> rfl

theorem at5_arg9 : W5 m ρ c (Proc.devRef .tc main_arg9) = (arg m c main_arg9) := by
  dsimp only [W5, W4, W3, W2, W1, hostOps0, hostOps0_1, hostOps0_2, hostOps0_3, hostOps0_4]
  k_eval <;> rfl

theorem at5_arg10 : W5 m ρ c (Proc.devRef .tc main_arg10) = (arg m c main_arg10) := by
  dsimp only [W5, W4, W3, W2, W1, hostOps0, hostOps0_1, hostOps0_2, hostOps0_3, hostOps0_4]
  k_eval <;> rfl

theorem at5_arg11 : W5 m ρ c (Proc.devRef .tc main_arg11) = (arg m c main_arg11) := by
  dsimp only [W5, W4, W3, W2, W1, hostOps0, hostOps0_1, hostOps0_2, hostOps0_3, hostOps0_4]
  k_eval <;> rfl

theorem at5_arg12 : W5 m ρ c (Proc.devRef .tc main_arg12) = (arg m c main_arg12) := by
  dsimp only [W5, W4, W3, W2, W1, hostOps0, hostOps0_1, hostOps0_2, hostOps0_3, hostOps0_4]
  k_eval <;> rfl

theorem at5_arg13 : W5 m ρ c (Proc.devRef .tc main_arg13) = (arg m c main_arg13) := by
  dsimp only [W5, W4, W3, W2, W1, hostOps0, hostOps0_1, hostOps0_2, hostOps0_3, hostOps0_4]
  k_eval <;> rfl

theorem at5_arg14 : W5 m ρ c (Proc.devRef .tc main_arg14) = (arg m c main_arg14) := by
  dsimp only [W5, W4, W3, W2, W1, hostOps0, hostOps0_1, hostOps0_2, hostOps0_3, hostOps0_4]
  k_eval <;> rfl

theorem at5_arg15 : W5 m ρ c (Proc.devRef .tc main_arg15) = (arg m c main_arg15) := by
  dsimp only [W5, W4, W3, W2, W1, hostOps0, hostOps0_1, hostOps0_2, hostOps0_3, hostOps0_4]
  k_eval <;> rfl

theorem at5_arg16 : W5 m ρ c (Proc.devRef .tc main_arg16) = (arg m c main_arg16) := by
  dsimp only [W5, W4, W3, W2, W1, hostOps0, hostOps0_1, hostOps0_2, hostOps0_3, hostOps0_4]
  k_eval <;> rfl

theorem at5_arg17 : W5 m ρ c (Proc.devRef .tc main_arg17) = (arg m c main_arg17) := by
  dsimp only [W5, W4, W3, W2, W1, hostOps0, hostOps0_1, hostOps0_2, hostOps0_3, hostOps0_4]
  k_eval <;> rfl

theorem at5_arg18 : W5 m ρ c (Proc.devRef .tc main_arg18) = (arg m c main_arg18) := by
  dsimp only [W5, W4, W3, W2, W1, hostOps0, hostOps0_1, hostOps0_2, hostOps0_3, hostOps0_4]
  k_eval <;> rfl

/-! ### After region 0 (contents W6) -/

theorem at6_v35 : W6 m ρ c (Proc.devRef .tc main_v35) = (Cert.ReferenceIdeal.ReadP.val_main_v35 (F := Ideal) (arg m c main_arg0) (arg m c main_arg5)) := by
  refine (W6_arr m ρ c 2).trans ((Regions.value0 (V5 m ρ) c).trans ?_)
  rw [show V5 m ρ c main_arg0 = _ from at5_arg0 m ρ c,
    show V5 m ρ c main_arg5 = _ from at5_arg5 m ρ c]
  exact (Cert.ReferenceIdeal.HostStages.stage_v35 (arg m c main_arg0) (arg m c main_arg5)).symm

theorem at6_v3 : W6 m ρ c (Proc.devRef .tc main_v3) = (Cert.ReferenceIdeal.ReadP.val_main_v3 (F := Ideal) (arg m c main_arg1)) :=
  (W6_of_ne m ρ c main_v3 (by decide)).trans (at5_v3 m ρ c)

theorem at6_v6 : W6 m ρ c (Proc.devRef .tc main_v6) = (Cert.ReferenceIdeal.ReadP.val_main_v6 (F := Ideal) (arg m c main_arg1)) :=
  (W6_of_ne m ρ c main_v6 (by decide)).trans (at5_v6 m ρ c)

theorem at6_v34 : W6 m ρ c (Proc.devRef .tc main_v34) = (Cert.ReferenceIdeal.ReadP.val_main_v34 (F := Ideal) (arg m c main_arg1) (arg m c main_arg2)) :=
  (W6_of_ne m ρ c main_v34 (by decide)).trans (at5_v34 m ρ c)

theorem at6_arg0 : W6 m ρ c (Proc.devRef .tc main_arg0) = (arg m c main_arg0) :=
  ((W6_arr m ρ c 0).trans (((dat0 (V5 m ρ) c).arrAt_in 0 rfl _).trans (A_eq0 (V5 m ρ) c 0))).trans (at5_arg0 m ρ c)

theorem at6_arg3 : W6 m ρ c (Proc.devRef .tc main_arg3) = (arg m c main_arg3) :=
  (W6_of_ne m ρ c main_arg3 (by decide)).trans (at5_arg3 m ρ c)

theorem at6_arg4 : W6 m ρ c (Proc.devRef .tc main_arg4) = (arg m c main_arg4) :=
  (W6_of_ne m ρ c main_arg4 (by decide)).trans (at5_arg4 m ρ c)

theorem at6_arg6 : W6 m ρ c (Proc.devRef .tc main_arg6) = (arg m c main_arg6) :=
  (W6_of_ne m ρ c main_arg6 (by decide)).trans (at5_arg6 m ρ c)

theorem at6_arg7 : W6 m ρ c (Proc.devRef .tc main_arg7) = (arg m c main_arg7) :=
  (W6_of_ne m ρ c main_arg7 (by decide)).trans (at5_arg7 m ρ c)

theorem at6_arg8 : W6 m ρ c (Proc.devRef .tc main_arg8) = (arg m c main_arg8) :=
  (W6_of_ne m ρ c main_arg8 (by decide)).trans (at5_arg8 m ρ c)

theorem at6_arg9 : W6 m ρ c (Proc.devRef .tc main_arg9) = (arg m c main_arg9) :=
  (W6_of_ne m ρ c main_arg9 (by decide)).trans (at5_arg9 m ρ c)

theorem at6_arg10 : W6 m ρ c (Proc.devRef .tc main_arg10) = (arg m c main_arg10) :=
  (W6_of_ne m ρ c main_arg10 (by decide)).trans (at5_arg10 m ρ c)

theorem at6_arg11 : W6 m ρ c (Proc.devRef .tc main_arg11) = (arg m c main_arg11) :=
  (W6_of_ne m ρ c main_arg11 (by decide)).trans (at5_arg11 m ρ c)

theorem at6_arg12 : W6 m ρ c (Proc.devRef .tc main_arg12) = (arg m c main_arg12) :=
  (W6_of_ne m ρ c main_arg12 (by decide)).trans (at5_arg12 m ρ c)

theorem at6_arg13 : W6 m ρ c (Proc.devRef .tc main_arg13) = (arg m c main_arg13) :=
  (W6_of_ne m ρ c main_arg13 (by decide)).trans (at5_arg13 m ρ c)

theorem at6_arg14 : W6 m ρ c (Proc.devRef .tc main_arg14) = (arg m c main_arg14) :=
  (W6_of_ne m ρ c main_arg14 (by decide)).trans (at5_arg14 m ρ c)

theorem at6_arg15 : W6 m ρ c (Proc.devRef .tc main_arg15) = (arg m c main_arg15) :=
  (W6_of_ne m ρ c main_arg15 (by decide)).trans (at5_arg15 m ρ c)

theorem at6_arg16 : W6 m ρ c (Proc.devRef .tc main_arg16) = (arg m c main_arg16) :=
  (W6_of_ne m ρ c main_arg16 (by decide)).trans (at5_arg16 m ρ c)

theorem at6_arg17 : W6 m ρ c (Proc.devRef .tc main_arg17) = (arg m c main_arg17) :=
  (W6_of_ne m ρ c main_arg17 (by decide)).trans (at5_arg17 m ρ c)

theorem at6_arg18 : W6 m ρ c (Proc.devRef .tc main_arg18) = (arg m c main_arg18) :=
  (W6_of_ne m ρ c main_arg18 (by decide)).trans (at5_arg18 m ρ c)

/-! ### After hostOps1 (contents W7) -/

theorem at7_v51 : W7 m ρ c (Proc.devRef .tc main_v51) = (Cert.ReferenceIdeal.ReadP.val_main_v51 (F := Ideal) (arg m c main_arg0) (arg m c main_arg1) (arg m c main_arg2) (arg m c main_arg5) (arg m c main_arg6)) := by
  dsimp only [W7, hostOps1]
  k_eval
  rw [at6_v34 m ρ c, at6_v3 m ρ c, at6_v35 m ρ c, at6_v6 m ρ c, at6_arg6 m ρ c]
  rfl

theorem at7_v52 : W7 m ρ c (Proc.devRef .tc main_v52) = (shapeCast (⟨2, ![1, 256]⟩ : Shape) (arg m c main_arg9) shapeCasts_S256_S1x256) := by
  dsimp only [W7, hostOps1]
  k_eval
  rw [at6_arg9 m ρ c]
  rfl

theorem at7_v53 : W7 m ρ c (Proc.devRef .tc main_v53) = (shapeCast (⟨2, ![1, 256]⟩ : Shape) (arg m c main_arg10) shapeCasts_S256_S1x256) := by
  dsimp only [W7, hostOps1]
  k_eval
  rw [at6_arg10 m ρ c]
  rfl

theorem at7_arg0 : W7 m ρ c (Proc.devRef .tc main_arg0) = (arg m c main_arg0) := by
  dsimp only [W7, hostOps1]
  k_eval
  exact at6_arg0 m ρ c

theorem at7_arg3 : W7 m ρ c (Proc.devRef .tc main_arg3) = (arg m c main_arg3) := by
  dsimp only [W7, hostOps1]
  k_eval
  exact at6_arg3 m ρ c

theorem at7_arg4 : W7 m ρ c (Proc.devRef .tc main_arg4) = (arg m c main_arg4) := by
  dsimp only [W7, hostOps1]
  k_eval
  exact at6_arg4 m ρ c

theorem at7_arg7 : W7 m ρ c (Proc.devRef .tc main_arg7) = (arg m c main_arg7) := by
  dsimp only [W7, hostOps1]
  k_eval
  exact at6_arg7 m ρ c

theorem at7_arg8 : W7 m ρ c (Proc.devRef .tc main_arg8) = (arg m c main_arg8) := by
  dsimp only [W7, hostOps1]
  k_eval
  exact at6_arg8 m ρ c

theorem at7_arg9 : W7 m ρ c (Proc.devRef .tc main_arg9) = (arg m c main_arg9) := by
  dsimp only [W7, hostOps1]
  k_eval
  exact at6_arg9 m ρ c

theorem at7_arg10 : W7 m ρ c (Proc.devRef .tc main_arg10) = (arg m c main_arg10) := by
  dsimp only [W7, hostOps1]
  k_eval
  exact at6_arg10 m ρ c

theorem at7_arg11 : W7 m ρ c (Proc.devRef .tc main_arg11) = (arg m c main_arg11) := by
  dsimp only [W7, hostOps1]
  k_eval
  exact at6_arg11 m ρ c

theorem at7_arg12 : W7 m ρ c (Proc.devRef .tc main_arg12) = (arg m c main_arg12) := by
  dsimp only [W7, hostOps1]
  k_eval
  exact at6_arg12 m ρ c

theorem at7_arg13 : W7 m ρ c (Proc.devRef .tc main_arg13) = (arg m c main_arg13) := by
  dsimp only [W7, hostOps1]
  k_eval
  exact at6_arg13 m ρ c

theorem at7_arg14 : W7 m ρ c (Proc.devRef .tc main_arg14) = (arg m c main_arg14) := by
  dsimp only [W7, hostOps1]
  k_eval
  exact at6_arg14 m ρ c

theorem at7_arg15 : W7 m ρ c (Proc.devRef .tc main_arg15) = (arg m c main_arg15) := by
  dsimp only [W7, hostOps1]
  k_eval
  exact at6_arg15 m ρ c

theorem at7_arg16 : W7 m ρ c (Proc.devRef .tc main_arg16) = (arg m c main_arg16) := by
  dsimp only [W7, hostOps1]
  k_eval
  exact at6_arg16 m ρ c

theorem at7_arg17 : W7 m ρ c (Proc.devRef .tc main_arg17) = (arg m c main_arg17) := by
  dsimp only [W7, hostOps1]
  k_eval
  exact at6_arg17 m ρ c

theorem at7_arg18 : W7 m ρ c (Proc.devRef .tc main_arg18) = (arg m c main_arg18) := by
  dsimp only [W7, hostOps1]
  k_eval
  exact at6_arg18 m ρ c

/-! ### After region 1 (contents W8) -/

theorem at8_v54 : W8 m ρ c (Proc.devRef .tc main_v54) = (Cert.ReferenceIdeal.ReadP.val_main_v77 (F := Ideal) (arg m c main_arg0) (arg m c main_arg1) (arg m c main_arg2) (arg m c main_arg5) (arg m c main_arg6) (arg m c main_arg9) (arg m c main_arg10)) := by
  refine (W8_arr m ρ c 4).trans ((Regions.value1 (V7 m ρ) c).trans ?_)
  rw [show V7 m ρ c main_v51 = _ from at7_v51 m ρ c,
    show V7 m ρ c main_arg0 = _ from at7_arg0 m ρ c,
    show V7 m ρ c main_v52 = _ from at7_v52 m ρ c,
    show V7 m ρ c main_v53 = _ from at7_v53 m ρ c]
  exact (Cert.ReferenceIdeal.HostStages.stage_v77 (arg m c main_arg0) (arg m c main_arg1) (arg m c main_arg2) (arg m c main_arg5) (arg m c main_arg6) (arg m c main_arg9) (arg m c main_arg10) shapeCasts_S256_S1x256).symm

theorem at8_arg0 : W8 m ρ c (Proc.devRef .tc main_arg0) = (arg m c main_arg0) :=
  ((W8_arr m ρ c 1).trans (((dat1 (V7 m ρ) c).arrAt_in 1 rfl _).trans (A_eq1 (V7 m ρ) c 1))).trans (at7_arg0 m ρ c)

theorem at8_arg3 : W8 m ρ c (Proc.devRef .tc main_arg3) = (arg m c main_arg3) :=
  (W8_of_ne m ρ c main_arg3 (by decide)).trans (at7_arg3 m ρ c)

theorem at8_arg4 : W8 m ρ c (Proc.devRef .tc main_arg4) = (arg m c main_arg4) :=
  (W8_of_ne m ρ c main_arg4 (by decide)).trans (at7_arg4 m ρ c)

theorem at8_arg7 : W8 m ρ c (Proc.devRef .tc main_arg7) = (arg m c main_arg7) :=
  (W8_of_ne m ρ c main_arg7 (by decide)).trans (at7_arg7 m ρ c)

theorem at8_arg8 : W8 m ρ c (Proc.devRef .tc main_arg8) = (arg m c main_arg8) :=
  (W8_of_ne m ρ c main_arg8 (by decide)).trans (at7_arg8 m ρ c)

theorem at8_arg9 : W8 m ρ c (Proc.devRef .tc main_arg9) = (arg m c main_arg9) :=
  (W8_of_ne m ρ c main_arg9 (by decide)).trans (at7_arg9 m ρ c)

theorem at8_arg10 : W8 m ρ c (Proc.devRef .tc main_arg10) = (arg m c main_arg10) :=
  (W8_of_ne m ρ c main_arg10 (by decide)).trans (at7_arg10 m ρ c)

theorem at8_arg11 : W8 m ρ c (Proc.devRef .tc main_arg11) = (arg m c main_arg11) :=
  (W8_of_ne m ρ c main_arg11 (by decide)).trans (at7_arg11 m ρ c)

theorem at8_arg12 : W8 m ρ c (Proc.devRef .tc main_arg12) = (arg m c main_arg12) :=
  (W8_of_ne m ρ c main_arg12 (by decide)).trans (at7_arg12 m ρ c)

theorem at8_arg13 : W8 m ρ c (Proc.devRef .tc main_arg13) = (arg m c main_arg13) :=
  (W8_of_ne m ρ c main_arg13 (by decide)).trans (at7_arg13 m ρ c)

theorem at8_arg14 : W8 m ρ c (Proc.devRef .tc main_arg14) = (arg m c main_arg14) :=
  (W8_of_ne m ρ c main_arg14 (by decide)).trans (at7_arg14 m ρ c)

theorem at8_arg15 : W8 m ρ c (Proc.devRef .tc main_arg15) = (arg m c main_arg15) :=
  (W8_of_ne m ρ c main_arg15 (by decide)).trans (at7_arg15 m ρ c)

theorem at8_arg16 : W8 m ρ c (Proc.devRef .tc main_arg16) = (arg m c main_arg16) :=
  (W8_of_ne m ρ c main_arg16 (by decide)).trans (at7_arg16 m ρ c)

theorem at8_arg17 : W8 m ρ c (Proc.devRef .tc main_arg17) = (arg m c main_arg17) :=
  (W8_of_ne m ρ c main_arg17 (by decide)).trans (at7_arg17 m ρ c)

theorem at8_arg18 : W8 m ρ c (Proc.devRef .tc main_arg18) = (arg m c main_arg18) :=
  (W8_of_ne m ρ c main_arg18 (by decide)).trans (at7_arg18 m ρ c)

/-! ### After hostOps2 (contents W9) -/

theorem at9_v55 : W9 m ρ c (Proc.devRef .tc main_v55) = (shapeCast (⟨2, ![1, 256]⟩ : Shape) (arg m c main_arg14) shapeCasts_S256_S1x256) := by
  dsimp only [W9, hostOps2]
  k_eval
  rw [at8_arg14 m ρ c]
  rfl

theorem at9_v56 : W9 m ρ c (Proc.devRef .tc main_v56) = (shapeCast (⟨2, ![1, 256]⟩ : Shape) (arg m c main_arg15) shapeCasts_S256_S1x256) := by
  dsimp only [W9, hostOps2]
  k_eval
  rw [at8_arg15 m ρ c]
  rfl

theorem at9_v57 : W9 m ρ c (Proc.devRef .tc main_v57) = (shapeCast (⟨2, ![1, 256]⟩ : Shape) (arg m c main_arg16) shapeCasts_S256_S1x256) := by
  dsimp only [W9, hostOps2]
  k_eval
  rw [at8_arg16 m ρ c]
  rfl

theorem at9_v58 : W9 m ρ c (Proc.devRef .tc main_v58) = (shapeCast (⟨2, ![1, 256]⟩ : Shape) (arg m c main_arg17) shapeCasts_S256x1_S1x256) := by
  dsimp only [W9, hostOps2]
  k_eval
  rw [at8_arg17 m ρ c]
  rfl

theorem at9_v59 : W9 m ρ c (Proc.devRef .tc main_v59) = (shapeCast (⟨2, ![1, 1]⟩ : Shape) (arg m c main_arg18) shapeCasts_S1_S1x1) := by
  dsimp only [W9, hostOps2]
  k_eval
  rw [at8_arg18 m ρ c]
  rfl

theorem at9_v54 : W9 m ρ c (Proc.devRef .tc main_v54) = (Cert.ReferenceIdeal.ReadP.val_main_v77 (F := Ideal) (arg m c main_arg0) (arg m c main_arg1) (arg m c main_arg2) (arg m c main_arg5) (arg m c main_arg6) (arg m c main_arg9) (arg m c main_arg10)) := by
  dsimp only [W9, hostOps2]
  k_eval
  exact at8_v54 m ρ c

theorem at9_arg0 : W9 m ρ c (Proc.devRef .tc main_arg0) = (arg m c main_arg0) := by
  dsimp only [W9, hostOps2]
  k_eval
  exact at8_arg0 m ρ c

theorem at9_arg3 : W9 m ρ c (Proc.devRef .tc main_arg3) = (arg m c main_arg3) := by
  dsimp only [W9, hostOps2]
  k_eval
  exact at8_arg3 m ρ c

theorem at9_arg4 : W9 m ρ c (Proc.devRef .tc main_arg4) = (arg m c main_arg4) := by
  dsimp only [W9, hostOps2]
  k_eval
  exact at8_arg4 m ρ c

theorem at9_arg7 : W9 m ρ c (Proc.devRef .tc main_arg7) = (arg m c main_arg7) := by
  dsimp only [W9, hostOps2]
  k_eval
  exact at8_arg7 m ρ c

theorem at9_arg8 : W9 m ρ c (Proc.devRef .tc main_arg8) = (arg m c main_arg8) := by
  dsimp only [W9, hostOps2]
  k_eval
  exact at8_arg8 m ρ c

theorem at9_arg9 : W9 m ρ c (Proc.devRef .tc main_arg9) = (arg m c main_arg9) := by
  dsimp only [W9, hostOps2]
  k_eval
  exact at8_arg9 m ρ c

theorem at9_arg10 : W9 m ρ c (Proc.devRef .tc main_arg10) = (arg m c main_arg10) := by
  dsimp only [W9, hostOps2]
  k_eval
  exact at8_arg10 m ρ c

theorem at9_arg11 : W9 m ρ c (Proc.devRef .tc main_arg11) = (arg m c main_arg11) := by
  dsimp only [W9, hostOps2]
  k_eval
  exact at8_arg11 m ρ c

theorem at9_arg12 : W9 m ρ c (Proc.devRef .tc main_arg12) = (arg m c main_arg12) := by
  dsimp only [W9, hostOps2]
  k_eval
  exact at8_arg12 m ρ c

theorem at9_arg13 : W9 m ρ c (Proc.devRef .tc main_arg13) = (arg m c main_arg13) := by
  dsimp only [W9, hostOps2]
  k_eval
  exact at8_arg13 m ρ c

/-! ### After region 2 (contents W10) -/

theorem at10_v60 : W10 m ρ c (Proc.devRef .tc main_v60) = (Cert.ReferenceIdeal.ReadP.val_main_v110 (F := Ideal) (arg m c main_arg4) (arg m c main_arg13) (arg m c main_arg14) (arg m c main_arg15) (arg m c main_arg16) (arg m c main_arg17) (arg m c main_arg18)) := by
  refine (W10_arr m ρ c 7).trans ((Regions.value2 (V9 m ρ) c).trans ?_)
  rw [show V9 m ρ c main_arg4 = _ from at9_arg4 m ρ c,
    show V9 m ρ c main_arg13 = _ from at9_arg13 m ρ c,
    show V9 m ρ c main_v55 = _ from at9_v55 m ρ c,
    show V9 m ρ c main_v56 = _ from at9_v56 m ρ c,
    show V9 m ρ c main_v57 = _ from at9_v57 m ρ c,
    show V9 m ρ c main_v58 = _ from at9_v58 m ρ c,
    show V9 m ρ c main_v59 = _ from at9_v59 m ρ c]
  exact (Cert.ReferenceIdeal.HostStages.stage_v110 (arg m c main_arg4) (arg m c main_arg13) (arg m c main_arg14) (arg m c main_arg15) (arg m c main_arg16) (arg m c main_arg17) (arg m c main_arg18) shapeCasts_S256_S1x256 shapeCasts_S256x1_S1x256 shapeCasts_S1_S1x1).symm

theorem at10_v54 : W10 m ρ c (Proc.devRef .tc main_v54) = (Cert.ReferenceIdeal.ReadP.val_main_v77 (F := Ideal) (arg m c main_arg0) (arg m c main_arg1) (arg m c main_arg2) (arg m c main_arg5) (arg m c main_arg6) (arg m c main_arg9) (arg m c main_arg10)) :=
  (W10_of_ne m ρ c main_v54 (by decide)).trans (at9_v54 m ρ c)

theorem at10_arg0 : W10 m ρ c (Proc.devRef .tc main_arg0) = (arg m c main_arg0) :=
  (W10_of_ne m ρ c main_arg0 (by decide)).trans (at9_arg0 m ρ c)

theorem at10_arg3 : W10 m ρ c (Proc.devRef .tc main_arg3) = (arg m c main_arg3) :=
  (W10_of_ne m ρ c main_arg3 (by decide)).trans (at9_arg3 m ρ c)

theorem at10_arg7 : W10 m ρ c (Proc.devRef .tc main_arg7) = (arg m c main_arg7) :=
  (W10_of_ne m ρ c main_arg7 (by decide)).trans (at9_arg7 m ρ c)

theorem at10_arg8 : W10 m ρ c (Proc.devRef .tc main_arg8) = (arg m c main_arg8) :=
  (W10_of_ne m ρ c main_arg8 (by decide)).trans (at9_arg8 m ρ c)

theorem at10_arg9 : W10 m ρ c (Proc.devRef .tc main_arg9) = (arg m c main_arg9) :=
  (W10_of_ne m ρ c main_arg9 (by decide)).trans (at9_arg9 m ρ c)

theorem at10_arg10 : W10 m ρ c (Proc.devRef .tc main_arg10) = (arg m c main_arg10) :=
  (W10_of_ne m ρ c main_arg10 (by decide)).trans (at9_arg10 m ρ c)

theorem at10_arg11 : W10 m ρ c (Proc.devRef .tc main_arg11) = (arg m c main_arg11) :=
  (W10_of_ne m ρ c main_arg11 (by decide)).trans (at9_arg11 m ρ c)

theorem at10_arg12 : W10 m ρ c (Proc.devRef .tc main_arg12) = (arg m c main_arg12) :=
  (W10_of_ne m ρ c main_arg12 (by decide)).trans (at9_arg12 m ρ c)

/-! ### After hostOps3, hostOps3_1, hostOps3_2, hostOps3_3, hostOps3_4 (contents W15) -/

theorem at15_v65 : W15 m ρ c (Proc.devRef .tc main_v65) = (Cert.ReferenceIdeal.ReadP.val_main_v115 (F := Ideal) (arg m c main_arg3)) := by
  dsimp only [W15, W14, W13, W12, W11, hostOps3, hostOps3_1, hostOps3_2, hostOps3_3, hostOps3_4]
  k_eval
  rw [at10_arg3 m ρ c]
  rfl

theorem at15_v68 : W15 m ρ c (Proc.devRef .tc main_v68) = (Cert.ReferenceIdeal.ReadP.val_main_v118 (F := Ideal) (arg m c main_arg3)) := by
  dsimp only [W15, W14, W13, W12, W11, hostOps3, hostOps3_1, hostOps3_2, hostOps3_3, hostOps3_4]
  k_eval
  rw [at10_arg3 m ρ c]
  rfl

theorem at15_v96 : W15 m ρ c (Proc.devRef .tc main_v96) = (Cert.ReferenceIdeal.ReadP.val_main_v146 (F := Ideal) (arg m c main_arg3) (arg m c main_arg4) (arg m c main_arg13) (arg m c main_arg14) (arg m c main_arg15) (arg m c main_arg16) (arg m c main_arg17) (arg m c main_arg18)) := by
  dsimp only [W15, W14, W13, W12, W11, hostOps3, hostOps3_1, hostOps3_2, hostOps3_3, hostOps3_4]
  k_eval
  rw [at10_v60 m ρ c, at10_arg3 m ρ c]
  rfl

theorem at15_v54 : W15 m ρ c (Proc.devRef .tc main_v54) = (Cert.ReferenceIdeal.ReadP.val_main_v77 (F := Ideal) (arg m c main_arg0) (arg m c main_arg1) (arg m c main_arg2) (arg m c main_arg5) (arg m c main_arg6) (arg m c main_arg9) (arg m c main_arg10)) := by
  dsimp only [W15, W14, W13, W12, W11, hostOps3, hostOps3_1, hostOps3_2, hostOps3_3, hostOps3_4]
  k_eval
  exact at10_v54 m ρ c

theorem at15_arg0 : W15 m ρ c (Proc.devRef .tc main_arg0) = (arg m c main_arg0) := by
  dsimp only [W15, W14, W13, W12, W11, hostOps3, hostOps3_1, hostOps3_2, hostOps3_3, hostOps3_4]
  k_eval
  exact at10_arg0 m ρ c

theorem at15_arg7 : W15 m ρ c (Proc.devRef .tc main_arg7) = (arg m c main_arg7) := by
  dsimp only [W15, W14, W13, W12, W11, hostOps3, hostOps3_1, hostOps3_2, hostOps3_3, hostOps3_4]
  k_eval
  exact at10_arg7 m ρ c

theorem at15_arg8 : W15 m ρ c (Proc.devRef .tc main_arg8) = (arg m c main_arg8) := by
  dsimp only [W15, W14, W13, W12, W11, hostOps3, hostOps3_1, hostOps3_2, hostOps3_3, hostOps3_4]
  k_eval
  exact at10_arg8 m ρ c

theorem at15_arg9 : W15 m ρ c (Proc.devRef .tc main_arg9) = (arg m c main_arg9) := by
  dsimp only [W15, W14, W13, W12, W11, hostOps3, hostOps3_1, hostOps3_2, hostOps3_3, hostOps3_4]
  k_eval
  exact at10_arg9 m ρ c

theorem at15_arg10 : W15 m ρ c (Proc.devRef .tc main_arg10) = (arg m c main_arg10) := by
  dsimp only [W15, W14, W13, W12, W11, hostOps3, hostOps3_1, hostOps3_2, hostOps3_3, hostOps3_4]
  k_eval
  exact at10_arg10 m ρ c

theorem at15_arg11 : W15 m ρ c (Proc.devRef .tc main_arg11) = (arg m c main_arg11) := by
  dsimp only [W15, W14, W13, W12, W11, hostOps3, hostOps3_1, hostOps3_2, hostOps3_3, hostOps3_4]
  k_eval
  exact at10_arg11 m ρ c

theorem at15_arg12 : W15 m ρ c (Proc.devRef .tc main_arg12) = (arg m c main_arg12) := by
  dsimp only [W15, W14, W13, W12, W11, hostOps3, hostOps3_1, hostOps3_2, hostOps3_3, hostOps3_4]
  k_eval
  exact at10_arg12 m ρ c

/-! ### After region 3 (contents W16) -/

theorem at16_v97 : W16 m ρ c (Proc.devRef .tc main_v97) = (Cert.ReferenceIdeal.ReadP.val_main_v147 (F := Ideal) (arg m c main_arg0) (arg m c main_arg1) (arg m c main_arg2) (arg m c main_arg5) (arg m c main_arg6) (arg m c main_arg7) (arg m c main_arg9) (arg m c main_arg10)) := by
  refine (W16_arr m ρ c 2).trans ((Regions.value3 (V15 m ρ) c).trans ?_)
  rw [show V15 m ρ c main_v54 = _ from at15_v54 m ρ c,
    show V15 m ρ c main_arg7 = _ from at15_arg7 m ρ c]
  exact (Cert.ReferenceIdeal.HostStages.stage_v147 (arg m c main_arg0) (arg m c main_arg1) (arg m c main_arg2) (arg m c main_arg5) (arg m c main_arg6) (arg m c main_arg7) (arg m c main_arg9) (arg m c main_arg10)).symm

theorem at16_v54 : W16 m ρ c (Proc.devRef .tc main_v54) = (Cert.ReferenceIdeal.ReadP.val_main_v77 (F := Ideal) (arg m c main_arg0) (arg m c main_arg1) (arg m c main_arg2) (arg m c main_arg5) (arg m c main_arg6) (arg m c main_arg9) (arg m c main_arg10)) :=
  ((W16_arr m ρ c 0).trans (((dat3 (V15 m ρ) c).arrAt_in 0 rfl _).trans (A_eq3 (V15 m ρ) c 0))).trans (at15_v54 m ρ c)

theorem at16_v65 : W16 m ρ c (Proc.devRef .tc main_v65) = (Cert.ReferenceIdeal.ReadP.val_main_v115 (F := Ideal) (arg m c main_arg3)) :=
  (W16_of_ne m ρ c main_v65 (by decide)).trans (at15_v65 m ρ c)

theorem at16_v68 : W16 m ρ c (Proc.devRef .tc main_v68) = (Cert.ReferenceIdeal.ReadP.val_main_v118 (F := Ideal) (arg m c main_arg3)) :=
  (W16_of_ne m ρ c main_v68 (by decide)).trans (at15_v68 m ρ c)

theorem at16_v96 : W16 m ρ c (Proc.devRef .tc main_v96) = (Cert.ReferenceIdeal.ReadP.val_main_v146 (F := Ideal) (arg m c main_arg3) (arg m c main_arg4) (arg m c main_arg13) (arg m c main_arg14) (arg m c main_arg15) (arg m c main_arg16) (arg m c main_arg17) (arg m c main_arg18)) :=
  (W16_of_ne m ρ c main_v96 (by decide)).trans (at15_v96 m ρ c)

theorem at16_arg0 : W16 m ρ c (Proc.devRef .tc main_arg0) = (arg m c main_arg0) :=
  (W16_of_ne m ρ c main_arg0 (by decide)).trans (at15_arg0 m ρ c)

theorem at16_arg8 : W16 m ρ c (Proc.devRef .tc main_arg8) = (arg m c main_arg8) :=
  (W16_of_ne m ρ c main_arg8 (by decide)).trans (at15_arg8 m ρ c)

theorem at16_arg9 : W16 m ρ c (Proc.devRef .tc main_arg9) = (arg m c main_arg9) :=
  (W16_of_ne m ρ c main_arg9 (by decide)).trans (at15_arg9 m ρ c)

theorem at16_arg10 : W16 m ρ c (Proc.devRef .tc main_arg10) = (arg m c main_arg10) :=
  (W16_of_ne m ρ c main_arg10 (by decide)).trans (at15_arg10 m ρ c)

theorem at16_arg11 : W16 m ρ c (Proc.devRef .tc main_arg11) = (arg m c main_arg11) :=
  (W16_of_ne m ρ c main_arg11 (by decide)).trans (at15_arg11 m ρ c)

theorem at16_arg12 : W16 m ρ c (Proc.devRef .tc main_arg12) = (arg m c main_arg12) :=
  (W16_of_ne m ρ c main_arg12 (by decide)).trans (at15_arg12 m ρ c)

/-! ### After hostOps4 (contents W17) -/

theorem at17_v113 : W17 m ρ c (Proc.devRef .tc main_v113) = (Cert.ReferenceIdeal.ReadP.val_main_v163 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg15) (arg m c main_arg16) (arg m c main_arg17) (arg m c main_arg18)) := by
  dsimp only [W17, hostOps4]
  k_eval
  rw [at16_v96 m ρ c, at16_v65 m ρ c, at16_v97 m ρ c, at16_v68 m ρ c, at16_arg8 m ρ c]
  rfl

theorem at17_v114 : W17 m ρ c (Proc.devRef .tc main_v114) = (shapeCast (⟨2, ![1, 256]⟩ : Shape) (arg m c main_arg11) shapeCasts_S256_S1x256) := by
  dsimp only [W17, hostOps4]
  k_eval
  rw [at16_arg11 m ρ c]
  rfl

theorem at17_v115 : W17 m ρ c (Proc.devRef .tc main_v115) = (shapeCast (⟨2, ![1, 256]⟩ : Shape) (arg m c main_arg12) shapeCasts_S256_S1x256) := by
  dsimp only [W17, hostOps4]
  k_eval
  rw [at16_arg12 m ρ c]
  rfl

theorem at17_v54 : W17 m ρ c (Proc.devRef .tc main_v54) = (Cert.ReferenceIdeal.ReadP.val_main_v77 (F := Ideal) (arg m c main_arg0) (arg m c main_arg1) (arg m c main_arg2) (arg m c main_arg5) (arg m c main_arg6) (arg m c main_arg9) (arg m c main_arg10)) := by
  dsimp only [W17, hostOps4]
  k_eval
  exact at16_v54 m ρ c

theorem at17_arg0 : W17 m ρ c (Proc.devRef .tc main_arg0) = (arg m c main_arg0) := by
  dsimp only [W17, hostOps4]
  k_eval
  exact at16_arg0 m ρ c

theorem at17_arg9 : W17 m ρ c (Proc.devRef .tc main_arg9) = (arg m c main_arg9) := by
  dsimp only [W17, hostOps4]
  k_eval
  exact at16_arg9 m ρ c

theorem at17_arg10 : W17 m ρ c (Proc.devRef .tc main_arg10) = (arg m c main_arg10) := by
  dsimp only [W17, hostOps4]
  k_eval
  exact at16_arg10 m ρ c

/-! ### After region 4 (contents W18) -/

theorem at18_v116 : W18 m ρ c (Proc.devRef .tc main_v116) = (Cert.ReferenceIdeal.ReadP.val_main_v189 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18)) := by
  refine (W18_arr m ρ c 4).trans ((Regions.value4 (V17 m ρ) c).trans ?_)
  rw [show V17 m ρ c main_v113 = _ from at17_v113 m ρ c,
    show V17 m ρ c main_v54 = _ from at17_v54 m ρ c,
    show V17 m ρ c main_v114 = _ from at17_v114 m ρ c,
    show V17 m ρ c main_v115 = _ from at17_v115 m ρ c]
  exact (Cert.ReferenceIdeal.HostStages.stage_v189 (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) shapeCasts_S256_S1x256).symm

theorem at18_arg0 : W18 m ρ c (Proc.devRef .tc main_arg0) = (arg m c main_arg0) :=
  (W18_of_ne m ρ c main_arg0 (by decide)).trans (at17_arg0 m ρ c)

theorem at18_arg9 : W18 m ρ c (Proc.devRef .tc main_arg9) = (arg m c main_arg9) :=
  (W18_of_ne m ρ c main_arg9 (by decide)).trans (at17_arg9 m ρ c)

theorem at18_arg10 : W18 m ρ c (Proc.devRef .tc main_arg10) = (arg m c main_arg10) :=
  (W18_of_ne m ρ c main_arg10 (by decide)).trans (at17_arg10 m ρ c)

/-! ### After hostOps5 (contents W19) -/

theorem at19_v117 : W19 m ρ c (Proc.devRef .tc main_v117) = (shapeCast (⟨2, ![1, 256]⟩ : Shape) (arg m c main_arg9) shapeCasts_S256_S1x256) := by
  dsimp only [W19, hostOps5]
  k_eval
  rw [at18_arg9 m ρ c]
  rfl

theorem at19_v118 : W19 m ρ c (Proc.devRef .tc main_v118) = (shapeCast (⟨2, ![1, 256]⟩ : Shape) (arg m c main_arg10) shapeCasts_S256_S1x256) := by
  dsimp only [W19, hostOps5]
  k_eval
  rw [at18_arg10 m ρ c]
  rfl

theorem at19_v116 : W19 m ρ c (Proc.devRef .tc main_v116) = (Cert.ReferenceIdeal.ReadP.val_main_v189 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18)) := by
  dsimp only [W19, hostOps5]
  k_eval
  exact at18_v116 m ρ c

theorem at19_arg0 : W19 m ρ c (Proc.devRef .tc main_arg0) = (arg m c main_arg0) := by
  dsimp only [W19, hostOps5]
  k_eval
  exact at18_arg0 m ρ c

/-! ### After region 5 (contents W20) -/

theorem at20_v119 : W20 m ρ c (Proc.devRef .tc main_v119) = (Cert.ReferenceIdeal.ReadP.val_main_v214 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18)) := by
  refine (W20_arr m ρ c 4).trans ((Regions.value5 (V19 m ρ) c).trans ?_)
  rw [show V19 m ρ c main_v116 = _ from at19_v116 m ρ c,
    show V19 m ρ c main_arg0 = _ from at19_arg0 m ρ c,
    show V19 m ρ c main_v117 = _ from at19_v117 m ρ c,
    show V19 m ρ c main_v118 = _ from at19_v118 m ρ c]
  exact (Cert.ReferenceIdeal.HostStages.stage_v214 (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) shapeCasts_S256_S1x256).symm

end Cert.KernelIdeal.Walk

end
-- ==== Proof.REval.lean ====
/-
  The host operations of the reference's outlined functions are stated over typed buffer references.
  Here: moving contents through such a reference is the identity at each of the program's literal buffers, and the
  evaluation of a list of the reference's operations at a buffer.
-/
import proofs.«145289_j35897336660385_1_alg».proof.Proof.Gen.ReferenceIdeal
import Idealize.ShloMosaic.Lib.StableHlo.Run
import Idealize.ShloMosaic.PureOps.Ideal
import proofs.«145289_j35897336660385_1_alg».proof.Proof.LibTypedRefs
import proofs.«145289_j35897336660385_1_alg».proof.Proof.LibConcatFold

set_option maxRecDepth 65536

noncomputable section

namespace Cert.ReferenceIdeal.REval

open Cert.ReferenceIdeal Cert.ReferenceIdeal.Gen
open Idealize.ShloMosaic Idealize.ShloMosaic.TcCoe Idealize.ShloMosaic.StableHlo

/-! Contents moved through a typed reference of a literal buffer are the contents: the transport is along an
    equation between the buffer's type and itself. -/

theorem toBuf_cst_3 (h1 h2 h3) (v : (⟨S_, .f32⟩ : BufTy).Contents (Elt Ideal)) :
    (TRef.of (sig := sig) (T := ⟨S_, .f32⟩) main_cst_3 h1 h2 h3).toBuf v = v := rfl
theorem ofBuf_cst_3 (h1 h2 h3) (v : (⟨S_, .f32⟩ : BufTy).Contents (Elt Ideal)) :
    (TRef.of (sig := sig) (T := ⟨S_, .f32⟩) main_cst_3 h1 h2 h3).ofBuf v = v := rfl
theorem toBuf_call0_v0 (h1 h2 h3) (v : (⟨S_, .f32⟩ : BufTy).Contents (Elt Ideal)) :
    (TRef.of (sig := sig) (T := ⟨S_, .f32⟩) main_call0_v0 h1 h2 h3).toBuf v = v := rfl
theorem ofBuf_call0_v0 (h1 h2 h3) (v : (⟨S_, .f32⟩ : BufTy).Contents (Elt Ideal)) :
    (TRef.of (sig := sig) (T := ⟨S_, .f32⟩) main_call0_v0 h1 h2 h3).ofBuf v = v := rfl
theorem toBuf_call0_v1 (h1 h2 h3) (v : (⟨S16384, .f32⟩ : BufTy).Contents (Elt Ideal)) :
    (TRef.of (sig := sig) (T := ⟨S16384, .f32⟩) main_call0_v1 h1 h2 h3).toBuf v = v := rfl
theorem ofBuf_call0_v1 (h1 h2 h3) (v : (⟨S16384, .f32⟩ : BufTy).Contents (Elt Ideal)) :
    (TRef.of (sig := sig) (T := ⟨S16384, .f32⟩) main_call0_v1 h1 h2 h3).ofBuf v = v := rfl
theorem toBuf_v15 (h1 h2 h3) (v : (⟨S16384, .i1⟩ : BufTy).Contents (Elt Ideal)) :
    (TRef.of (sig := sig) (T := ⟨S16384, .i1⟩) main_v15 h1 h2 h3).toBuf v = v := rfl
theorem ofBuf_v15 (h1 h2 h3) (v : (⟨S16384, .i1⟩ : BufTy).Contents (Elt Ideal)) :
    (TRef.of (sig := sig) (T := ⟨S16384, .i1⟩) main_v15 h1 h2 h3).ofBuf v = v := rfl
theorem toBuf_v11 (h1 h2 h3) (v : (⟨S16384, .f32⟩ : BufTy).Contents (Elt Ideal)) :
    (TRef.of (sig := sig) (T := ⟨S16384, .f32⟩) main_v11 h1 h2 h3).toBuf v = v := rfl
theorem ofBuf_v11 (h1 h2 h3) (v : (⟨S16384, .f32⟩ : BufTy).Contents (Elt Ideal)) :
    (TRef.of (sig := sig) (T := ⟨S16384, .f32⟩) main_v11 h1 h2 h3).ofBuf v = v := rfl
theorem toBuf_v16 (h1 h2 h3) (v : (⟨S16384, .f32⟩ : BufTy).Contents (Elt Ideal)) :
    (TRef.of (sig := sig) (T := ⟨S16384, .f32⟩) main_v16 h1 h2 h3).toBuf v = v := rfl
theorem ofBuf_v16 (h1 h2 h3) (v : (⟨S16384, .f32⟩ : BufTy).Contents (Elt Ideal)) :
    (TRef.of (sig := sig) (T := ⟨S16384, .f32⟩) main_v16 h1 h2 h3).ofBuf v = v := rfl
theorem toBuf_cst_4 (h1 h2 h3) (v : (⟨S_, .f32⟩ : BufTy).Contents (Elt Ideal)) :
    (TRef.of (sig := sig) (T := ⟨S_, .f32⟩) main_cst_4 h1 h2 h3).toBuf v = v := rfl
theorem ofBuf_cst_4 (h1 h2 h3) (v : (⟨S_, .f32⟩ : BufTy).Contents (Elt Ideal)) :
    (TRef.of (sig := sig) (T := ⟨S_, .f32⟩) main_cst_4 h1 h2 h3).ofBuf v = v := rfl
theorem toBuf_call1_v0 (h1 h2 h3) (v : (⟨S_, .f32⟩ : BufTy).Contents (Elt Ideal)) :
    (TRef.of (sig := sig) (T := ⟨S_, .f32⟩) main_call1_v0 h1 h2 h3).toBuf v = v := rfl
theorem ofBuf_call1_v0 (h1 h2 h3) (v : (⟨S_, .f32⟩ : BufTy).Contents (Elt Ideal)) :
    (TRef.of (sig := sig) (T := ⟨S_, .f32⟩) main_call1_v0 h1 h2 h3).ofBuf v = v := rfl
theorem toBuf_call1_v1 (h1 h2 h3) (v : (⟨S16384, .f32⟩ : BufTy).Contents (Elt Ideal)) :
    (TRef.of (sig := sig) (T := ⟨S16384, .f32⟩) main_call1_v1 h1 h2 h3).toBuf v = v := rfl
theorem ofBuf_call1_v1 (h1 h2 h3) (v : (⟨S16384, .f32⟩ : BufTy).Contents (Elt Ideal)) :
    (TRef.of (sig := sig) (T := ⟨S16384, .f32⟩) main_call1_v1 h1 h2 h3).ofBuf v = v := rfl
theorem toBuf_v13 (h1 h2 h3) (v : (⟨S16384, .i1⟩ : BufTy).Contents (Elt Ideal)) :
    (TRef.of (sig := sig) (T := ⟨S16384, .i1⟩) main_v13 h1 h2 h3).toBuf v = v := rfl
theorem ofBuf_v13 (h1 h2 h3) (v : (⟨S16384, .i1⟩ : BufTy).Contents (Elt Ideal)) :
    (TRef.of (sig := sig) (T := ⟨S16384, .i1⟩) main_v13 h1 h2 h3).ofBuf v = v := rfl
theorem toBuf_v17 (h1 h2 h3) (v : (⟨S16384, .f32⟩ : BufTy).Contents (Elt Ideal)) :
    (TRef.of (sig := sig) (T := ⟨S16384, .f32⟩) main_v17 h1 h2 h3).toBuf v = v := rfl
theorem ofBuf_v17 (h1 h2 h3) (v : (⟨S16384, .f32⟩ : BufTy).Contents (Elt Ideal)) :
    (TRef.of (sig := sig) (T := ⟨S16384, .f32⟩) main_v17 h1 h2 h3).ofBuf v = v := rfl
theorem toBuf_v18 (h1 h2 h3) (v : (⟨S16384, .f32⟩ : BufTy).Contents (Elt Ideal)) :
    (TRef.of (sig := sig) (T := ⟨S16384, .f32⟩) main_v18 h1 h2 h3).toBuf v = v := rfl
theorem ofBuf_v18 (h1 h2 h3) (v : (⟨S16384, .f32⟩ : BufTy).Contents (Elt Ideal)) :
    (TRef.of (sig := sig) (T := ⟨S16384, .f32⟩) main_v18 h1 h2 h3).ofBuf v = v := rfl
theorem toBuf_call2_cst (h1 h2 h3) (v : (⟨S_, .f32⟩ : BufTy).Contents (Elt Ideal)) :
    (TRef.of (sig := sig) (T := ⟨S_, .f32⟩) main_call2_cst h1 h2 h3).toBuf v = v := rfl
theorem ofBuf_call2_cst (h1 h2 h3) (v : (⟨S_, .f32⟩ : BufTy).Contents (Elt Ideal)) :
    (TRef.of (sig := sig) (T := ⟨S_, .f32⟩) main_call2_cst h1 h2 h3).ofBuf v = v := rfl
theorem toBuf_call2_v0 (h1 h2 h3) (v : (⟨S16384x256, .f32⟩ : BufTy).Contents (Elt Ideal)) :
    (TRef.of (sig := sig) (T := ⟨S16384x256, .f32⟩) main_call2_v0 h1 h2 h3).toBuf v = v := rfl
theorem ofBuf_call2_v0 (h1 h2 h3) (v : (⟨S16384x256, .f32⟩ : BufTy).Contents (Elt Ideal)) :
    (TRef.of (sig := sig) (T := ⟨S16384x256, .f32⟩) main_call2_v0 h1 h2 h3).ofBuf v = v := rfl
theorem toBuf_v76 (h1 h2 h3) (v : (⟨S16384x256, .f32⟩ : BufTy).Contents (Elt Ideal)) :
    (TRef.of (sig := sig) (T := ⟨S16384x256, .f32⟩) main_v76 h1 h2 h3).toBuf v = v := rfl
theorem ofBuf_v76 (h1 h2 h3) (v : (⟨S16384x256, .f32⟩ : BufTy).Contents (Elt Ideal)) :
    (TRef.of (sig := sig) (T := ⟨S16384x256, .f32⟩) main_v76 h1 h2 h3).ofBuf v = v := rfl
theorem toBuf_v77 (h1 h2 h3) (v : (⟨S16384x256, .f32⟩ : BufTy).Contents (Elt Ideal)) :
    (TRef.of (sig := sig) (T := ⟨S16384x256, .f32⟩) main_v77 h1 h2 h3).toBuf v = v := rfl
theorem ofBuf_v77 (h1 h2 h3) (v : (⟨S16384x256, .f32⟩ : BufTy).Contents (Elt Ideal)) :
    (TRef.of (sig := sig) (T := ⟨S16384x256, .f32⟩) main_v77 h1 h2 h3).ofBuf v = v := rfl
theorem toBuf_call3_cst (h1 h2 h3) (v : (⟨S_, .f32⟩ : BufTy).Contents (Elt Ideal)) :
    (TRef.of (sig := sig) (T := ⟨S_, .f32⟩) main_call3_cst h1 h2 h3).toBuf v = v := rfl
theorem ofBuf_call3_cst (h1 h2 h3) (v : (⟨S_, .f32⟩ : BufTy).Contents (Elt Ideal)) :
    (TRef.of (sig := sig) (T := ⟨S_, .f32⟩) main_call3_cst h1 h2 h3).ofBuf v = v := rfl
theorem toBuf_call3_v0 (h1 h2 h3) (v : (⟨S262144x256, .f32⟩ : BufTy).Contents (Elt Ideal)) :
    (TRef.of (sig := sig) (T := ⟨S262144x256, .f32⟩) main_call3_v0 h1 h2 h3).toBuf v = v := rfl
theorem ofBuf_call3_v0 (h1 h2 h3) (v : (⟨S262144x256, .f32⟩ : BufTy).Contents (Elt Ideal)) :
    (TRef.of (sig := sig) (T := ⟨S262144x256, .f32⟩) main_call3_v0 h1 h2 h3).ofBuf v = v := rfl
theorem toBuf_v105 (h1 h2 h3) (v : (⟨S262144x256, .f32⟩ : BufTy).Contents (Elt Ideal)) :
    (TRef.of (sig := sig) (T := ⟨S262144x256, .f32⟩) main_v105 h1 h2 h3).toBuf v = v := rfl
theorem ofBuf_v105 (h1 h2 h3) (v : (⟨S262144x256, .f32⟩ : BufTy).Contents (Elt Ideal)) :
    (TRef.of (sig := sig) (T := ⟨S262144x256, .f32⟩) main_v105 h1 h2 h3).ofBuf v = v := rfl
theorem toBuf_v106 (h1 h2 h3) (v : (⟨S262144x256, .f32⟩ : BufTy).Contents (Elt Ideal)) :
    (TRef.of (sig := sig) (T := ⟨S262144x256, .f32⟩) main_v106 h1 h2 h3).toBuf v = v := rfl
theorem ofBuf_v106 (h1 h2 h3) (v : (⟨S262144x256, .f32⟩ : BufTy).Contents (Elt Ideal)) :
    (TRef.of (sig := sig) (T := ⟨S262144x256, .f32⟩) main_v106 h1 h2 h3).ofBuf v = v := rfl
theorem toBuf_cst_25 (h1 h2 h3) (v : (⟨S_, .f32⟩ : BufTy).Contents (Elt Ideal)) :
    (TRef.of (sig := sig) (T := ⟨S_, .f32⟩) main_cst_25 h1 h2 h3).toBuf v = v := rfl
theorem ofBuf_cst_25 (h1 h2 h3) (v : (⟨S_, .f32⟩ : BufTy).Contents (Elt Ideal)) :
    (TRef.of (sig := sig) (T := ⟨S_, .f32⟩) main_cst_25 h1 h2 h3).ofBuf v = v := rfl
theorem toBuf_call4_v0 (h1 h2 h3) (v : (⟨S_, .f32⟩ : BufTy).Contents (Elt Ideal)) :
    (TRef.of (sig := sig) (T := ⟨S_, .f32⟩) main_call4_v0 h1 h2 h3).toBuf v = v := rfl
theorem ofBuf_call4_v0 (h1 h2 h3) (v : (⟨S_, .f32⟩ : BufTy).Contents (Elt Ideal)) :
    (TRef.of (sig := sig) (T := ⟨S_, .f32⟩) main_call4_v0 h1 h2 h3).ofBuf v = v := rfl
theorem toBuf_call4_v1 (h1 h2 h3) (v : (⟨S16384, .f32⟩ : BufTy).Contents (Elt Ideal)) :
    (TRef.of (sig := sig) (T := ⟨S16384, .f32⟩) main_call4_v1 h1 h2 h3).toBuf v = v := rfl
theorem ofBuf_call4_v1 (h1 h2 h3) (v : (⟨S16384, .f32⟩ : BufTy).Contents (Elt Ideal)) :
    (TRef.of (sig := sig) (T := ⟨S16384, .f32⟩) main_call4_v1 h1 h2 h3).ofBuf v = v := rfl
theorem toBuf_v127 (h1 h2 h3) (v : (⟨S16384, .i1⟩ : BufTy).Contents (Elt Ideal)) :
    (TRef.of (sig := sig) (T := ⟨S16384, .i1⟩) main_v127 h1 h2 h3).toBuf v = v := rfl
theorem ofBuf_v127 (h1 h2 h3) (v : (⟨S16384, .i1⟩ : BufTy).Contents (Elt Ideal)) :
    (TRef.of (sig := sig) (T := ⟨S16384, .i1⟩) main_v127 h1 h2 h3).ofBuf v = v := rfl
theorem toBuf_v123 (h1 h2 h3) (v : (⟨S16384, .f32⟩ : BufTy).Contents (Elt Ideal)) :
    (TRef.of (sig := sig) (T := ⟨S16384, .f32⟩) main_v123 h1 h2 h3).toBuf v = v := rfl
theorem ofBuf_v123 (h1 h2 h3) (v : (⟨S16384, .f32⟩ : BufTy).Contents (Elt Ideal)) :
    (TRef.of (sig := sig) (T := ⟨S16384, .f32⟩) main_v123 h1 h2 h3).ofBuf v = v := rfl
theorem toBuf_v128 (h1 h2 h3) (v : (⟨S16384, .f32⟩ : BufTy).Contents (Elt Ideal)) :
    (TRef.of (sig := sig) (T := ⟨S16384, .f32⟩) main_v128 h1 h2 h3).toBuf v = v := rfl
theorem ofBuf_v128 (h1 h2 h3) (v : (⟨S16384, .f32⟩ : BufTy).Contents (Elt Ideal)) :
    (TRef.of (sig := sig) (T := ⟨S16384, .f32⟩) main_v128 h1 h2 h3).ofBuf v = v := rfl
theorem toBuf_cst_26 (h1 h2 h3) (v : (⟨S_, .f32⟩ : BufTy).Contents (Elt Ideal)) :
    (TRef.of (sig := sig) (T := ⟨S_, .f32⟩) main_cst_26 h1 h2 h3).toBuf v = v := rfl
theorem ofBuf_cst_26 (h1 h2 h3) (v : (⟨S_, .f32⟩ : BufTy).Contents (Elt Ideal)) :
    (TRef.of (sig := sig) (T := ⟨S_, .f32⟩) main_cst_26 h1 h2 h3).ofBuf v = v := rfl
theorem toBuf_call5_v0 (h1 h2 h3) (v : (⟨S_, .f32⟩ : BufTy).Contents (Elt Ideal)) :
    (TRef.of (sig := sig) (T := ⟨S_, .f32⟩) main_call5_v0 h1 h2 h3).toBuf v = v := rfl
theorem ofBuf_call5_v0 (h1 h2 h3) (v : (⟨S_, .f32⟩ : BufTy).Contents (Elt Ideal)) :
    (TRef.of (sig := sig) (T := ⟨S_, .f32⟩) main_call5_v0 h1 h2 h3).ofBuf v = v := rfl
theorem toBuf_call5_v1 (h1 h2 h3) (v : (⟨S16384, .f32⟩ : BufTy).Contents (Elt Ideal)) :
    (TRef.of (sig := sig) (T := ⟨S16384, .f32⟩) main_call5_v1 h1 h2 h3).toBuf v = v := rfl
theorem ofBuf_call5_v1 (h1 h2 h3) (v : (⟨S16384, .f32⟩ : BufTy).Contents (Elt Ideal)) :
    (TRef.of (sig := sig) (T := ⟨S16384, .f32⟩) main_call5_v1 h1 h2 h3).ofBuf v = v := rfl
theorem toBuf_v125 (h1 h2 h3) (v : (⟨S16384, .i1⟩ : BufTy).Contents (Elt Ideal)) :
    (TRef.of (sig := sig) (T := ⟨S16384, .i1⟩) main_v125 h1 h2 h3).toBuf v = v := rfl
theorem ofBuf_v125 (h1 h2 h3) (v : (⟨S16384, .i1⟩ : BufTy).Contents (Elt Ideal)) :
    (TRef.of (sig := sig) (T := ⟨S16384, .i1⟩) main_v125 h1 h2 h3).ofBuf v = v := rfl
theorem toBuf_v129 (h1 h2 h3) (v : (⟨S16384, .f32⟩ : BufTy).Contents (Elt Ideal)) :
    (TRef.of (sig := sig) (T := ⟨S16384, .f32⟩) main_v129 h1 h2 h3).toBuf v = v := rfl
theorem ofBuf_v129 (h1 h2 h3) (v : (⟨S16384, .f32⟩ : BufTy).Contents (Elt Ideal)) :
    (TRef.of (sig := sig) (T := ⟨S16384, .f32⟩) main_v129 h1 h2 h3).ofBuf v = v := rfl
theorem toBuf_v130 (h1 h2 h3) (v : (⟨S16384, .f32⟩ : BufTy).Contents (Elt Ideal)) :
    (TRef.of (sig := sig) (T := ⟨S16384, .f32⟩) main_v130 h1 h2 h3).toBuf v = v := rfl
theorem ofBuf_v130 (h1 h2 h3) (v : (⟨S16384, .f32⟩ : BufTy).Contents (Elt Ideal)) :
    (TRef.of (sig := sig) (T := ⟨S16384, .f32⟩) main_v130 h1 h2 h3).ofBuf v = v := rfl
theorem toBuf_call6_cst (h1 h2 h3) (v : (⟨S_, .f32⟩ : BufTy).Contents (Elt Ideal)) :
    (TRef.of (sig := sig) (T := ⟨S_, .f32⟩) main_call6_cst h1 h2 h3).toBuf v = v := rfl
theorem ofBuf_call6_cst (h1 h2 h3) (v : (⟨S_, .f32⟩ : BufTy).Contents (Elt Ideal)) :
    (TRef.of (sig := sig) (T := ⟨S_, .f32⟩) main_call6_cst h1 h2 h3).ofBuf v = v := rfl
theorem toBuf_call6_v0 (h1 h2 h3) (v : (⟨S16384x256, .f32⟩ : BufTy).Contents (Elt Ideal)) :
    (TRef.of (sig := sig) (T := ⟨S16384x256, .f32⟩) main_call6_v0 h1 h2 h3).toBuf v = v := rfl
theorem ofBuf_call6_v0 (h1 h2 h3) (v : (⟨S16384x256, .f32⟩ : BufTy).Contents (Elt Ideal)) :
    (TRef.of (sig := sig) (T := ⟨S16384x256, .f32⟩) main_call6_v0 h1 h2 h3).ofBuf v = v := rfl
theorem toBuf_v188 (h1 h2 h3) (v : (⟨S16384x256, .f32⟩ : BufTy).Contents (Elt Ideal)) :
    (TRef.of (sig := sig) (T := ⟨S16384x256, .f32⟩) main_v188 h1 h2 h3).toBuf v = v := rfl
theorem ofBuf_v188 (h1 h2 h3) (v : (⟨S16384x256, .f32⟩ : BufTy).Contents (Elt Ideal)) :
    (TRef.of (sig := sig) (T := ⟨S16384x256, .f32⟩) main_v188 h1 h2 h3).ofBuf v = v := rfl
theorem toBuf_v189 (h1 h2 h3) (v : (⟨S16384x256, .f32⟩ : BufTy).Contents (Elt Ideal)) :
    (TRef.of (sig := sig) (T := ⟨S16384x256, .f32⟩) main_v189 h1 h2 h3).toBuf v = v := rfl
theorem ofBuf_v189 (h1 h2 h3) (v : (⟨S16384x256, .f32⟩ : BufTy).Contents (Elt Ideal)) :
    (TRef.of (sig := sig) (T := ⟨S16384x256, .f32⟩) main_v189 h1 h2 h3).ofBuf v = v := rfl

/-- A fold of host operations evaluated at a literal buffer: each operation's result at its own buffer
    is its function of its operands' contents, at any other buffer what was there; typed references move contents
    unchanged; a two-operand concatenation is a function of its two operands. -/
macro "r_eval" : tactic =>
  `(tactic| simp (disch := decide) only [after_cons, after_nil,
      nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne',
      Cert.LibConcatFold.cat2_fold, Cert.LibTypedRefs.ofBuf_toBuf,
      toBuf_cst_3, ofBuf_cst_3, toBuf_call0_v0, ofBuf_call0_v0, toBuf_call0_v1, ofBuf_call0_v1, toBuf_v15, ofBuf_v15, toBuf_v11, ofBuf_v11, toBuf_v16, ofBuf_v16, toBuf_cst_4, ofBuf_cst_4, toBuf_call1_v0, ofBuf_call1_v0, toBuf_call1_v1, ofBuf_call1_v1, toBuf_v13, ofBuf_v13, toBuf_v17, ofBuf_v17, toBuf_v18, ofBuf_v18, toBuf_call2_cst, ofBuf_call2_cst, toBuf_call2_v0, ofBuf_call2_v0, toBuf_v76, ofBuf_v76, toBuf_v77, ofBuf_v77, toBuf_call3_cst, ofBuf_call3_cst, toBuf_call3_v0, ofBuf_call3_v0, toBuf_v105, ofBuf_v105, toBuf_v106, ofBuf_v106, toBuf_cst_25, ofBuf_cst_25, toBuf_call4_v0, ofBuf_call4_v0, toBuf_call4_v1, ofBuf_call4_v1, toBuf_v127, ofBuf_v127, toBuf_v123, ofBuf_v123, toBuf_v128, ofBuf_v128, toBuf_cst_26, ofBuf_cst_26, toBuf_call5_v0, ofBuf_call5_v0, toBuf_call5_v1, ofBuf_call5_v1, toBuf_v125, ofBuf_v125, toBuf_v129, ofBuf_v129, toBuf_v130, ofBuf_v130, toBuf_call6_cst, ofBuf_call6_cst, toBuf_call6_v0, ofBuf_call6_v0, toBuf_v188, ofBuf_v188, toBuf_v189, ofBuf_v189])

end Cert.ReferenceIdeal.REval

end
-- ==== Proof.RefWalk.lean ====
/-
  The reference's run, read stage by stage.  The reference is one straight line of 275 host operations, so every
  buffer ends at the fold of the operations over the launch contents.  The fold is taken over eight consecutive
  lists of operations; after each list the contents of the buffers that later lists still read are named: an argument
  keeps its launch contents, a computed buffer is its stage of the argument arrays (the generated reading of the
  reference, one named function per operation).  The result buffer ends at the last stage.
-/
import proofs.«145289_j35897336660385_1_alg».proof.Proof.RefOpsP
import proofs.«145289_j35897336660385_1_alg».proof.Proof.RefReadP
import proofs.«145289_j35897336660385_1_alg».proof.Proof.REval
import Idealize.ShloMosaic.Lib.StableHlo.Run

set_option maxRecDepth 65536
set_option maxHeartbeats 4000000

noncomputable section

namespace Cert.ReferenceIdeal.RefWalk

open Cert.ReferenceIdeal Cert.ReferenceIdeal.Gen Cert.ReferenceIdeal.ValueQ Cert.ReferenceIdeal.ReadP
open Idealize.ShloMosaic Idealize.ShloMosaic.TcCoe Idealize.ShloMosaic.StableHlo Idealize.SL.Sem

/-- Two lists of operations run one after the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

variable (m : (ℓ : Loc nD τ sig) → Buf (Elt Ideal) ℓ) (ρ : Dev nD → PrngReg) (c : Dev nD)

/-- An argument array's launch contents on core c. -/
abbrev arg (b : Ref sig .tc) : Buf (Elt Ideal) ((c.tc : Thread nD τ).loc b) := m ((c.tc : Thread nD τ).loc b)

/-- The buffer contents at launch and after each of the eight lists. -/
abbrev X0 : Valuation τ sig (Elt Ideal) := launchContents m c
def X1 : Valuation τ sig (Elt Ideal) := after opsA (X0 m c)
def X2 : Valuation τ sig (Elt Ideal) := after opsB (X1 m c)
def X3 : Valuation τ sig (Elt Ideal) := after opsC (X2 m c)
def X4 : Valuation τ sig (Elt Ideal) := after opsD (X3 m c)
def X5 : Valuation τ sig (Elt Ideal) := after opsE (X4 m c)
def X6 : Valuation τ sig (Elt Ideal) := after opsF (X5 m c)
def X7 : Valuation τ sig (Elt Ideal) := after opsG (X6 m c)
def X8 : Valuation τ sig (Elt Ideal) := after opsH (X7 m c)

/-- The whole fold is the eight folds one after the other. -/
theorem after_ops : after (ops (F := Ideal)) (launchContents m c) = X8 m c := by
  rw [ops_eq]
  simp only [after_append]
  rfl

/-! ### After opsA (contents X1) -/

theorem at1_v3 : X1 m c (Proc.devRef .tc main_v3) = (val_main_v3 (F := Ideal) (arg m c main_arg1)) := by
  dsimp only [X1, opsA]
  r_eval
  rfl

theorem at1_v6 : X1 m c (Proc.devRef .tc main_v6) = (val_main_v6 (F := Ideal) (arg m c main_arg1)) := by
  dsimp only [X1, opsA]
  r_eval
  rfl

theorem at1_v34 : X1 m c (Proc.devRef .tc main_v34) = (val_main_v34 (F := Ideal) (arg m c main_arg1) (arg m c main_arg2)) := by
  dsimp only [X1, opsA]
  r_eval
  rfl

theorem at1_arg0 : X1 m c (Proc.devRef .tc main_arg0) = (arg m c main_arg0) := by
  dsimp only [X1, opsA]
  r_eval <;> rfl

theorem at1_arg3 : X1 m c (Proc.devRef .tc main_arg3) = (arg m c main_arg3) := by
  dsimp only [X1, opsA]
  r_eval <;> rfl

theorem at1_arg4 : X1 m c (Proc.devRef .tc main_arg4) = (arg m c main_arg4) := by
  dsimp only [X1, opsA]
  r_eval <;> rfl

theorem at1_arg5 : X1 m c (Proc.devRef .tc main_arg5) = (arg m c main_arg5) := by
  dsimp only [X1, opsA]
  r_eval <;> rfl

theorem at1_arg6 : X1 m c (Proc.devRef .tc main_arg6) = (arg m c main_arg6) := by
  dsimp only [X1, opsA]
  r_eval <;> rfl

theorem at1_arg7 : X1 m c (Proc.devRef .tc main_arg7) = (arg m c main_arg7) := by
  dsimp only [X1, opsA]
  r_eval <;> rfl

theorem at1_arg8 : X1 m c (Proc.devRef .tc main_arg8) = (arg m c main_arg8) := by
  dsimp only [X1, opsA]
  r_eval <;> rfl

theorem at1_arg9 : X1 m c (Proc.devRef .tc main_arg9) = (arg m c main_arg9) := by
  dsimp only [X1, opsA]
  r_eval <;> rfl

theorem at1_arg10 : X1 m c (Proc.devRef .tc main_arg10) = (arg m c main_arg10) := by
  dsimp only [X1, opsA]
  r_eval <;> rfl

theorem at1_arg11 : X1 m c (Proc.devRef .tc main_arg11) = (arg m c main_arg11) := by
  dsimp only [X1, opsA]
  r_eval <;> rfl

theorem at1_arg12 : X1 m c (Proc.devRef .tc main_arg12) = (arg m c main_arg12) := by
  dsimp only [X1, opsA]
  r_eval <;> rfl

theorem at1_arg13 : X1 m c (Proc.devRef .tc main_arg13) = (arg m c main_arg13) := by
  dsimp only [X1, opsA]
  r_eval <;> rfl

theorem at1_arg14 : X1 m c (Proc.devRef .tc main_arg14) = (arg m c main_arg14) := by
  dsimp only [X1, opsA]
  r_eval <;> rfl

theorem at1_arg15 : X1 m c (Proc.devRef .tc main_arg15) = (arg m c main_arg15) := by
  dsimp only [X1, opsA]
  r_eval <;> rfl

theorem at1_arg16 : X1 m c (Proc.devRef .tc main_arg16) = (arg m c main_arg16) := by
  dsimp only [X1, opsA]
  r_eval <;> rfl

theorem at1_arg17 : X1 m c (Proc.devRef .tc main_arg17) = (arg m c main_arg17) := by
  dsimp only [X1, opsA]
  r_eval <;> rfl

theorem at1_arg18 : X1 m c (Proc.devRef .tc main_arg18) = (arg m c main_arg18) := by
  dsimp only [X1, opsA]
  r_eval <;> rfl

/-! ### After opsB (contents X2) -/

theorem at2_v51 : X2 m c (Proc.devRef .tc main_v51) = (val_main_v51 (F := Ideal) (arg m c main_arg0) (arg m c main_arg1) (arg m c main_arg2) (arg m c main_arg5) (arg m c main_arg6)) := by
  dsimp only [X2, opsB]
  r_eval
  rw [at1_arg0 m c, at1_arg5 m c, at1_v34 m c, at1_v3 m c, at1_v6 m c, at1_arg6 m c]
  rfl

theorem at2_arg0 : X2 m c (Proc.devRef .tc main_arg0) = (arg m c main_arg0) := by
  dsimp only [X2, opsB]
  r_eval
  exact at1_arg0 m c

theorem at2_arg3 : X2 m c (Proc.devRef .tc main_arg3) = (arg m c main_arg3) := by
  dsimp only [X2, opsB]
  r_eval
  exact at1_arg3 m c

theorem at2_arg4 : X2 m c (Proc.devRef .tc main_arg4) = (arg m c main_arg4) := by
  dsimp only [X2, opsB]
  r_eval
  exact at1_arg4 m c

theorem at2_arg7 : X2 m c (Proc.devRef .tc main_arg7) = (arg m c main_arg7) := by
  dsimp only [X2, opsB]
  r_eval
  exact at1_arg7 m c

theorem at2_arg8 : X2 m c (Proc.devRef .tc main_arg8) = (arg m c main_arg8) := by
  dsimp only [X2, opsB]
  r_eval
  exact at1_arg8 m c

theorem at2_arg9 : X2 m c (Proc.devRef .tc main_arg9) = (arg m c main_arg9) := by
  dsimp only [X2, opsB]
  r_eval
  exact at1_arg9 m c

theorem at2_arg10 : X2 m c (Proc.devRef .tc main_arg10) = (arg m c main_arg10) := by
  dsimp only [X2, opsB]
  r_eval
  exact at1_arg10 m c

theorem at2_arg11 : X2 m c (Proc.devRef .tc main_arg11) = (arg m c main_arg11) := by
  dsimp only [X2, opsB]
  r_eval
  exact at1_arg11 m c

theorem at2_arg12 : X2 m c (Proc.devRef .tc main_arg12) = (arg m c main_arg12) := by
  dsimp only [X2, opsB]
  r_eval
  exact at1_arg12 m c

theorem at2_arg13 : X2 m c (Proc.devRef .tc main_arg13) = (arg m c main_arg13) := by
  dsimp only [X2, opsB]
  r_eval
  exact at1_arg13 m c

theorem at2_arg14 : X2 m c (Proc.devRef .tc main_arg14) = (arg m c main_arg14) := by
  dsimp only [X2, opsB]
  r_eval
  exact at1_arg14 m c

theorem at2_arg15 : X2 m c (Proc.devRef .tc main_arg15) = (arg m c main_arg15) := by
  dsimp only [X2, opsB]
  r_eval
  exact at1_arg15 m c

theorem at2_arg16 : X2 m c (Proc.devRef .tc main_arg16) = (arg m c main_arg16) := by
  dsimp only [X2, opsB]
  r_eval
  exact at1_arg16 m c

theorem at2_arg17 : X2 m c (Proc.devRef .tc main_arg17) = (arg m c main_arg17) := by
  dsimp only [X2, opsB]
  r_eval
  exact at1_arg17 m c

theorem at2_arg18 : X2 m c (Proc.devRef .tc main_arg18) = (arg m c main_arg18) := by
  dsimp only [X2, opsB]
  r_eval
  exact at1_arg18 m c

/-! ### After opsC (contents X3) -/

theorem at3_v77 : X3 m c (Proc.devRef .tc main_v77) = (val_main_v77 (F := Ideal) (arg m c main_arg0) (arg m c main_arg1) (arg m c main_arg2) (arg m c main_arg5) (arg m c main_arg6) (arg m c main_arg9) (arg m c main_arg10)) := by
  dsimp only [X3, opsC]
  r_eval
  rw [at2_v51 m c, at2_arg0 m c, at2_arg9 m c, at2_arg10 m c]
  rfl

theorem at3_arg0 : X3 m c (Proc.devRef .tc main_arg0) = (arg m c main_arg0) := by
  dsimp only [X3, opsC]
  r_eval
  exact at2_arg0 m c

theorem at3_arg3 : X3 m c (Proc.devRef .tc main_arg3) = (arg m c main_arg3) := by
  dsimp only [X3, opsC]
  r_eval
  exact at2_arg3 m c

theorem at3_arg4 : X3 m c (Proc.devRef .tc main_arg4) = (arg m c main_arg4) := by
  dsimp only [X3, opsC]
  r_eval
  exact at2_arg4 m c

theorem at3_arg7 : X3 m c (Proc.devRef .tc main_arg7) = (arg m c main_arg7) := by
  dsimp only [X3, opsC]
  r_eval
  exact at2_arg7 m c

theorem at3_arg8 : X3 m c (Proc.devRef .tc main_arg8) = (arg m c main_arg8) := by
  dsimp only [X3, opsC]
  r_eval
  exact at2_arg8 m c

theorem at3_arg9 : X3 m c (Proc.devRef .tc main_arg9) = (arg m c main_arg9) := by
  dsimp only [X3, opsC]
  r_eval
  exact at2_arg9 m c

theorem at3_arg10 : X3 m c (Proc.devRef .tc main_arg10) = (arg m c main_arg10) := by
  dsimp only [X3, opsC]
  r_eval
  exact at2_arg10 m c

theorem at3_arg11 : X3 m c (Proc.devRef .tc main_arg11) = (arg m c main_arg11) := by
  dsimp only [X3, opsC]
  r_eval
  exact at2_arg11 m c

theorem at3_arg12 : X3 m c (Proc.devRef .tc main_arg12) = (arg m c main_arg12) := by
  dsimp only [X3, opsC]
  r_eval
  exact at2_arg12 m c

theorem at3_arg13 : X3 m c (Proc.devRef .tc main_arg13) = (arg m c main_arg13) := by
  dsimp only [X3, opsC]
  r_eval
  exact at2_arg13 m c

theorem at3_arg14 : X3 m c (Proc.devRef .tc main_arg14) = (arg m c main_arg14) := by
  dsimp only [X3, opsC]
  r_eval
  exact at2_arg14 m c

theorem at3_arg15 : X3 m c (Proc.devRef .tc main_arg15) = (arg m c main_arg15) := by
  dsimp only [X3, opsC]
  r_eval
  exact at2_arg15 m c

theorem at3_arg16 : X3 m c (Proc.devRef .tc main_arg16) = (arg m c main_arg16) := by
  dsimp only [X3, opsC]
  r_eval
  exact at2_arg16 m c

theorem at3_arg17 : X3 m c (Proc.devRef .tc main_arg17) = (arg m c main_arg17) := by
  dsimp only [X3, opsC]
  r_eval
  exact at2_arg17 m c

theorem at3_arg18 : X3 m c (Proc.devRef .tc main_arg18) = (arg m c main_arg18) := by
  dsimp only [X3, opsC]
  r_eval
  exact at2_arg18 m c

/-! ### After opsD (contents X4) -/

theorem at4_v111 : X4 m c (Proc.devRef .tc main_v111) = (val_main_v111 (F := Ideal) (arg m c main_arg4) (arg m c main_arg13) (arg m c main_arg14) (arg m c main_arg15) (arg m c main_arg16) (arg m c main_arg17) (arg m c main_arg18)) := by
  dsimp only [X4, opsD]
  r_eval
  rw [at3_arg4 m c, at3_arg13 m c, at3_arg14 m c, at3_arg15 m c, at3_arg16 m c, at3_arg17 m c, at3_arg18 m c]
  rfl

theorem at4_v77 : X4 m c (Proc.devRef .tc main_v77) = (val_main_v77 (F := Ideal) (arg m c main_arg0) (arg m c main_arg1) (arg m c main_arg2) (arg m c main_arg5) (arg m c main_arg6) (arg m c main_arg9) (arg m c main_arg10)) := by
  dsimp only [X4, opsD]
  r_eval
  exact at3_v77 m c

theorem at4_arg0 : X4 m c (Proc.devRef .tc main_arg0) = (arg m c main_arg0) := by
  dsimp only [X4, opsD]
  r_eval
  exact at3_arg0 m c

theorem at4_arg3 : X4 m c (Proc.devRef .tc main_arg3) = (arg m c main_arg3) := by
  dsimp only [X4, opsD]
  r_eval
  exact at3_arg3 m c

theorem at4_arg7 : X4 m c (Proc.devRef .tc main_arg7) = (arg m c main_arg7) := by
  dsimp only [X4, opsD]
  r_eval
  exact at3_arg7 m c

theorem at4_arg8 : X4 m c (Proc.devRef .tc main_arg8) = (arg m c main_arg8) := by
  dsimp only [X4, opsD]
  r_eval
  exact at3_arg8 m c

theorem at4_arg9 : X4 m c (Proc.devRef .tc main_arg9) = (arg m c main_arg9) := by
  dsimp only [X4, opsD]
  r_eval
  exact at3_arg9 m c

theorem at4_arg10 : X4 m c (Proc.devRef .tc main_arg10) = (arg m c main_arg10) := by
  dsimp only [X4, opsD]
  r_eval
  exact at3_arg10 m c

theorem at4_arg11 : X4 m c (Proc.devRef .tc main_arg11) = (arg m c main_arg11) := by
  dsimp only [X4, opsD]
  r_eval
  exact at3_arg11 m c

theorem at4_arg12 : X4 m c (Proc.devRef .tc main_arg12) = (arg m c main_arg12) := by
  dsimp only [X4, opsD]
  r_eval
  exact at3_arg12 m c

/-! ### After opsE (contents X5) -/

theorem at5_v115 : X5 m c (Proc.devRef .tc main_v115) = (val_main_v115 (F := Ideal) (arg m c main_arg3)) := by
  dsimp only [X5, opsE]
  r_eval
  rw [at4_arg3 m c]
  rfl

theorem at5_v118 : X5 m c (Proc.devRef .tc main_v118) = (val_main_v118 (F := Ideal) (arg m c main_arg3)) := by
  dsimp only [X5, opsE]
  r_eval
  rw [at4_arg3 m c]
  rfl

theorem at5_v146 : X5 m c (Proc.devRef .tc main_v146) = (val_main_v146 (F := Ideal) (arg m c main_arg3) (arg m c main_arg4) (arg m c main_arg13) (arg m c main_arg14) (arg m c main_arg15) (arg m c main_arg16) (arg m c main_arg17) (arg m c main_arg18)) := by
  dsimp only [X5, opsE]
  r_eval
  rw [at4_v111 m c, at4_arg3 m c]
  rfl

theorem at5_v77 : X5 m c (Proc.devRef .tc main_v77) = (val_main_v77 (F := Ideal) (arg m c main_arg0) (arg m c main_arg1) (arg m c main_arg2) (arg m c main_arg5) (arg m c main_arg6) (arg m c main_arg9) (arg m c main_arg10)) := by
  dsimp only [X5, opsE]
  r_eval
  exact at4_v77 m c

theorem at5_arg0 : X5 m c (Proc.devRef .tc main_arg0) = (arg m c main_arg0) := by
  dsimp only [X5, opsE]
  r_eval
  exact at4_arg0 m c

theorem at5_arg7 : X5 m c (Proc.devRef .tc main_arg7) = (arg m c main_arg7) := by
  dsimp only [X5, opsE]
  r_eval
  exact at4_arg7 m c

theorem at5_arg8 : X5 m c (Proc.devRef .tc main_arg8) = (arg m c main_arg8) := by
  dsimp only [X5, opsE]
  r_eval
  exact at4_arg8 m c

theorem at5_arg9 : X5 m c (Proc.devRef .tc main_arg9) = (arg m c main_arg9) := by
  dsimp only [X5, opsE]
  r_eval
  exact at4_arg9 m c

theorem at5_arg10 : X5 m c (Proc.devRef .tc main_arg10) = (arg m c main_arg10) := by
  dsimp only [X5, opsE]
  r_eval
  exact at4_arg10 m c

theorem at5_arg11 : X5 m c (Proc.devRef .tc main_arg11) = (arg m c main_arg11) := by
  dsimp only [X5, opsE]
  r_eval
  exact at4_arg11 m c

theorem at5_arg12 : X5 m c (Proc.devRef .tc main_arg12) = (arg m c main_arg12) := by
  dsimp only [X5, opsE]
  r_eval
  exact at4_arg12 m c

/-! ### After opsF (contents X6) -/

theorem at6_v163 : X6 m c (Proc.devRef .tc main_v163) = (val_main_v163 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg15) (arg m c main_arg16) (arg m c main_arg17) (arg m c main_arg18)) := by
  dsimp only [X6, opsF]
  r_eval
  rw [at5_v77 m c, at5_arg7 m c, at5_v146 m c, at5_v115 m c, at5_v118 m c, at5_arg8 m c]
  rfl

theorem at6_v77 : X6 m c (Proc.devRef .tc main_v77) = (val_main_v77 (F := Ideal) (arg m c main_arg0) (arg m c main_arg1) (arg m c main_arg2) (arg m c main_arg5) (arg m c main_arg6) (arg m c main_arg9) (arg m c main_arg10)) := by
  dsimp only [X6, opsF]
  r_eval
  exact at5_v77 m c

theorem at6_arg0 : X6 m c (Proc.devRef .tc main_arg0) = (arg m c main_arg0) := by
  dsimp only [X6, opsF]
  r_eval
  exact at5_arg0 m c

theorem at6_arg9 : X6 m c (Proc.devRef .tc main_arg9) = (arg m c main_arg9) := by
  dsimp only [X6, opsF]
  r_eval
  exact at5_arg9 m c

theorem at6_arg10 : X6 m c (Proc.devRef .tc main_arg10) = (arg m c main_arg10) := by
  dsimp only [X6, opsF]
  r_eval
  exact at5_arg10 m c

theorem at6_arg11 : X6 m c (Proc.devRef .tc main_arg11) = (arg m c main_arg11) := by
  dsimp only [X6, opsF]
  r_eval
  exact at5_arg11 m c

theorem at6_arg12 : X6 m c (Proc.devRef .tc main_arg12) = (arg m c main_arg12) := by
  dsimp only [X6, opsF]
  r_eval
  exact at5_arg12 m c

/-! ### After opsG (contents X7) -/

theorem at7_v189 : X7 m c (Proc.devRef .tc main_v189) = (val_main_v189 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18)) := by
  dsimp only [X7, opsG]
  r_eval
  rw [at6_v163 m c, at6_v77 m c, at6_arg11 m c, at6_arg12 m c]
  rfl

theorem at7_arg0 : X7 m c (Proc.devRef .tc main_arg0) = (arg m c main_arg0) := by
  dsimp only [X7, opsG]
  r_eval
  exact at6_arg0 m c

theorem at7_arg9 : X7 m c (Proc.devRef .tc main_arg9) = (arg m c main_arg9) := by
  dsimp only [X7, opsG]
  r_eval
  exact at6_arg9 m c

theorem at7_arg10 : X7 m c (Proc.devRef .tc main_arg10) = (arg m c main_arg10) := by
  dsimp only [X7, opsG]
  r_eval
  exact at6_arg10 m c

/-! ### After opsH (contents X8) -/

theorem at8_v214 : X8 m c (Proc.devRef .tc main_v214) = (val_main_v214 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18)) := by
  dsimp only [X8, opsH]
  r_eval
  rw [at7_v189 m c, at7_arg0 m c, at7_arg9 m c, at7_arg10 m c]
  rfl

/-- The result buffer after the whole line of operations: the last stage of the argument arrays. -/
theorem result_eq : after (ops (F := Ideal)) (launchContents m c) (Proc.devRef .tc main_v214) = (val_main_v214 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18)) := by
  rw [after_ops]
  exact at8_v214 m c

/-- The reference's run: every weakly fair execution terminates, the result at the last stage of the argument
    arrays, the arguments as launched. -/
theorem run_value : θ_run defs (onTc (τ := τ) (main (F := Ideal))) ⟨m, fun _ => 0, ρ⟩ (fun r => ∀ c : Dev nD,
      r.2.mem ((c.tc : Thread nD τ).loc main_v214) = (val_main_v214 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c main_v214).trans (result_eq m c),
      (h c main_arg0).trans (by r_eval <;> rfl),
      (h c main_arg1).trans (by r_eval <;> rfl),
      (h c main_arg2).trans (by r_eval <;> rfl),
      (h c main_arg3).trans (by r_eval <;> rfl),
      (h c main_arg4).trans (by r_eval <;> rfl),
      (h c main_arg5).trans (by r_eval <;> rfl),
      (h c main_arg6).trans (by r_eval <;> rfl),
      (h c main_arg7).trans (by r_eval <;> rfl),
      (h c main_arg8).trans (by r_eval <;> rfl),
      (h c main_arg9).trans (by r_eval <;> rfl),
      (h c main_arg10).trans (by r_eval <;> rfl),
      (h c main_arg11).trans (by r_eval <;> rfl),
      (h c main_arg12).trans (by r_eval <;> rfl),
      (h c main_arg13).trans (by r_eval <;> rfl),
      (h c main_arg14).trans (by r_eval <;> rfl),
      (h c main_arg15).trans (by r_eval <;> rfl),
      (h c main_arg16).trans (by r_eval <;> rfl),
      (h c main_arg17).trans (by r_eval <;> rfl),
      (h c main_arg18).trans (by r_eval <;> rfl)⟩)
    (run_seq scopedRefs_eq scopedSems_eq defs main (fun _ => ops) main_eq (fun _ => ops_sub) m ρ)

end Cert.ReferenceIdeal.RefWalk

end
-- ==== Proof.lean ====
/-
  The proof of `Cert.Claim` for a two-layer graph network on sixteen thousand nodes: six kernel launches (two
  products, three layer normalisations of a sum of two arrays, one edge-weight network) among host gathers and
  scatter-adds, against the same network written with host operations only.

  Frames.  The two kernel programs' frames are the generated frame certificates.  The reference is a straight line
  of host operations; its run (RefWalk) ends every buffer at the fold of the operations, the arguments unchanged.

  Preserves.  The ideal pass rewrote nothing, so the conjunct is `True`.

  Algebraic.  Both programs end their result at ONE function of the nineteen argument arrays: the reference's last
  stage `val_main_v214` (the generated reading of the reference, one named function per operation).
  * The reference: its operations, taken as eight consecutive lists, give each later-read buffer its stage (RefWalk).
  * The kernel: its run leaves every buffer at the last of twenty boundary contents (KRun); followed backwards, a
    launch's output array is the specification's dense stage of the arrays the launch reads (Regions over Payloads:
    a block of rows written back is that block of rows of one whole-array function, and the blocks tile the array),
    which is the reference's stage (HostStages); the host operations between the launches are the reference's own
    operations, so their results are the reference's stages once their inputs are (Walk).
  At the exact instance a product into a zero accumulator and a host contraction are the same sum, a lane
  reduction and a host reduce-add from zero are the same sum, the two spellings of the normalisation read the
  same entries of the same row, and narrowing to bf16 is no change; no law used needs finite inputs, so the
  precondition is never opened.
-/
import proofs.«145289_j35897336660385_1_alg».proof.Defs
import proofs.«145289_j35897336660385_1_alg».proof.Proof.Gen.Kernel
import proofs.«145289_j35897336660385_1_alg».proof.Proof.Gen.Kernel.Frame
import proofs.«145289_j35897336660385_1_alg».proof.Proof.Gen.KernelIdeal
import proofs.«145289_j35897336660385_1_alg».proof.Proof.Gen.KernelIdeal.Frame
import proofs.«145289_j35897336660385_1_alg».proof.Proof.Gen.ReferenceIdeal
import proofs.«145289_j35897336660385_1_alg».proof.Proof.Gen.Pre_finite_inputs
import proofs.«145289_j35897336660385_1_alg».proof.Proof.KRun
import proofs.«145289_j35897336660385_1_alg».proof.Proof.Walk
import proofs.«145289_j35897336660385_1_alg».proof.Proof.RefWalk
import Idealize.ShloMosaic.Adequacy
import Idealize.ShloMosaic.Init

set_option maxRecDepth 65536

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefWalk.run_value m ρ)

theorem preserves : Cert.preserves_Kernel_KernelIdeal := trivial

/-- Both runs end their result at the reference's last stage of the argument arrays. -/
theorem algebraic : Cert.algebraic_KernelIdeal_ReferenceIdeal := by
  intro m ρ m' ρ' _ hagree
  refine ⟨fun c => Cert.ReferenceIdeal.ReadP.val_main_v214 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Walk.at20_v119 m ρ c), (h c).2⟩)
      (Cert.KernelIdeal.KRun.run_value m ρ)
  · refine (θ_run Cert.ReferenceIdeal.defs _ _).mono (fun r h c => ⟨(h c).1.trans ?_, (h c).2⟩)
      (Cert.ReferenceIdeal.RefWalk.run_value m' ρ')
    dsimp only [Cert.ReferenceIdeal.RefWalk.arg]
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
